-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x32 : Shape := ⟨3, ![4, 4096, 32]⟩
abbrev S4x4096x3 : Shape := ⟨3, ![4, 4096, 3]⟩
abbrev S4x4096x127 : Shape := ⟨3, ![4, 4096, 127]⟩
abbrev S4x256 : Shape := ⟨2, ![4, 256]⟩
abbrev S256x128 : Shape := ⟨2, ![256, 128]⟩
abbrev S256 : Shape := ⟨1, ![256]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel
  bcast_S_S4x4096x127 : S_.BroadcastsInDim S4x4096x127 (![] : Fin 0 → Fin S4x4096x127.rank)
  reducesTo_S4x4096x127_S_d0_1_2 : S4x4096x127.ReducesTo [0, 1, 2] S_
  bcast_S_S4x256 : S_.BroadcastsInDim S4x256 (![] : Fin 0 → Fin S4x256.rank)
  reducesTo_S4x256_S_d0_1 : S4x256.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_arg6 : FVec F S256 .f32) (main_arg7 : FVec F S256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : IVec S4x4096x32 32) (main_arg1 : FVec F S4x4096x3 .f32) (main_arg2 : FVec F S4x4096x127 .f32) (main_arg3 : FVec F S4x256 .f32) (main_arg4 : FVec F S256x128 .f32) (main_arg5 : FVec F S256 .f32) (main_arg6 : FVec F S256 .f32) (main_arg7 : FVec F S256 .f32) : IVec S_ 1 :=
  let main_v0 : FVec F S4x4096x3 .f32 := Host.absf main_arg1
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x127 .f32 := Host.absf main_arg2
  let main_cst_0 : FVec F S_ .f32 := constant S_ .f32 0x7F800000#32
  let main_v5 : FVec F S4x4096x127 .f32 := broadcastInDim S4x4096x127 ![] bcast_S_S4x4096x127 main_cst_0
  let main_v6 : IVec S4x4096x127 1 := cmpf .olt main_v4 main_v5
  let main_c_1 : IVec S_ 1 := constantI S_ 1 1#1
  let main_v7 : IVec S_ 1 := (fun x v => Host.reduce IntOp.andi x v reducesTo_S4x4096x127_S_d0_1_2 h_S_) main_v6 main_c_1
  let main_v8 : IVec S_ 1 := andi main_v3 main_v7
  let main_v9 : FVec F S4x256 .f32 := Host.absf main_arg3
  let main_cst_2 : FVec F S_ .f32 := constant S_ .f32 0x7F800000#32
  let main_v10 : FVec F S4x256 .f32 := broadcastInDim S4x256 ![] bcast_S_S4x256 main_cst_2
  let main_v11 : IVec S4x256 1 := cmpf .olt main_v9 main_v10
  let main_c_3 : IVec S_ 1 := constantI S_ 1 1#1
  let main_v12 : IVec S_ 1 := (fun x v => Host.reduce IntOp.andi x v reducesTo_S4x256_S_d0_1 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S4x4096x32 : Shape := ⟨3, ![4, 4096, 32]⟩
abbrev S4x4096x3 : Shape := ⟨3, ![4, 4096, 3]⟩
abbrev S4x4096x127 : Shape := ⟨3, ![4, 4096, 127]⟩
abbrev S4x256 : Shape := ⟨2, ![4, 256]⟩
abbrev S256x128 : Shape := ⟨2, ![256, 128]⟩
abbrev S256 : Shape := ⟨1, ![256]⟩
abbrev S_ : Shape := ⟨0, ![]⟩
abbrev S4x4096x32x1 : Shape := ⟨4, ![4, 4096, 32, 1]⟩
abbrev S4x4096x32x3 : Shape := ⟨4, ![4, 4096, 32, 3]⟩
abbrev S4x4096x32x127 : Shape := ⟨4, ![4, 4096, 32, 127]⟩
abbrev S16384x32x3 : Shape := ⟨3, ![16384, 32, 3]⟩
abbrev S16384x32x127 : Shape := ⟨3, ![16384, 32, 127]⟩
abbrev S16384x3 : Shape := ⟨2, ![16384, 3]⟩
abbrev S1x256 : Shape := ⟨2, ![1, 256]⟩
abbrev S3x256 : Shape := ⟨2, ![3, 256]⟩
abbrev S128x256 : Shape := ⟨2, ![128, 256]⟩
abbrev S127x256 : Shape := ⟨2, ![127, 256]⟩
abbrev S128x32x127 : Shape := ⟨3, ![128, 32, 127]⟩
abbrev S4096x127 : Shape := ⟨2, ![4096, 127]⟩
abbrev S4096 : Shape := ⟨1, ![4096]⟩
abbrev S4096x1 : Shape := ⟨2, ![4096, 1]⟩
abbrev S4096x256 : Shape := ⟨2, ![4096, 256]⟩
abbrev S16384x256 : Shape := ⟨2, ![16384, 256]⟩
abbrev S64x32x127 : Shape := ⟨3, ![64, 32, 127]⟩
abbrev S64x32x3 : Shape := ⟨3, ![64, 32, 3]⟩
abbrev S64x3 : Shape := ⟨2, ![64, 3]⟩
abbrev S64x256 : Shape := ⟨2, ![64, 256]⟩
abbrev S64x1x3 : Shape := ⟨3, ![64, 1, 3]⟩
abbrev S64x32 : Shape := ⟨2, ![64, 32]⟩
abbrev S64x32x1 : Shape := ⟨3, ![64, 32, 1]⟩
abbrev S1x1x256 : Shape := ⟨3, ![1, 1, 256]⟩
abbrev S64x32x256 : Shape := ⟨3, ![64, 32, 256]⟩
abbrev S2048x127 : Shape := ⟨2, ![2048, 127]⟩
abbrev S2048x256 : Shape := ⟨2, ![2048, 256]⟩
abbrev S4x4096x256 : Shape := ⟨3, ![4, 4096, 256]⟩

abbrev nBuf : Space → Nat
  | .hbm => 69
  | .vmem => 24
  | .smem => 0
  | _ => 0

abbrev bufTy : (tb : Table) → Fin (tcTables nBuf tb) → BufTy
  | .hbm, ⟨0, _⟩ => ⟨S4x4096x32, .i32⟩
  | .hbm, ⟨1, _⟩ => ⟨S4x4096x3, .f32⟩
  | .hbm, ⟨2, _⟩ => ⟨S4x4096x127, .f32⟩
  | .hbm, ⟨3, _⟩ => ⟨S4x256, .f32⟩
  | .hbm, ⟨4, _⟩ => ⟨S256x128, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S_, .i32⟩
  | .hbm, ⟨9, _⟩ => ⟨S4x4096x32, .i32⟩
  | .hbm, ⟨10, _⟩ => ⟨S4x4096x32, .i1⟩
  | .hbm, ⟨11, _⟩ => ⟨S_, .i32⟩
  | .hbm, ⟨12, _⟩ => ⟨S4x4096x32, .i32⟩
  | .hbm, ⟨13, _⟩ => ⟨S4x4096x32, .i32⟩
  | .hbm, ⟨14, _⟩ => ⟨S4x4096x32, .i32⟩
  | .hbm, ⟨15, _⟩ => ⟨S4x4096x32x1, .i32⟩
  | .hbm, ⟨16, _⟩ => ⟨S4x4096x32x3, .f32⟩
  | .hbm, ⟨17, _⟩ => ⟨S_, .i32⟩
  | .hbm, ⟨18, _⟩ => ⟨S4x4096x32, .i32⟩
  | .hbm, ⟨19, _⟩ => ⟨S4x4096x32, .i1⟩
  | .hbm, ⟨20, _⟩ => ⟨S_, .i32⟩
  | .hbm, ⟨21, _⟩ => ⟨S4x4096x32, .i32⟩
  | .hbm, ⟨22, _⟩ => ⟨S4x4096x32, .i32⟩
  | .hbm, ⟨23, _⟩ => ⟨S4x4096x32, .i32⟩
  | .hbm, ⟨24, _⟩ => ⟨S4x4096x32x1, .i32⟩
  | .hbm, ⟨25, _⟩ => ⟨S4x4096x32x127, .f32⟩
  | .hbm, ⟨26, _⟩ => ⟨S16384x32x3, .f32⟩
  | .hbm, ⟨27, _⟩ => ⟨S16384x32x127, .f32⟩
  | .hbm, ⟨28, _⟩ => ⟨S16384x3, .f32⟩
  | .hbm, ⟨29, _⟩ => ⟨S1x256, .f32⟩
  | .hbm, ⟨30, _⟩ => ⟨S256, .f32⟩
  | .hbm, ⟨31, _⟩ => ⟨S1x256, .f32⟩
  | .hbm, ⟨32, _⟩ => ⟨S256, .f32⟩
  | .hbm, ⟨33, _⟩ => ⟨S256, .f32⟩
  | .hbm, ⟨34, _⟩ => ⟨S1x256, .f32⟩
  | .hbm, ⟨35, _⟩ => ⟨S256, .f32⟩
  | .hbm, ⟨36, _⟩ => ⟨S1x256, .f32⟩
  | .hbm, ⟨37, _⟩ => ⟨S256, .f32⟩
  | .hbm, ⟨38, _⟩ => ⟨S256, .f32⟩
  | .hbm, ⟨39, _⟩ => ⟨S1x256, .f32⟩
  | .hbm, ⟨40, _⟩ => ⟨S256, .f32⟩
  | .hbm, ⟨41, _⟩ => ⟨S1x256, .f32⟩
  | .hbm, ⟨42, _⟩ => ⟨S256, .f32⟩
  | .hbm, ⟨43, _⟩ => ⟨S256, .f32⟩
  | .hbm, ⟨44, _⟩ => ⟨S1x256, .f32⟩
  | .hbm, ⟨45, _⟩ => ⟨S1x256, .f32⟩
  | .hbm, ⟨46, _⟩ => ⟨S1x256, .f32⟩
  | .hbm, ⟨47, _⟩ => ⟨S3x256, .f32⟩
  | .hbm, ⟨48, _⟩ => ⟨S1x256, .f32⟩
  | .hbm, ⟨49, _⟩ => ⟨S256, .f32⟩
  | .hbm, ⟨50, _⟩ => ⟨S1x256, .f32⟩
  | .hbm, ⟨51, _⟩ => ⟨S128x256, .f32⟩
  | .hbm, ⟨52, _⟩ => ⟨S127x256, .f32⟩
  | .hbm, ⟨53, _⟩ => ⟨S1x256, .f32⟩
  | .hbm, ⟨54, _⟩ => ⟨S1x256, .f32⟩
  | .hbm, ⟨55, _⟩ => ⟨S1x256, .f32⟩
  | .hbm, ⟨56, _⟩ => ⟨S1x256, .f32⟩
  | .hbm, ⟨57, _⟩ => ⟨S1x256, .f32⟩
  | .hbm, ⟨58, _⟩ => ⟨S1x256, .f32⟩
  | .hbm, ⟨59, _⟩ => ⟨S_, .f32⟩
  | .hbm, ⟨60, _⟩ => ⟨S1x256, .f32⟩
  | .hbm, ⟨61, _⟩ => ⟨S1x256, .f32⟩
  | .hbm, ⟨62, _⟩ => ⟨S_, .f32⟩
  | .hbm, ⟨63, _⟩ => ⟨S1x256, .f32⟩
  | .hbm, ⟨64, _⟩ => ⟨S1x256, .f32⟩
  | .hbm, ⟨65, _⟩ => ⟨S1x256, .f32⟩
  | .hbm, ⟨66, _⟩ => ⟨S1x256, .f32⟩
  | .hbm, ⟨67, _⟩ => ⟨S16384x256, .f32⟩
  | .hbm, ⟨68, _⟩ => ⟨S4x4096x256, .f32⟩
  | .local _ .vmem, ⟨0, _⟩ => ⟨S128x32x127, .f32⟩
  | .local _ .vmem, ⟨1, _⟩ => ⟨S128x32x127, .f32⟩
  | .local _ .vmem, ⟨2, _⟩ => ⟨S127x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S64x32x127, .f32⟩
  | .local _ .vmem, ⟨8, _⟩ => ⟨S64x32x127, .f32⟩
  | .local _ .vmem, ⟨9, _⟩ => ⟨S64x32x3, .f32⟩
  | .local _ .vmem, ⟨10, _⟩ => ⟨S64x32x3, .f32⟩
  | .local _ .vmem, ⟨11, _⟩ => ⟨S64x3, .f32⟩
  | .local _ .vmem, ⟨12, _⟩ => ⟨S64x3, .f32⟩
  | .local _ .vmem, ⟨13, _⟩ => ⟨S3x256, .f32⟩
  | .local _ .vmem, ⟨14, _⟩ => ⟨S1x256, .f32⟩
  | .local _ .vmem, ⟨15, _⟩ => ⟨S127x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S64x256, .f32⟩
  | .local _ .vmem, ⟨23, _⟩ => ⟨S64x256, .f32⟩
  | _, _ => ⟨S4x4096x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45_0 : Ref sig .tc := ⟨.hbm, 57, rfl⟩
abbrev main_v45_1 : Ref sig .tc := ⟨.hbm, 58, rfl⟩
abbrev main_cst : Ref sig .tc := ⟨.hbm, 59, rfl⟩
abbrev main_v46 : Ref sig .tc := ⟨.hbm, 60, rfl⟩
abbrev main_v47 : Ref sig .tc := ⟨.hbm, 61, rfl⟩
abbrev main_cst_3 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem12_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x32x127 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S127x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![256], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x32x127 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x32x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S127x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S64x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  bcast_S_S4x4096x32 : S_.BroadcastsInDim S4x4096x32 (![] : Fin 0 → Fin S4x4096x32.rank)
  bcast_S4x4096x32_S4x4096x32x1_0_1_2 : S4x4096x32.BroadcastsInDim S4x4096x32x1 (![0, 1, 2] : Fin 3 → Fin S4x4096x32x1.rank)
  shapeCasts_S4x4096x32x3_S16384x32x3 : S4x4096x32x3.ShapeCasts S16384x32x3
  shapeCasts_S4x4096x32x127_S16384x32x127 : S4x4096x32x127.ShapeCasts S16384x32x127
  shapeCasts_S4x4096x3_S16384x3 : S4x4096x3.ShapeCasts S16384x3
  slices_S4x256_S1x256_1_0 : S4x256.Slices ![1, 0] S1x256
  shapeCasts_S1x256_S256 : S1x256.ShapeCasts S256
  slices_S4x256_S1x256_0_0 : S4x256.Slices ![0, 0] S1x256
  slices_S4x256_S1x256_2_0 : S4x256.Slices ![2, 0] S1x256
  slices_S4x256_S1x256_3_0 : S4x256.Slices ![3, 0] S1x256
  bcast_S256_S1x256_1 : S256.BroadcastsInDim S1x256 (![1] : Fin 1 → Fin S1x256.rank)
  concatenates_S1x256_S1x256_S1x256_S3x256_d0 : Shape.Concatenates [S1x256, S1x256, S1x256] S3x256 0
  shapeCasts_S256_S1x256 : S256.ShapeCasts S1x256
  transposes_S256x128_S128x256_1_0 : S256x128.Transposes [1, 0] S128x256
  slices_S128x256_S127x256_0_0 : S128x256.Slices ![0, 0] S127x256
  slices_S128x256_S1x256_127_0 : S128x256.Slices ![127, 0] S1x256
  inb_S1x256_S1x256_0_0 : ∀ a, (![0, 0] : Fin 2 → Nat) a + S1x256.size a ≤ S1x256.size a
  h_S1x256 : 0 < S1x256.numel
  inb_S128x32x127_S128x32x127_0_0_0 : ∀ a, (![0, 0, 0] : Fin 3 → Nat) a + S128x32x127.size a ≤ S128x32x127.size a
  h_S128x32x127 : 0 < S128x32x127.numel
  shapeCasts_S128x32x127_S128x32x127 : S128x32x127.ShapeCasts S128x32x127
  shapeCasts_S128x32x127_S4096x127 : S128x32x127.ShapeCasts S4096x127
  reduces_S4096x127_S4096 : S4096x127.Reduces [1] S4096
  shapeCasts_S4096_S4096x1 : S4096.ShapeCasts S4096x1
  bitsLt_bf16_f32 : FTy.bits .bf16 < FTy.bits .f32
  inb_S127x256_S127x256_0_0 : ∀ a, (![0, 0] : Fin 2 → Nat) a + S127x256.size a ≤ S127x256.size a
  h_S127x256 : 0 < S127x256.numel
  shapeCasts_S127x256_S127x256 : S127x256.ShapeCasts S127x256
  shapeCasts_S1x256_S1x256 : S1x256.ShapeCasts S1x256
  broadcasts_S4096x1_S4096x256 : S4096x1.Broadcasts S4096x256
  broadcasts_S1x256_S4096x256 : S1x256.Broadcasts S4096x256
  reduces_S4096x256_S256 : S4096x256.Reduces [0] S256
  bcast_S_S1x256 : S_.BroadcastsInDim S1x256 (![] : Fin 0 → Fin S1x256.rank)
  inb_S64x32x127_S64x32x127_0_0_0 : ∀ a, (![0, 0, 0] : Fin 3 → Nat) a + S64x32x127.size a ≤ S64x32x127.size a
  h_S64x32x127 : 0 < S64x32x127.numel
  shapeCasts_S64x32x127_S64x32x127 : S64x32x127.ShapeCasts S64x32x127
  inb_S64x32x3_S64x32x3_0_0_0 : ∀ a, (![0, 0, 0] : Fin 3 → Nat) a + S64x32x3.size a ≤ S64x32x3.size a
  h_S64x32x3 : 0 < S64x32x3.numel
  shapeCasts_S64x32x3_S64x32x3 : S64x32x3.ShapeCasts S64x32x3
  inb_S64x3_S64x3_0_0 : ∀ a, (![0, 0] : Fin 2 → Nat) a + S64x3.size a ≤ S64x3.size a
  h_S64x3 : 0 < S64x3.numel
  shapeCasts_S64x3_S64x3 : S64x3.ShapeCasts S64x3
  shapeCasts_S64x3_S64x1x3 : S64x3.ShapeCasts S64x1x3
  broadcasts_S64x1x3_S64x32x3 : S64x1x3.Broadcasts S64x32x3
  reduces_S64x32x3_S64x32 : S64x32x3.Reduces [2] S64x32
  shapeCasts_S64x32_S64x32x1 : S64x32.ShapeCasts S64x32x1
  broadcasts_S64x32x1_S64x32x3 : S64x32x1.Broadcasts S64x32x3
  inb_S3x256_S1x256_0_0 : ∀ a, (![0, 0] : Fin 2 → Nat) a + S1x256.size a ≤ S3x256.size a
  shapeCasts_S1x256_S1x1x256 : S1x256.ShapeCasts S1x1x256
  inb_S3x256_S1x256_1_0 : ∀ a, (![1, 0] : Fin 2 → Nat) a + S1x256.size a ≤ S3x256.size a
  inb_S3x256_S1x256_2_0 : ∀ a, (![2, 0] : Fin 2 → Nat) a + S1x256.size a ≤ S3x256.size a
  slices_S64x32x3_o0_0_0_S64x32x1 : S64x32x3.Slices ![0, 0, 0] S64x32x1
  broadcasts_S64x32x1_S64x32x256 : S64x32x1.Broadcasts S64x32x256
  broadcasts_S1x1x256_S64x32x256 : S1x1x256.Broadcasts S64x32x256
  slices_S64x32x3_o0_0_1_S64x32x1 : S64x32x3.Slices ![0, 0, 1] S64x32x1
  slices_S64x32x3_o0_0_2_S64x32x1 : S64x32x3.Slices ![0, 0, 2] S64x32x1
  shapeCasts_S64x32x127_S2048x127 : S64x32x127.ShapeCasts S2048x127
  reduces_S64x32x127_S64x32 : S64x32x127.Reduces [2] S64x32
  shapeCasts_S2048x256_S64x32x256 : S2048x256.ShapeCasts S64x32x256
  reduces_S64x32x256_S64x256 : S64x32x256.Reduces [1] S64x256
  inb_S64x256_S64x256_0_0 : ∀ a, (![0, 0] : Fin 2 → Nat) a + S64x256.size a ≤ S64x256.size a
  h_S64x256 : 0 < S64x256.numel
  shapeCasts_S16384x256_S4x4096x256 : S16384x256.ShapeCasts S4x4096x256
  gather_S4x4096x3_S4x4096x32x1_S4x4096x32x3_3_1_0_0_1_3_113_wf : GatherDims.WF S4x4096x3 S4x4096x32x1 S4x4096x32x3 [3] [1] [0] [1] [0] 3 ![1, 1, 3]
  gather_S4x4096x127_S4x4096x32x1_S4x4096x32x127_3_1_0_0_1_3_11127_wf : GatherDims.WF S4x4096x127 S4x4096x32x1 S4x4096x32x127 [3] [1] [0] [1] [0] 3 ![1, 1, 127]
  dot_S4096x127_S127x256_S4096x256_1_0_0_1_n_n_wf : DotDims.WF S4096x127 S127x256 S4096x256 [1] [0] [0] [1] [] []
  dot_S2048x127_S127x256_S2048x256_1_0_0_1_n_n_wf : DotDims.WF S2048x127 S127x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x127.size a ≤ S16384x32x127.size a
  hwx0_0 : ∀ i : grid0.Coords, EltTy.bits .f32 = 32 ∨ (Rect.block (s := S16384x32x127) S128x32x127.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S127x256.size a ≤ S127x256.size a
  hwx0_1 : ∀ i : grid0.Coords, EltTy.bits .f32 = 32 ∨ (Rect.block (s := S127x256) S127x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x32x127.size a ≤ S16384x32x127.size a
  hwx1_0 : ∀ i : grid1.Coords, EltTy.bits .f32 = 32 ∨ (Rect.block (s := S16384x32x127) S64x32x127.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x32x3.size a ≤ S16384x32x3.size a
  hwx1_1 : ∀ i : grid1.Coords, EltTy.bits .f32 = 32 ∨ (Rect.block (s := S16384x32x3) S64x32x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x3.size a ≤ S16384x3.size a
  hwx1_2 : ∀ i : grid1.Coords, EltTy.bits .f32 = 32 ∨ (Rect.block (s := S16384x3) S64x3.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x256.size a ≤ S3x256.size a
  hwx1_3 : ∀ i : grid1.Coords, EltTy.bits .f32 = 32 ∨ (Rect.block (s := S3x256) S3x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S127x256.size a ≤ S127x256.size a
  hwx1_5 : ∀ i : grid1.Coords, EltTy.bits .f32 = 32 ∨ (Rect.block (s := S127x256) S127x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x256.size a ≤ S1x256.size a
  hwx1_11 : ∀ i : grid1.Coords, EltTy.bits .f32 = 32 ∨ (Rect.block (s := S1x256) S1x256.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S64x256.size a ≤ S16384x256.size a
  hwx1_12 : ∀ i : grid1.Coords, EltTy.bits .f32 = 32 ∨ (Rect.block (s := S16384x256) S64x256.size (cc1_transform_12 i) (hinb1_12 i)).WholeWords (EltTy.packing .f32)

variable [Facts₀]

def gather_S4x4096x3_S4x4096x32x1_S4x4096x32x3_3_1_0_0_1_3_113 : GatherDims S4x4096x3 S4x4096x32x1 S4x4096x32x3 where
  offsetDims := [3]
  collapsedSliceDims := [1]
  operandBatchingDims := [0]
  startIndicesBatchingDims := [0]
  startIndexMap := [1]
  indexVectorDim := 3
  sliceSizes := ![1, 1, 3]
  wf := gather_S4x4096x3_S4x4096x32x1_S4x4096x32x3_3_1_0_0_1_3_113_wf
def gather_S4x4096x127_S4x4096x32x1_S4x4096x32x127_3_1_0_0_1_3_11127 : GatherDims S4x4096x127 S4x4096x32x1 S4x4096x32x127 where
  offsetDims := [3]
  collapsedSliceDims := [1]
  operandBatchingDims := [0]
  startIndicesBatchingDims := [0]
  startIndexMap := [1]
  indexVectorDim := 3
  sliceSizes := ![1, 1, 127]
  wf := gather_S4x4096x127_S4x4096x32x1_S4x4096x32x127_3_1_0_0_1_3_11127_wf
def dot_S4096x127_S127x256_S4096x256_1_0_0_1_n_n : DotDims S4096x127 S127x256 S4096x256 where
  lhsContracting := [1]
  rhsContracting := [0]
  lhsNonContracting := [0]
  rhsNonContracting := [1]
  lhsBatch := []
  rhsBatch := []
  wf := dot_S4096x127_S127x256_S4096x256_1_0_0_1_n_n_wf
def dot_S2048x127_S127x256_S2048x256_1_0_0_1_n_n : DotDims S2048x127 S127x256 S2048x256 where
  lhsContracting := [1]
  rhsContracting := [0]
  lhsNonContracting := [0]
  rhsNonContracting := [1]
  lhsBatch := []
  rhsBatch := []
  wf := dot_S2048x127_S127x256_S2048x256_1_0_0_1_n_n_wf

abbrev win0_0 : Pipeline.Window sig grid0 :=
  Pipeline.Window.ofSpec (Memref.whole main_v15) S128x32x127.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S127x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v42) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45_0) S1x256.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v45_1) S1x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S64x32x127.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S64x32x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S64x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S3x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S127x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v43) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v44) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v47) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v51) S1x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v52) S64x256.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S4x4096x32 : Shape := ⟨3, ![4, 4096, 32]⟩
abbrev S4x4096x3 : Shape := ⟨3, ![4, 4096, 3]⟩
abbrev S4x4096x127 : Shape := ⟨3, ![4, 4096, 127]⟩
abbrev S4x256 : Shape := ⟨2, ![4, 256]⟩
abbrev S256x128 : Shape := ⟨2, ![256, 128]⟩
abbrev S256 : Shape := ⟨1, ![256]⟩
abbrev S_ : Shape := ⟨0, ![]⟩
abbrev S4x4096x32x1 : Shape := ⟨4, ![4, 4096, 32, 1]⟩
abbrev S4x4096x32x3 : Shape := ⟨4, ![4, 4096, 32, 3]⟩
abbrev S4x4096x1x3 : Shape := ⟨4, ![4, 4096, 1, 3]⟩
abbrev S1x256 : Shape := ⟨2, ![1, 256]⟩
abbrev S3x256 : Shape := ⟨2, ![3, 256]⟩
abbrev S4x4096x32x256 : Shape := ⟨4, ![4, 4096, 32, 256]⟩
abbrev S1x1x1x256 : Shape := ⟨4, ![1, 1, 1, 256]⟩
abbrev S4x4096x32x127 : Shape := ⟨4, ![4, 4096, 32, 127]⟩
abbrev S4x4096x32x128 : Shape := ⟨4, ![4, 4096, 32, 128]⟩
abbrev S4x4096x256 : Shape := ⟨3, ![4, 4096, 256]⟩

abbrev nBuf : Space → Nat
  | .hbm => 119
  | .vmem => 0
  | .smem => 0
  | _ => 0

abbrev bufTy : (tb : Table) → Fin (tcTables nBuf tb) → BufTy
  | .hbm, ⟨0, _⟩ => ⟨S4x4096x32, .i32⟩
  | .hbm, ⟨1, _⟩ => ⟨S4x4096x3, .f32⟩
  | .hbm, ⟨2, _⟩ => ⟨S4x4096x127, .f32⟩
  | .hbm, ⟨3, _⟩ => ⟨S4x256, .f32⟩
  | .hbm, ⟨4, _⟩ => ⟨S256x128, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S_, .i32⟩
  | .hbm, ⟨9, _⟩ => ⟨S4x4096x32, .i32⟩
  | .hbm, ⟨10, _⟩ => ⟨S4x4096x32, .i1⟩
  | .hbm, ⟨11, _⟩ => ⟨S_, .i32⟩
  | .hbm, ⟨12, _⟩ => ⟨S4x4096x32, .i32⟩
  | .hbm, ⟨13, _⟩ => ⟨S4x4096x32, .i32⟩
  | .hbm, ⟨14, _⟩ => ⟨S4x4096x32, .i32⟩
  | .hbm, ⟨15, _⟩ => ⟨S4x4096x32x1, .i32⟩
  | .hbm, ⟨16, _⟩ => ⟨S4x4096x32x3, .f32⟩
  | .hbm, ⟨17, _⟩ => ⟨S4x4096x1x3, .f32⟩
  | .hbm, ⟨18, _⟩ => ⟨S4x4096x32x3, .f32⟩
  | .hbm, ⟨19, _⟩ => ⟨S4x4096x32x3, .f32⟩
  | .hbm, ⟨20, _⟩ => ⟨S4x4096x32x3, .f32⟩
  | .hbm, ⟨21, _⟩ => ⟨S_, .f32⟩
  | .hbm, ⟨22, _⟩ => ⟨S4x4096x32, .f32⟩
  | .hbm, ⟨23, _⟩ => ⟨S4x4096x32x1, .f32⟩
  | .hbm, ⟨24, _⟩ => ⟨S4x4096x32x1, .f32⟩
  | .hbm, ⟨25, _⟩ => ⟨S_, .f32⟩
  | .hbm, ⟨26, _⟩ => ⟨S4x4096x32x1, .f32⟩
  | .hbm, ⟨27, _⟩ => ⟨S4x4096x32x1, .f32⟩
  | .hbm, ⟨28, _⟩ => ⟨S4x4096x32x3, .f32⟩
  | .hbm, ⟨29, _⟩ => ⟨S4x4096x32x3, .f32⟩
  | .hbm, ⟨30, _⟩ => ⟨S_, .f32⟩
  | .hbm, ⟨31, _⟩ => ⟨S4x4096x32x3, .f32⟩
  | .hbm, ⟨32, _⟩ => ⟨S4x4096x32x3, .f32⟩
  | .hbm, ⟨33, _⟩ => ⟨S_, .f32⟩
  | .hbm, ⟨34, _⟩ => ⟨S4x4096x32x3, .f32⟩
  | .hbm, ⟨35, _⟩ => ⟨S4x4096x32x3, .f32⟩
  | .hbm, ⟨36, _⟩ => ⟨S1x256, .f32⟩
  | .hbm, ⟨37, _⟩ => ⟨S256, .f32⟩
  | .hbm, ⟨38, _⟩ => ⟨S1x256, .f32⟩
  | .hbm, ⟨39, _⟩ => ⟨S256, .f32⟩
  | .hbm, ⟨40, _⟩ => ⟨S256, .f32⟩
  | .hbm, ⟨41, _⟩ => ⟨S1x256, .f32⟩
  | .hbm, ⟨42, _⟩ => ⟨S256, .f32⟩
  | .hbm, ⟨43, _⟩ => ⟨S1x256, .f32⟩
  | .hbm, ⟨44, _⟩ => ⟨S256, .f32⟩
  | .hbm, ⟨45, _⟩ => ⟨S256, .f32⟩
  | .hbm, ⟨46, _⟩ => ⟨S1x256, .f32⟩
  | .hbm, ⟨47, _⟩ => ⟨S256, .f32⟩
  | .hbm, ⟨48, _⟩ => ⟨S1x256, .f32⟩
  | .hbm, ⟨49, _⟩ => ⟨S256, .f32⟩
  | .hbm, ⟨50, _⟩ => ⟨S256, .f32⟩
  | .hbm, ⟨51, _⟩ => ⟨S1x256, .f32⟩
  | .hbm, ⟨52, _⟩ => ⟨S1x256, .f32⟩
  | .hbm, ⟨53, _⟩ => ⟨S1x256, .f32⟩
  | .hbm, ⟨54, _⟩ => ⟨S3x256, .f32⟩
  | .hbm, ⟨55, _⟩ => ⟨S4x4096x32x256, .f32⟩
  | .hbm, ⟨56, _⟩ => ⟨S1x256, .f32⟩
  | .hbm, ⟨57, _⟩ => ⟨S256, .f32⟩
  | .hbm, ⟨58, _⟩ => ⟨S1x1x1x256, .f32⟩
  | .hbm, ⟨59, _⟩ => ⟨S4x4096x32x256, .f32⟩
  | .hbm, ⟨60, _⟩ => ⟨S4x4096x32x256, .f32⟩
  | .hbm, ⟨61, _⟩ => ⟨S_, .f32⟩
  | .hbm, ⟨62, _⟩ => ⟨S4x4096x32x256, .f32⟩
  | .hbm, ⟨63, _⟩ => ⟨S4x4096x32x256, .f32⟩
  | .hbm, ⟨64, _⟩ => ⟨S_, .i32⟩
  | .hbm, ⟨65, _⟩ => ⟨S4x4096x32, .i32⟩
  | .hbm, ⟨66, _⟩ => ⟨S4x4096x32, .i1⟩
  | .hbm, ⟨67, _⟩ => ⟨S_, .i32⟩
  | .hbm, ⟨68, _⟩ => ⟨S4x4096x32, .i32⟩
  | .hbm, ⟨69, _⟩ => ⟨S4x4096x32, .i32⟩
  | .hbm, ⟨70, _⟩ => ⟨S4x4096x32, .i32⟩
  | .hbm, ⟨71, _⟩ => ⟨S4x4096x32x1, .i32⟩
  | .hbm, ⟨72, _⟩ => ⟨S4x4096x32x127, .f32⟩
  | .hbm, ⟨73, _⟩ => ⟨S4x4096x32x127, .f32⟩
  | .hbm, ⟨74, _⟩ => ⟨S_, .f32⟩
  | .hbm, ⟨75, _⟩ => ⟨S4x4096x32, .f32⟩
  | .hbm, ⟨76, _⟩ => ⟨S4x4096x32x1, .f32⟩
  | .hbm, ⟨77, _⟩ => ⟨S4x4096x32x1, .f32⟩
  | .hbm, ⟨78, _⟩ => ⟨S4x4096x32x128, .f32⟩
  | .hbm, ⟨79, _⟩ => ⟨S4x4096x32x256, .f32⟩
  | .hbm, ⟨80, _⟩ => ⟨S1x1x1x256, .f32⟩
  | .hbm, ⟨81, _⟩ => ⟨S4x4096x32x256, .f32⟩
  | .hbm, ⟨82, _⟩ => ⟨S4x4096x32x256, .f32⟩
  | .hbm, ⟨83, _⟩ => ⟨S_, .f32⟩
  | .hbm, ⟨84, _⟩ => ⟨S256, .f32⟩
  | .hbm, ⟨85, _⟩ => ⟨S_, .f32⟩
  | .hbm, ⟨86, _⟩ => ⟨S256, .f32⟩
  | .hbm, ⟨87, _⟩ => ⟨S256, .f32⟩
  | .hbm, ⟨88, _⟩ => ⟨S1x1x1x256, .f32⟩
  | .hbm, ⟨89, _⟩ => ⟨S4x4096x32x256, .f32⟩
  | .hbm, ⟨90, _⟩ => ⟨S4x4096x32x256, .f32⟩
  | .hbm, ⟨91, _⟩ => ⟨S4x4096x32x256, .f32⟩
  | .hbm, ⟨92, _⟩ => ⟨S_, .f32⟩
  | .hbm, ⟨93, _⟩ => ⟨S256, .f32⟩
  | .hbm, ⟨94, _⟩ => ⟨S_, .f32⟩
  | .hbm, ⟨95, _⟩ => ⟨S256, .f32⟩
  | .hbm, ⟨96, _⟩ => ⟨S256, .f32⟩
  | .hbm, ⟨97, _⟩ => ⟨S1x1x1x256, .f32⟩
  | .hbm, ⟨98, _⟩ => ⟨S4x4096x32x256, .f32⟩
  | .hbm, ⟨99, _⟩ => ⟨S4x4096x32x256, .f32⟩
  | .hbm, ⟨100, _⟩ => ⟨S_, .f32⟩
  | .hbm, ⟨101, _⟩ => ⟨S256, .f32⟩
  | .hbm, ⟨102, _⟩ => ⟨S256, .f32⟩
  | .hbm, ⟨103, _⟩ => ⟨S256, .f32⟩
  | .hbm, ⟨104, _⟩ => ⟨S1x1x1x256, .f32⟩
  | .hbm, ⟨105, _⟩ => ⟨S4x4096x32x256, .f32⟩
  | .hbm, ⟨106, _⟩ => ⟨S4x4096x32x256, .f32⟩
  | .hbm, ⟨107, _⟩ => ⟨S1x1x1x256, .f32⟩
  | .hbm, ⟨108, _⟩ => ⟨S4x4096x32x256, .f32⟩
  | .hbm, ⟨109, _⟩ => ⟨S4x4096x32x256, .f32⟩
  | .hbm, ⟨110, _⟩ => ⟨S1x1x1x256, .f32⟩
  | .hbm, ⟨111, _⟩ => ⟨S4x4096x32x256, .f32⟩
  | .hbm, ⟨112, _⟩ => ⟨S4x4096x32x256, .f32⟩
  | .hbm, ⟨113, _⟩ => ⟨S_, .f32⟩
  | .hbm, ⟨114, _⟩ => ⟨S4x4096x32x256, .f32⟩
  | .hbm, ⟨115, _⟩ => ⟨S4x4096x32x256, .f32⟩
  | .hbm, ⟨116, _⟩ => ⟨S4x4096x32x256, .f32⟩
  | .hbm, ⟨117, _⟩ => ⟨S_, .f32⟩
  | .hbm, ⟨118, _⟩ => ⟨S4x4096x256, .f32⟩
  | _, _ => ⟨S4x4096x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_v0 : Ref sig .tc := ⟨.hbm, 20, rfl⟩
abbrev main_call0_cst : Ref sig .tc := ⟨.hbm, 21, rfl⟩
abbrev main_call0_v1 : Ref sig .tc := ⟨.hbm, 22, rfl⟩
abbrev main_call0_v2 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call1_cst : Ref sig .tc := ⟨.hbm, 61, rfl⟩
abbrev main_call1_v0 : Ref sig .tc := ⟨.hbm, 62, rfl⟩
abbrev main_v44 : Ref sig .tc := ⟨.hbm, 63, rfl⟩
abbrev main_c_3 : Ref sig .tc := ⟨.hbm, 64, rfl⟩
abbrev main_v45 : Ref sig .tc := ⟨.hbm, 65, rfl⟩
abbrev main_v46 : Ref sig .tc := ⟨.hbm, 66, rfl⟩
abbrev main_c_4 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_5 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_6 : Ref sig .tc := ⟨.hbm, 83, rfl⟩
abbrev main_v61 : Ref sig .tc := ⟨.hbm, 84, rfl⟩
abbrev main_cst_7 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_8 : Ref sig .tc := ⟨.hbm, 92, rfl⟩
abbrev main_v68 : Ref sig .tc := ⟨.hbm, 93, rfl⟩
abbrev main_cst_9 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_10 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_call2_cst : Ref sig .tc := ⟨.hbm, 113, rfl⟩
abbrev main_call2_v0 : Ref sig .tc := ⟨.hbm, 114, rfl⟩
abbrev main_v86 : Ref sig .tc := ⟨.hbm, 115, rfl⟩
abbrev main_v87 : Ref sig .tc := ⟨.hbm, 116, rfl⟩
abbrev main_cst_11 : Ref sig .tc := ⟨.hbm, 117, rfl⟩
abbrev main_v88 : Ref sig .tc := ⟨.hbm, 118, rfl⟩

abbrev nD : Nat := 1
abbrev τ : Topo := Topo.v7x

variable {F : FTy → Type} [FloatOps F]

class Facts₀ : Prop where
  bcast_S_S4x4096x32 : S_.BroadcastsInDim S4x4096x32 (![] : Fin 0 → Fin S4x4096x32.rank)
  bcast_S4x4096x32_S4x4096x32x1_0_1_2 : S4x4096x32.BroadcastsInDim S4x4096x32x1 (![0, 1, 2] : Fin 3 → Fin S4x4096x32x1.rank)
  bcast_S4x4096x3_S4x4096x1x3_0_1_3 : S4x4096x3.BroadcastsInDim S4x4096x1x3 (![0, 1, 3] : Fin 3 → Fin S4x4096x1x3.rank)
  bcast_S4x4096x1x3_S4x4096x32x3_0_1_2_3 : S4x4096x1x3.BroadcastsInDim S4x4096x32x3 (![0, 1, 2, 3] : Fin 4 → Fin S4x4096x32x3.rank)
  reducesTo_S4x4096x32x3_S4x4096x32_d3 : S4x4096x32x3.ReducesTo [3] S4x4096x32
  h_S_ : 0 < S_.numel
  bcast_S_S4x4096x32x1 : S_.BroadcastsInDim S4x4096x32x1 (![] : Fin 0 → Fin S4x4096x32x1.rank)
  bcast_S4x4096x32x1_S4x4096x32x3_0_1_2_3 : S4x4096x32x1.BroadcastsInDim S4x4096x32x3 (![0, 1, 2, 3] : Fin 4 → Fin S4x4096x32x3.rank)
  bcast_S_S4x4096x32x3 : S_.BroadcastsInDim S4x4096x32x3 (![] : Fin 0 → Fin S4x4096x32x3.rank)
  slices_S4x256_S1x256_1_0 : S4x256.Slices ![1, 0] S1x256
  shapeCasts_S1x256_S256 : S1x256.ShapeCasts S256
  slices_S4x256_S1x256_0_0 : S4x256.Slices ![0, 0] S1x256
  slices_S4x256_S1x256_2_0 : S4x256.Slices ![2, 0] S1x256
  slices_S4x256_S1x256_3_0 : S4x256.Slices ![3, 0] S1x256
  bcast_S256_S1x256_1 : S256.BroadcastsInDim S1x256 (![1] : Fin 1 → Fin S1x256.rank)
  concatenates_S1x256_S1x256_S1x256_S3x256_d0 : Shape.Concatenates [S1x256, S1x256, S1x256] S3x256 0
  bcast_S256_S1x1x1x256_3 : S256.BroadcastsInDim S1x1x1x256 (![3] : Fin 1 → Fin S1x1x1x256.rank)
  bcast_S1x1x1x256_S4x4096x32x256_0_1_2_3 : S1x1x1x256.BroadcastsInDim S4x4096x32x256 (![0, 1, 2, 3] : Fin 4 → Fin S4x4096x32x256.rank)
  bcast_S_S4x4096x32x256 : S_.BroadcastsInDim S4x4096x32x256 (![] : Fin 0 → Fin S4x4096x32x256.rank)
  reducesTo_S4x4096x32x127_S4x4096x32_d3 : S4x4096x32x127.ReducesTo [3] S4x4096x32
  concatenates_S4x4096x32x127_S4x4096x32x1_S4x4096x32x128_d3 : Shape.Concatenates [S4x4096x32x127, S4x4096x32x1] S4x4096x32x128 3
  reducesTo_S4x4096x32x256_S256_d0_1_2 : S4x4096x32x256.ReducesTo [0, 1, 2] S256
  bcast_S_S256 : S_.BroadcastsInDim S256 (![] : Fin 0 → Fin S256.rank)
  reducesTo_S4x4096x32x256_S4x4096x256_d2 : S4x4096x32x256.ReducesTo [2] S4x4096x256
  gather_S4x4096x3_S4x4096x32x1_S4x4096x32x3_3_1_0_0_1_3_113_wf : GatherDims.WF S4x4096x3 S4x4096x32x1 S4x4096x32x3 [3] [1] [0] [1] [0] 3 ![1, 1, 3]
  dot_S4x4096x32x3_S3x256_S4x4096x32x256_3_0_012_1_n_n_wf : DotDims.WF S4x4096x32x3 S3x256 S4x4096x32x256 [3] [0] [0, 1, 2] [1] [] []
  gather_S4x4096x127_S4x4096x32x1_S4x4096x32x127_3_1_0_0_1_3_11127_wf : GatherDims.WF S4x4096x127 S4x4096x32x1 S4x4096x32x127 [3] [1] [0] [1] [0] 3 ![1, 1, 127]
  dot_S4x4096x32x128_S256x128_S4x4096x32x256_3_1_012_0_n_n_wf : DotDims.WF S4x4096x32x128 S256x128 S4x4096x32x256 [3] [1] [0, 1, 2] [0] [] []

variable [Facts₀]

def gather_S4x4096x3_S4x4096x32x1_S4x4096x32x3_3_1_0_0_1_3_113 : GatherDims S4x4096x3 S4x4096x32x1 S4x4096x32x3 where
  offsetDims := [3]
  collapsedSliceDims := [1]
  operandBatchingDims := [0]
  startIndicesBatchingDims := [0]
  startIndexMap := [1]
  indexVectorDim := 3
  sliceSizes := ![1, 1, 3]
  wf := gather_S4x4096x3_S4x4096x32x1_S4x4096x32x3_3_1_0_0_1_3_113_wf
def dot_S4x4096x32x3_S3x256_S4x4096x32x256_3_0_012_1_n_n : DotDims S4x4096x32x3 S3x256 S4x4096x32x256 where
  lhsContracting := [3]
  rhsContracting := [0]
  lhsNonContracting := [0, 1, 2]
  rhsNonContracting := [1]
  lhsBatch := []
  rhsBatch := []
  wf := dot_S4x4096x32x3_S3x256_S4x4096x32x256_3_0_012_1_n_n_wf
def gather_S4x4096x127_S4x4096x32x1_S4x4096x32x127_3_1_0_0_1_3_11127 : GatherDims S4x4096x127 S4x4096x32x1 S4x4096x32x127 where
  offsetDims := [3]
  collapsedSliceDims := [1]
  operandBatchingDims := [0]
  startIndicesBatchingDims := [0]
  startIndexMap := [1]
  indexVectorDim := 3
  sliceSizes := ![1, 1, 127]
  wf := gather_S4x4096x127_S4x4096x32x1_S4x4096x32x127_3_1_0_0_1_3_11127_wf
def dot_S4x4096x32x128_S256x128_S4x4096x32x256_3_1_012_0_n_n : DotDims S4x4096x32x128 S256x128 S4x4096x32x256 where
  lhsContracting := [3]
  rhsContracting := [1]
  lhsNonContracting := [0, 1, 2]
  rhsNonContracting := [0]
  lhsBatch := []
  rhsBatch := []
  wf := dot_S4x4096x32x128_S256x128_S4x4096x32x256_3_1_012_0_n_n_wf

class Facts : Prop extends Facts₀ where

variable [Facts]
-- ==== Proof.StatsRunsK.lean ====
/-
  The statistics kernel (region 0 of the program) on whole staging buffers, one grid point at a time.

  The body reads a block of 128 vertices' gathered features and three resident tables, and adds the block's column
  sums of the scores and of their squares into two resident [1,256] accumulators. At the first grid point it first
  clears both accumulators; at every later point it adds to what the point before left. These are the two control
  cases: each is run once, symbolically, and what the run leaves in each accumulator is recorded as the list of its
  stores (last first).
-/
import proofs.«116505_j37873021616799_1_alg».proof.Proof.Gen.Kernel.Launch
import proofs.«116505_j37873021616799_1_alg».proof.Proof.Gen.Kernel.Skeleton
import proofs.«116505_j37873021616799_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether or not it was fetched there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether or not it was fetched there. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether or not it was fetched there. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end

/-- "This is the first grid point", as the body computes it from the grid coordinate. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 128 = 0 :=
  (by decide +kernel : ∀ t : Fin grid0.N, cond0_0 (grid0.coords t) ↔ t.val % 128 = 0)

/-- One staging buffer of each accumulator window, through which its contents are stated. -/
abbrev VO0_4 : View sig .tc .vmem S1x256 .f32 := (Memref.whole cc0_stg4_0 : Memref sig .tc .vmem S1x256 .f32).view
abbrev VO0_5 : View sig .tc .vmem S1x256 .f32 := (Memref.whole cc0_stg5_0 : Memref sig .tc .vmem S1x256 .f32).view
abbrev ms0_0 (t : Fin cfg0.N) : Memref sig .tc .vmem S128x32x127 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S127x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)

set_option maxHeartbeats 2000000 in
/-- The first grid point: both accumulators are cleared, then the block's sums are added. The accumulators may hold
    anything on entry. -/
noncomputable def kernelRun0_A (c : Dev nD) (i : grid0.Coords) (arg1 : Memref sig .tc .vmem S128x32x127 .f32) (harg1 : arg1.IsWhole) (arg2 : Memref sig .tc .vmem S127x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : cond0_0 i)
    (x0 : Vec F S128x32x127 .f32) (x1 : Vec F S127x256 .f32) (x2 : Vec F S1x256 .f32) (x3 : Vec F S1x256 .f32) :
    Σ' (L4 : List (View.Piece (Elt F) S1x256 .f32)), { L5 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc0_stats_kernel i arg1 harg1 arg2 harg2 arg3 harg3 arg4 harg4 arg5 harg5 arg6 harg6) K } := by
  refine ⟨?_, ?_, fun E K => ?run⟩
  case run =>
    simp only [cc0_stats_kernel_eq_skeleton]; unfold cc0_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact H5

set_option maxHeartbeats 2000000 in
/-- A later grid point: the accumulators hold what the point before left (`xo4`, `xo5`) and the block's sums are added. -/
noncomputable def kernelRun0_B (c : Dev nD) (i : grid0.Coords) (arg1 : Memref sig .tc .vmem S128x32x127 .f32) (harg1 : arg1.IsWhole) (arg2 : Memref sig .tc .vmem S127x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond0_0 i)
    (x0 : Vec F S128x32x127 .f32) (x1 : Vec F S127x256 .f32) (x2 : Vec F S1x256 .f32) (x3 : Vec F S1x256 .f32) (xo4 : Vec F S1x256 .f32) (xo5 : Vec F S1x256 .f32) :
    Σ' (L4 : List (View.Piece (Elt F) S1x256 .f32)), { L5 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc0_stats_kernel i arg1 harg1 arg2 harg2 arg3 harg3 arg4 harg4 arg5 harg5 arg6 harg6) K } := by
  refine ⟨?_, ?_, fun E K => ?run⟩
  case run =>
    simp only [cc0_stats_kernel_eq_skeleton]; unfold cc0_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact H5

end Cert.Kernel.Frame

end
-- ==== Proof.StatsBodyK.lean ====
/-
  The statistics kernel over its 128 grid points: what the two accumulators hold after each point (the first point's
  run from cleared accumulators, each later point's run over what the point before left), the proof data of the
  pipeline, and the body obligation at a generic point.
-/
import proofs.«116505_j37873021616799_1_alg».proof.Proof.StatsRunsK

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first point's stores into accumulator 0 cover its buffer. -/
theorem cover0_A_4 (c : Dev nD) (i : grid0.Coords) (arg1 : Memref sig .tc .vmem S128x32x127 .f32) (harg1 : arg1.IsWhole) (arg2 : Memref sig .tc .vmem S127x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : cond0_0 i) (x0 : Vec F S128x32x127 .f32) (x1 : Vec F S127x256 .f32) (x2 : Vec F S1x256 .f32) (x3 : Vec F S1x256 .f32) (y : S1x256.Idx) :
    ∃ pc ∈ (kernelRun0_A c i arg1 harg1 arg2 harg2 arg3 harg3 arg4 harg4 arg5 harg5 arg6 harg6 hc0 x0 x1 x2 x3).1, y ∈ pc.1.set :=
  View.cover_of_tiledL (kernelRun0_A c i arg1 harg1 arg2 harg2 arg3 harg3 arg4 harg4 arg5 harg5 arg6 harg6 hc0 x0 x1 x2 x3).1 S1x256.size (by sl_kernel_rfl) y
/-- The first point's stores into accumulator 1 cover its buffer. -/
theorem cover0_A_5 (c : Dev nD) (i : grid0.Coords) (arg1 : Memref sig .tc .vmem S128x32x127 .f32) (harg1 : arg1.IsWhole) (arg2 : Memref sig .tc .vmem S127x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : cond0_0 i) (x0 : Vec F S128x32x127 .f32) (x1 : Vec F S127x256 .f32) (x2 : Vec F S1x256 .f32) (x3 : Vec F S1x256 .f32) (y : S1x256.Idx) :
    ∃ pc ∈ (kernelRun0_A c i arg1 harg1 arg2 harg2 arg3 harg3 arg4 harg4 arg5 harg5 arg6 harg6 hc0 x0 x1 x2 x3).2.1, y ∈ pc.1.set :=
  View.cover_of_tiledL (kernelRun0_A c i arg1 harg1 arg2 harg2 arg3 harg3 arg4 harg4 arg5 harg5 arg6 harg6 hc0 x0 x1 x2 x3).2.1 S1x256.size (by sl_kernel_rfl) y
/-- What the first point leaves in accumulator 0. -/
def out0_A_4 (c : Dev nD) (i : grid0.Coords) (arg1 : Memref sig .tc .vmem S128x32x127 .f32) (harg1 : arg1.IsWhole) (arg2 : Memref sig .tc .vmem S127x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : cond0_0 i) (x0 : Vec F S128x32x127 .f32) (x1 : Vec F S127x256 .f32) (x2 : Vec F S1x256 .f32) (x3 : Vec F S1x256 .f32) : Vec F S1x256 .f32 :=
  VO0_4.read (Elt F) (VO0_4.writes (Elt F) VO0_4.junk (kernelRun0_A c i arg1 harg1 arg2 harg2 arg3 harg3 arg4 harg4 arg5 harg5 arg6 harg6 hc0 x0 x1 x2 x3).1)
/-- What the first point leaves in accumulator 1. -/
def out0_A_5 (c : Dev nD) (i : grid0.Coords) (arg1 : Memref sig .tc .vmem S128x32x127 .f32) (harg1 : arg1.IsWhole) (arg2 : Memref sig .tc .vmem S127x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : cond0_0 i) (x0 : Vec F S128x32x127 .f32) (x1 : Vec F S127x256 .f32) (x2 : Vec F S1x256 .f32) (x3 : Vec F S1x256 .f32) : Vec F S1x256 .f32 :=
  VO0_5.read (Elt F) (VO0_5.writes (Elt F) VO0_5.junk (kernelRun0_A c i arg1 harg1 arg2 harg2 arg3 harg3 arg4 harg4 arg5 harg5 arg6 harg6 hc0 x0 x1 x2 x3).2.1)

/-- A later point's store into accumulator 0 covers its buffer. -/
theorem cover0_B_4 (c : Dev nD) (i : grid0.Coords) (arg1 : Memref sig .tc .vmem S128x32x127 .f32) (harg1 : arg1.IsWhole) (arg2 : Memref sig .tc .vmem S127x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond0_0 i) (x0 : Vec F S128x32x127 .f32) (x1 : Vec F S127x256 .f32) (x2 : Vec F S1x256 .f32) (x3 : Vec F S1x256 .f32) (xo4 xo5 : Vec F S1x256 .f32) (y : S1x256.Idx) :
    ∃ pc ∈ (kernelRun0_B c i arg1 harg1 arg2 harg2 arg3 harg3 arg4 harg4 arg5 harg5 arg6 harg6 hc0 x0 x1 x2 x3 xo4 xo5).1, y ∈ pc.1.set :=
  View.cover_of_tiledL (kernelRun0_B c i arg1 harg1 arg2 harg2 arg3 harg3 arg4 harg4 arg5 harg5 arg6 harg6 hc0 x0 x1 x2 x3 xo4 xo5).1 S1x256.size (by sl_kernel_rfl) y
/-- A later point's store into accumulator 1 covers its buffer. -/
theorem cover0_B_5 (c : Dev nD) (i : grid0.Coords) (arg1 : Memref sig .tc .vmem S128x32x127 .f32) (harg1 : arg1.IsWhole) (arg2 : Memref sig .tc .vmem S127x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond0_0 i) (x0 : Vec F S128x32x127 .f32) (x1 : Vec F S127x256 .f32) (x2 : Vec F S1x256 .f32) (x3 : Vec F S1x256 .f32) (xo4 xo5 : Vec F S1x256 .f32) (y : S1x256.Idx) :
    ∃ pc ∈ (kernelRun0_B c i arg1 harg1 arg2 harg2 arg3 harg3 arg4 harg4 arg5 harg5 arg6 harg6 hc0 x0 x1 x2 x3 xo4 xo5).2.1, y ∈ pc.1.set :=
  View.cover_of_tiledL (kernelRun0_B c i arg1 harg1 arg2 harg2 arg3 harg3 arg4 harg4 arg5 harg5 arg6 harg6 hc0 x0 x1 x2 x3 xo4 xo5).2.1 S1x256.size (by sl_kernel_rfl) y
/-- What a later point leaves in accumulator 0, over what the point before left. -/
def out0_B_4 (c : Dev nD) (i : grid0.Coords) (arg1 : Memref sig .tc .vmem S128x32x127 .f32) (harg1 : arg1.IsWhole) (arg2 : Memref sig .tc .vmem S127x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond0_0 i) (x0 : Vec F S128x32x127 .f32) (x1 : Vec F S127x256 .f32) (x2 : Vec F S1x256 .f32) (x3 : Vec F S1x256 .f32) (xo4 xo5 : Vec F S1x256 .f32) : Vec F S1x256 .f32 :=
  VO0_4.read (Elt F) (VO0_4.writes (Elt F) VO0_4.junk (kernelRun0_B c i arg1 harg1 arg2 harg2 arg3 harg3 arg4 harg4 arg5 harg5 arg6 harg6 hc0 x0 x1 x2 x3 xo4 xo5).1)
/-- What a later point leaves in accumulator 1, over what the point before left. -/
def out0_B_5 (c : Dev nD) (i : grid0.Coords) (arg1 : Memref sig .tc .vmem S128x32x127 .f32) (harg1 : arg1.IsWhole) (arg2 : Memref sig .tc .vmem S127x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond0_0 i) (x0 : Vec F S128x32x127 .f32) (x1 : Vec F S127x256 .f32) (x2 : Vec F S1x256 .f32) (x3 : Vec F S1x256 .f32) (xo4 xo5 : Vec F S1x256 .f32) : Vec F S1x256 .f32 :=
  VO0_5.read (Elt F) (VO0_5.writes (Elt F) VO0_5.junk (kernelRun0_B c i arg1 harg1 arg2 harg2 arg3 harg3 arg4 harg4 arg5 harg5 arg6 harg6 hc0 x0 x1 x2 x3 xo4 xo5).2.1)

section
variable (V : (c : Dev nD) → (b : Ref sig .tc) → Buf (Elt F) ((c : Thread nD τ).loc b))

/-- THE ACCUMULATION: the two accumulators after the body at position `n`, by recursion on the position. -/
def outsAt0 (c : Dev nD) : (n : ℕ) → n < cfg0.N → Vec F S1x256 .f32 × Vec F S1x256 .f32
  | 0, hn =>
    (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩),
     out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩))
  | n + 1, hn =>
    if h0 : (n + 1) % 128 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩),
       out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).1 (outsAt0 c n (Nat.lt_of_succ_lt hn)).2,
       out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).1 (outsAt0 c n (Nat.lt_of_succ_lt hn)).2)

/-- At the first point: that point's run from cleared accumulators. -/
theorem outsAt0_A (c : Dev nD) (t : Fin cfg0.N) (h0 : t.val % 128 = 0) :
    outsAt0 V c t.val t.isLt =
      (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t),
       out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t)) := by
  obtain ⟨n, hn⟩ := t
  cases n with
  | zero => exact rfl
  | succ n => exact (dif_pos h0).trans rfl

/-- At a later point: that point's run over what the point before left. -/
theorem outsAt0_B (c : Dev nD) (t : Fin cfg0.N) (h0 : ¬t.val % 128 = 0) :
    outsAt0 V c t.val t.isLt =
      (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2,
       out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The proof data of the statistics pipeline on core `c`: the arrays as the region finds them; after the body at
    point `t` each input's buffer at its block and the accumulators' at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- At a later point accumulator 0's buffer holds what the body left at the point before: it is not written back
    between (only after the last point). -/
theorem before0_4_B (c : Dev nD) (t : Fin cfg0.N) (h0 : ¬t.val % 128 = 0) (d) :
    (dat0 V c).before 4 t d = (outsAt0 V c (t.val - 1) (Nat.lt_of_le_of_lt (Nat.sub_le _ _) t.isLt)).1 := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    (fun _ => rfl) (fun _ _ => rfl)]
  dsimp only [dat0]
/-- The same for accumulator 1. -/
theorem before0_5_B (c : Dev nD) (t : Fin cfg0.N) (h0 : ¬t.val % 128 = 0) (d) :
    (dat0 V c).before 5 t d = (outsAt0 V c (t.val - 1) (Nat.lt_of_le_of_lt (Nat.sub_le _ _) t.isLt)).2 := by
  have hN : t.val < 128 := lt_of_lt_of_eq t.isLt (show cfg0.N = 128 from N_0)
  rw [Dat.before_out_kept _ 5 rfl t (by omega) (Bool.eq_false_iff.mpr fun h => by have := (flush0_5 _).mp h; dsimp only at this; omega)
    (fun _ => rfl) (fun _ _ => rfl)]
  dsimp only [dat0]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 1600000 in
/-- The body at any point: the inputs' buffers hold their blocks; the point is the first or a later one, and a later
    one finds in the accumulators what the point before left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 128 := lt_of_lt_of_eq t.isLt (show cfg0.N = 128 from N_0)
  by_cases h0 : t.val % 128 = 0
  · rw [outsAt0_A V c t h0]
    dsimp only
    unfold out0_A_4 out0_A_5
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk0 V c 0 t) (iblk0 V c 1 t) (iblk0 V c 2 t) (iblk0 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    unfold owns
    isplitl [H4]
    · iexists _; isplitr
      swap; · iexact H4
      ipureintro; exact View.read_writes_of_cover _ _ _ _ _ (cover0_A_4 c _ _ _ _ _ _ _ _ _ _ _ _ _ _ _ _ _ _)
    iexists _; isplitr
    swap; · iexact H5
    ipureintro; exact View.read_writes_of_cover _ _ _ _ _ (cover0_A_5 c _ _ _ _ _ _ _ _ _ _ _ _ _ _ _ _ _ _)
  · rw [outsAt0_B V c t h0]
    dsimp only
    simp only [before0_4_B V c t h0, before0_5_B V c t h0]
    unfold out0_B_4 out0_B_5
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk0 V c 0 t) (iblk0 V c 1 t) (iblk0 V c 2 t) (iblk0 V c 3 t) _ _).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    unfold owns
    isplitl [H4]
    · iexists _; isplitr
      swap; · iexact H4
      ipureintro; exact View.read_writes_of_cover _ _ _ _ _ (cover0_B_4 c _ _ _ _ _ _ _ _ _ _ _ _ _ _ _ _ _ _ _ _)
    iexists _; isplitr
    swap; · iexact H5
    ipureintro; exact View.read_writes_of_cover _ _ _ _ _ (cover0_B_5 c _ _ _ _ _ _ _ _ _ _ _ _ _ _ _ _ _ _ _ _)

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Frame

end
-- ==== Proof.MainRunsK.lean ====
/-
  The pooling kernel (region 1 of the program) on whole staging buffers at one grid point.

  The body reads a block of 64 vertices — their gathered features, their neighbours' coordinates, their own
  coordinates — and nine resident tables (the support directions, the base direction, the weights, the bias, the
  scale and shift, the mean and the variance), and stores the 64 x 256 block of pooled activations. It has one
  control case; it is run once, symbolically, and the store it leaves in the output buffer is recorded.
-/
import proofs.«116505_j37873021616799_1_alg».proof.Proof.Gen.Kernel.Launch
import proofs.«116505_j37873021616799_1_alg».proof.Proof.Gen.Kernel.Skeleton
import proofs.«116505_j37873021616799_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether or not it was fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether or not it was fetched there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether or not it was fetched there. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether or not it was fetched there. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether or not it was fetched there. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, whether or not it was fetched there. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, whether or not it was fetched there. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's staging buffer holds its block at every point, whether or not it was fetched there. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's staging buffer holds its block at every point, whether or not it was fetched there. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's staging buffer holds its block at every point, whether or not it was fetched there. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's staging buffer holds its block at every point, whether or not it was fetched there. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- Input window 11's staging buffer holds its block at every point, whether or not it was fetched there. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

end

/-- One staging buffer of the output window, through which its contents are stated. -/
abbrev VO1_12 : View sig .tc .vmem S64x256 .f32 := (Memref.whole cc1_stg12_0 : Memref sig .tc .vmem S64x256 .f32).view
abbrev ms1_0 (t : Fin cfg1.N) : Memref sig .tc .vmem S64x32x127 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x32x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x3 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S3x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S127x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x256 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x256 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x256 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x256 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S64x256 .f32 := win1_12.stage (cfg1.slots t 12)
abbrev hs1_12 (t : Fin cfg1.N) : (ms1_12 t).IsWhole := hstage1_12 ((cfg1.slots t 12).cast nbuf1_12)

set_option maxHeartbeats 4000000 in
/-- The body at any grid point: the output buffer may hold anything on entry and ends with the recorded store. -/
noncomputable def kernelRun1 (c : Dev nD) (i : grid1.Coords) (arg1 : Memref sig .tc .vmem S64x32x127 .f32) (harg1 : arg1.IsWhole) (arg2 : Memref sig .tc .vmem S64x32x3 .f32) (harg2 : arg2.IsWhole) (arg3 : Memref sig .tc .vmem S64x3 .f32) (harg3 : arg3.IsWhole) (arg4 : Memref sig .tc .vmem S3x256 .f32) (harg4 : arg4.IsWhole) (arg5 : Memref sig .tc .vmem S1x256 .f32) (harg5 : arg5.IsWhole) (arg6 : Memref sig .tc .vmem S127x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S64x256 .f32) (harg13 : arg13.IsWhole)
    (x0 : Vec F S64x32x127 .f32) (x1 : Vec F S64x32x3 .f32) (x2 : Vec F S64x3 .f32) (x3 : Vec F S3x256 .f32) (x4 : Vec F S1x256 .f32) (x5 : Vec F S127x256 .f32) (x6 : Vec F S1x256 .f32) (x7 : Vec F S1x256 .f32) (x8 : Vec F S1x256 .f32) (x9 : Vec F S1x256 .f32) (x10 : Vec F S1x256 .f32) (x11 : Vec F S1x256 .f32) :
    { L12 : List (View.Piece (Elt F) S64x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12)) -∗ K ⟨⟩))
          ⊢ wp frame (wpE (defs₀ (F := F)) Variants.none c none) E (cc1_main_kernel i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc1_main_kernel_eq_skeleton]; unfold cc1_main_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    iexists _; iexact H12

end Cert.Kernel.Frame

end
-- ==== Proof.MainBodyK.lean ====
/-
  The pooling kernel over its 256 grid points: what the output buffer holds after each point (that point's run on
  its input blocks), the proof data of the pipeline, and the body obligation at a generic point.
-/
import proofs.«116505_j37873021616799_1_alg».proof.Proof.MainRunsK

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's store covers the output buffer. -/
theorem cover1_12 (c : Dev nD) (i : grid1.Coords) (arg1 : Memref sig .tc .vmem S64x32x127 .f32) (harg1 : arg1.IsWhole) (arg2 : Memref sig .tc .vmem S64x32x3 .f32) (harg2 : arg2.IsWhole) (arg3 : Memref sig .tc .vmem S64x3 .f32) (harg3 : arg3.IsWhole) (arg4 : Memref sig .tc .vmem S3x256 .f32) (harg4 : arg4.IsWhole) (arg5 : Memref sig .tc .vmem S1x256 .f32) (harg5 : arg5.IsWhole) (arg6 : Memref sig .tc .vmem S127x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S64x256 .f32) (harg13 : arg13.IsWhole) (x0 : Vec F S64x32x127 .f32) (x1 : Vec F S64x32x3 .f32) (x2 : Vec F S64x3 .f32) (x3 : Vec F S3x256 .f32) (x4 : Vec F S1x256 .f32) (x5 : Vec F S127x256 .f32) (x6 : Vec F S1x256 .f32) (x7 : Vec F S1x256 .f32) (x8 : Vec F S1x256 .f32) (x9 : Vec F S1x256 .f32) (x10 : Vec F S1x256 .f32) (x11 : Vec F S1x256 .f32) (y : S64x256.Idx) :
    ∃ pc ∈ (kernelRun1 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).1, y ∈ pc.1.set :=
  View.cover_of_tiledL (kernelRun1 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).1 S64x256.size (by sl_kernel_rfl) y
/-- What the body leaves in the output buffer. -/
def out1_12 (c : Dev nD) (i : grid1.Coords) (arg1 : Memref sig .tc .vmem S64x32x127 .f32) (harg1 : arg1.IsWhole) (arg2 : Memref sig .tc .vmem S64x32x3 .f32) (harg2 : arg2.IsWhole) (arg3 : Memref sig .tc .vmem S64x3 .f32) (harg3 : arg3.IsWhole) (arg4 : Memref sig .tc .vmem S3x256 .f32) (harg4 : arg4.IsWhole) (arg5 : Memref sig .tc .vmem S1x256 .f32) (harg5 : arg5.IsWhole) (arg6 : Memref sig .tc .vmem S127x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S64x256 .f32) (harg13 : arg13.IsWhole) (x0 : Vec F S64x32x127 .f32) (x1 : Vec F S64x32x3 .f32) (x2 : Vec F S64x3 .f32) (x3 : Vec F S3x256 .f32) (x4 : Vec F S1x256 .f32) (x5 : Vec F S127x256 .f32) (x6 : Vec F S1x256 .f32) (x7 : Vec F S1x256 .f32) (x8 : Vec F S1x256 .f32) (x9 : Vec F S1x256 .f32) (x10 : Vec F S1x256 .f32) (x11 : Vec F S1x256 .f32) : Vec F S64x256 .f32 :=
  VO1_12.read (Elt F) (VO1_12.writes (Elt F) VO1_12.junk (kernelRun1 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).1)

section
variable (V : (c : Dev nD) → (b : Ref sig .tc) → Buf (Elt F) ((c : Thread nD τ).loc b))

/-- The output buffer after the body at point `t`. -/
def outAt1 (c : Dev nD) (t : Fin cfg1.N) : Vec F S64x256 .f32 :=
  out1_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)

/-- The proof data of the pooling pipeline on core `c`: the arrays as the region finds them; after the body at point
    `t` each input's buffer at its block and the output's at `outAt1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t))

set_option maxHeartbeats 1600000 in
/-- The body at any point: the inputs' buffers hold their blocks, so the run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  unfold outAt1 out1_12
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun1 c (grid1.coords t) _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, ⟨%e12, H12⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  unfold owns; iexists _; isplitr
  swap; · iexact H12
  ipureintro; exact View.read_writes_of_cover _ _ _ _ _ (cover1_12 c _ _ _ _ _ _ _ _ _ _ _ _ _ _ _ _ _ _ _ _ _ _ _ _ _ _ _ _ _ _ _ _ _ _ _ _ _ _ _)

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Frame

end
-- ==== Proof.RunK.lean ====
/-
  The whole program as five segments — host operations, the statistics region, host operations, the pooling region,
  one last host operation — run from the launch to the return, with the contents of every buffer named at each
  boundary: a host stretch applies its operations; a region leaves each of its arrays at what its write-backs made of
  it and every other buffer alone. The run ends with every unscoped buffer at the last boundary's contents, from
  which both the unchanged arguments and the result are read.
-/
import proofs.«116505_j37873021616799_1_alg».proof.Proof.StatsBodyK
import proofs.«116505_j37873021616799_1_alg».proof.Proof.MainBodyK

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch: what the statistics region is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the statistics region: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what the pooling region is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the pooling region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host operation: the program's end. -/
abbrev W5 : Dev nD → Valuation τ sig (Elt F) := fun c => StableHlo.after hostOps2 (W4 m ρ c)

/-! The arguments end as launched: no host operation writes one and neither region has one among its arrays. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg7) := rfl

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the pipeline's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the pipeline's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => (show iprop(StableHlo.held (c : Thread nD τ) (Pipeline.ucRefs τ sig) (W5 m ρ c) ∗ R c)
        ⊢ iprop(Tₙ m ρ c ∗ ∃ W, owes (c : Thread nD τ) (0 : CellTallies nD τ sig Unit) W) from by
      iintro ⟨Hh, Hp, HO⟩
      isplitr [HO]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun r h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c)⟩) (run_all m ρ)

end Cert.Kernel.Frame

end
-- ==== Proof.StatsRuns.lean ====
/-
  The statistics kernel (region 0 of the program) on whole staging buffers, one grid point at a time.

  The body reads a block of 128 vertices' gathered features and three resident tables, and adds the block's column
  sums of the scores and of their squares into two resident [1,256] accumulators. At the first grid point it first
  clears both accumulators; at every later point it adds to what the point before left. These are the two control
  cases: each is run once, symbolically, and what the run leaves in each accumulator is recorded as the list of its
  stores (last first).
-/
import proofs.«116505_j37873021616799_1_alg».proof.Proof.Gen.KernelIdeal.Launch
import proofs.«116505_j37873021616799_1_alg».proof.Proof.Gen.KernelIdeal.Skeleton
import proofs.«116505_j37873021616799_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether or not it was fetched there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether or not it was fetched there. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether or not it was fetched there. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end

/-- "This is the first grid point", as the body computes it from the grid coordinate. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 128 = 0 :=
  (by decide +kernel : ∀ t : Fin grid0.N, cond0_0 (grid0.coords t) ↔ t.val % 128 = 0)

/-- One staging buffer of each accumulator window, through which its contents are stated. -/
abbrev VO0_4 : View sig .tc .vmem S1x256 .f32 := (Memref.whole cc0_stg4_0 : Memref sig .tc .vmem S1x256 .f32).view
abbrev VO0_5 : View sig .tc .vmem S1x256 .f32 := (Memref.whole cc0_stg5_0 : Memref sig .tc .vmem S1x256 .f32).view
abbrev ms0_0 (t : Fin cfg0.N) : Memref sig .tc .vmem S128x32x127 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S127x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)

set_option maxHeartbeats 2000000 in
/-- The first grid point: both accumulators are cleared, then the block's sums are added. The accumulators may hold
    anything on entry. -/
noncomputable def kernelRun0_A (c : Dev nD) (i : grid0.Coords) (arg1 : Memref sig .tc .vmem S128x32x127 .f32) (harg1 : arg1.IsWhole) (arg2 : Memref sig .tc .vmem S127x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : cond0_0 i)
    (x0 : Vec F S128x32x127 .f32) (x1 : Vec F S127x256 .f32) (x2 : Vec F S1x256 .f32) (x3 : Vec F S1x256 .f32) :
    Σ' (L4 : List (View.Piece (Elt F) S1x256 .f32)), { L5 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc0_stats_kernel i arg1 harg1 arg2 harg2 arg3 harg3 arg4 harg4 arg5 harg5 arg6 harg6) K } := by
  refine ⟨?_, ?_, fun E K => ?run⟩
  case run =>
    simp only [cc0_stats_kernel_eq_skeleton]; unfold cc0_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact H5

set_option maxHeartbeats 2000000 in
/-- A later grid point: the accumulators hold what the point before left (`xo4`, `xo5`) and the block's sums are added. -/
noncomputable def kernelRun0_B (c : Dev nD) (i : grid0.Coords) (arg1 : Memref sig .tc .vmem S128x32x127 .f32) (harg1 : arg1.IsWhole) (arg2 : Memref sig .tc .vmem S127x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond0_0 i)
    (x0 : Vec F S128x32x127 .f32) (x1 : Vec F S127x256 .f32) (x2 : Vec F S1x256 .f32) (x3 : Vec F S1x256 .f32) (xo4 : Vec F S1x256 .f32) (xo5 : Vec F S1x256 .f32) :
    Σ' (L4 : List (View.Piece (Elt F) S1x256 .f32)), { L5 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc0_stats_kernel i arg1 harg1 arg2 harg2 arg3 harg3 arg4 harg4 arg5 harg5 arg6 harg6) K } := by
  refine ⟨?_, ?_, fun E K => ?run⟩
  case run =>
    simp only [cc0_stats_kernel_eq_skeleton]; unfold cc0_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact H5

end Cert.KernelIdeal.Frame

end
-- ==== Proof.StatsBody.lean ====
/-
  The statistics kernel over its 128 grid points: what the two accumulators hold after each point (the first point's
  run from cleared accumulators, each later point's run over what the point before left), the proof data of the
  pipeline, and the body obligation at a generic point.
-/
import proofs.«116505_j37873021616799_1_alg».proof.Proof.StatsRuns

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first point's stores into accumulator 0 cover its buffer. -/
theorem cover0_A_4 (c : Dev nD) (i : grid0.Coords) (arg1 : Memref sig .tc .vmem S128x32x127 .f32) (harg1 : arg1.IsWhole) (arg2 : Memref sig .tc .vmem S127x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : cond0_0 i) (x0 : Vec F S128x32x127 .f32) (x1 : Vec F S127x256 .f32) (x2 : Vec F S1x256 .f32) (x3 : Vec F S1x256 .f32) (y : S1x256.Idx) :
    ∃ pc ∈ (kernelRun0_A c i arg1 harg1 arg2 harg2 arg3 harg3 arg4 harg4 arg5 harg5 arg6 harg6 hc0 x0 x1 x2 x3).1, y ∈ pc.1.set :=
  View.cover_of_tiledL (kernelRun0_A c i arg1 harg1 arg2 harg2 arg3 harg3 arg4 harg4 arg5 harg5 arg6 harg6 hc0 x0 x1 x2 x3).1 S1x256.size (by sl_kernel_rfl) y
/-- The first point's stores into accumulator 1 cover its buffer. -/
theorem cover0_A_5 (c : Dev nD) (i : grid0.Coords) (arg1 : Memref sig .tc .vmem S128x32x127 .f32) (harg1 : arg1.IsWhole) (arg2 : Memref sig .tc .vmem S127x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : cond0_0 i) (x0 : Vec F S128x32x127 .f32) (x1 : Vec F S127x256 .f32) (x2 : Vec F S1x256 .f32) (x3 : Vec F S1x256 .f32) (y : S1x256.Idx) :
    ∃ pc ∈ (kernelRun0_A c i arg1 harg1 arg2 harg2 arg3 harg3 arg4 harg4 arg5 harg5 arg6 harg6 hc0 x0 x1 x2 x3).2.1, y ∈ pc.1.set :=
  View.cover_of_tiledL (kernelRun0_A c i arg1 harg1 arg2 harg2 arg3 harg3 arg4 harg4 arg5 harg5 arg6 harg6 hc0 x0 x1 x2 x3).2.1 S1x256.size (by sl_kernel_rfl) y
/-- What the first point leaves in accumulator 0. -/
def out0_A_4 (c : Dev nD) (i : grid0.Coords) (arg1 : Memref sig .tc .vmem S128x32x127 .f32) (harg1 : arg1.IsWhole) (arg2 : Memref sig .tc .vmem S127x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : cond0_0 i) (x0 : Vec F S128x32x127 .f32) (x1 : Vec F S127x256 .f32) (x2 : Vec F S1x256 .f32) (x3 : Vec F S1x256 .f32) : Vec F S1x256 .f32 :=
  VO0_4.read (Elt F) (VO0_4.writes (Elt F) VO0_4.junk (kernelRun0_A c i arg1 harg1 arg2 harg2 arg3 harg3 arg4 harg4 arg5 harg5 arg6 harg6 hc0 x0 x1 x2 x3).1)
/-- What the first point leaves in accumulator 1. -/
def out0_A_5 (c : Dev nD) (i : grid0.Coords) (arg1 : Memref sig .tc .vmem S128x32x127 .f32) (harg1 : arg1.IsWhole) (arg2 : Memref sig .tc .vmem S127x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : cond0_0 i) (x0 : Vec F S128x32x127 .f32) (x1 : Vec F S127x256 .f32) (x2 : Vec F S1x256 .f32) (x3 : Vec F S1x256 .f32) : Vec F S1x256 .f32 :=
  VO0_5.read (Elt F) (VO0_5.writes (Elt F) VO0_5.junk (kernelRun0_A c i arg1 harg1 arg2 harg2 arg3 harg3 arg4 harg4 arg5 harg5 arg6 harg6 hc0 x0 x1 x2 x3).2.1)

/-- A later point's store into accumulator 0 covers its buffer. -/
theorem cover0_B_4 (c : Dev nD) (i : grid0.Coords) (arg1 : Memref sig .tc .vmem S128x32x127 .f32) (harg1 : arg1.IsWhole) (arg2 : Memref sig .tc .vmem S127x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond0_0 i) (x0 : Vec F S128x32x127 .f32) (x1 : Vec F S127x256 .f32) (x2 : Vec F S1x256 .f32) (x3 : Vec F S1x256 .f32) (xo4 xo5 : Vec F S1x256 .f32) (y : S1x256.Idx) :
    ∃ pc ∈ (kernelRun0_B c i arg1 harg1 arg2 harg2 arg3 harg3 arg4 harg4 arg5 harg5 arg6 harg6 hc0 x0 x1 x2 x3 xo4 xo5).1, y ∈ pc.1.set :=
  View.cover_of_tiledL (kernelRun0_B c i arg1 harg1 arg2 harg2 arg3 harg3 arg4 harg4 arg5 harg5 arg6 harg6 hc0 x0 x1 x2 x3 xo4 xo5).1 S1x256.size (by sl_kernel_rfl) y
/-- A later point's store into accumulator 1 covers its buffer. -/
theorem cover0_B_5 (c : Dev nD) (i : grid0.Coords) (arg1 : Memref sig .tc .vmem S128x32x127 .f32) (harg1 : arg1.IsWhole) (arg2 : Memref sig .tc .vmem S127x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond0_0 i) (x0 : Vec F S128x32x127 .f32) (x1 : Vec F S127x256 .f32) (x2 : Vec F S1x256 .f32) (x3 : Vec F S1x256 .f32) (xo4 xo5 : Vec F S1x256 .f32) (y : S1x256.Idx) :
    ∃ pc ∈ (kernelRun0_B c i arg1 harg1 arg2 harg2 arg3 harg3 arg4 harg4 arg5 harg5 arg6 harg6 hc0 x0 x1 x2 x3 xo4 xo5).2.1, y ∈ pc.1.set :=
  View.cover_of_tiledL (kernelRun0_B c i arg1 harg1 arg2 harg2 arg3 harg3 arg4 harg4 arg5 harg5 arg6 harg6 hc0 x0 x1 x2 x3 xo4 xo5).2.1 S1x256.size (by sl_kernel_rfl) y
/-- What a later point leaves in accumulator 0, over what the point before left. -/
def out0_B_4 (c : Dev nD) (i : grid0.Coords) (arg1 : Memref sig .tc .vmem S128x32x127 .f32) (harg1 : arg1.IsWhole) (arg2 : Memref sig .tc .vmem S127x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond0_0 i) (x0 : Vec F S128x32x127 .f32) (x1 : Vec F S127x256 .f32) (x2 : Vec F S1x256 .f32) (x3 : Vec F S1x256 .f32) (xo4 xo5 : Vec F S1x256 .f32) : Vec F S1x256 .f32 :=
  VO0_4.read (Elt F) (VO0_4.writes (Elt F) VO0_4.junk (kernelRun0_B c i arg1 harg1 arg2 harg2 arg3 harg3 arg4 harg4 arg5 harg5 arg6 harg6 hc0 x0 x1 x2 x3 xo4 xo5).1)
/-- What a later point leaves in accumulator 1, over what the point before left. -/
def out0_B_5 (c : Dev nD) (i : grid0.Coords) (arg1 : Memref sig .tc .vmem S128x32x127 .f32) (harg1 : arg1.IsWhole) (arg2 : Memref sig .tc .vmem S127x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond0_0 i) (x0 : Vec F S128x32x127 .f32) (x1 : Vec F S127x256 .f32) (x2 : Vec F S1x256 .f32) (x3 : Vec F S1x256 .f32) (xo4 xo5 : Vec F S1x256 .f32) : Vec F S1x256 .f32 :=
  VO0_5.read (Elt F) (VO0_5.writes (Elt F) VO0_5.junk (kernelRun0_B c i arg1 harg1 arg2 harg2 arg3 harg3 arg4 harg4 arg5 harg5 arg6 harg6 hc0 x0 x1 x2 x3 xo4 xo5).2.1)

section
variable (V : (c : Dev nD) → (b : Ref sig .tc) → Buf (Elt F) ((c : Thread nD τ).loc b))

/-- THE ACCUMULATION: the two accumulators after the body at position `n`, by recursion on the position. -/
def outsAt0 (c : Dev nD) : (n : ℕ) → n < cfg0.N → Vec F S1x256 .f32 × Vec F S1x256 .f32
  | 0, hn =>
    (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩),
     out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩))
  | n + 1, hn =>
    if h0 : (n + 1) % 128 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩),
       out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).1 (outsAt0 c n (Nat.lt_of_succ_lt hn)).2,
       out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).1 (outsAt0 c n (Nat.lt_of_succ_lt hn)).2)

/-- At the first point: that point's run from cleared accumulators. -/
theorem outsAt0_A (c : Dev nD) (t : Fin cfg0.N) (h0 : t.val % 128 = 0) :
    outsAt0 V c t.val t.isLt =
      (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t),
       out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t)) := by
  obtain ⟨n, hn⟩ := t
  cases n with
  | zero => exact rfl
  | succ n => exact (dif_pos h0).trans rfl

/-- At a later point: that point's run over what the point before left. -/
theorem outsAt0_B (c : Dev nD) (t : Fin cfg0.N) (h0 : ¬t.val % 128 = 0) :
    outsAt0 V c t.val t.isLt =
      (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2,
       out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The proof data of the statistics pipeline on core `c`: the arrays as the region finds them; after the body at
    point `t` each input's buffer at its block and the accumulators' at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- At a later point accumulator 0's buffer holds what the body left at the point before: it is not written back
    between (only after the last point). -/
theorem before0_4_B (c : Dev nD) (t : Fin cfg0.N) (h0 : ¬t.val % 128 = 0) (d) :
    (dat0 V c).before 4 t d = (outsAt0 V c (t.val - 1) (Nat.lt_of_le_of_lt (Nat.sub_le _ _) t.isLt)).1 := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    (fun _ => rfl) (fun _ _ => rfl)]
  dsimp only [dat0]
/-- The same for accumulator 1. -/
theorem before0_5_B (c : Dev nD) (t : Fin cfg0.N) (h0 : ¬t.val % 128 = 0) (d) :
    (dat0 V c).before 5 t d = (outsAt0 V c (t.val - 1) (Nat.lt_of_le_of_lt (Nat.sub_le _ _) t.isLt)).2 := by
  have hN : t.val < 128 := lt_of_lt_of_eq t.isLt (show cfg0.N = 128 from N_0)
  rw [Dat.before_out_kept _ 5 rfl t (by omega) (Bool.eq_false_iff.mpr fun h => by have := (flush0_5 _).mp h; dsimp only at this; omega)
    (fun _ => rfl) (fun _ _ => rfl)]
  dsimp only [dat0]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 1600000 in
/-- The body at any point: the inputs' buffers hold their blocks; the point is the first or a later one, and a later
    one finds in the accumulators what the point before left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 128 := lt_of_lt_of_eq t.isLt (show cfg0.N = 128 from N_0)
  by_cases h0 : t.val % 128 = 0
  · rw [outsAt0_A V c t h0]
    dsimp only
    unfold out0_A_4 out0_A_5
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk0 V c 0 t) (iblk0 V c 1 t) (iblk0 V c 2 t) (iblk0 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    unfold owns
    isplitl [H4]
    · iexists _; isplitr
      swap; · iexact H4
      ipureintro; exact View.read_writes_of_cover _ _ _ _ _ (cover0_A_4 c _ _ _ _ _ _ _ _ _ _ _ _ _ _ _ _ _ _)
    iexists _; isplitr
    swap; · iexact H5
    ipureintro; exact View.read_writes_of_cover _ _ _ _ _ (cover0_A_5 c _ _ _ _ _ _ _ _ _ _ _ _ _ _ _ _ _ _)
  · rw [outsAt0_B V c t h0]
    dsimp only
    simp only [before0_4_B V c t h0, before0_5_B V c t h0]
    unfold out0_B_4 out0_B_5
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk0 V c 0 t) (iblk0 V c 1 t) (iblk0 V c 2 t) (iblk0 V c 3 t) _ _).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    unfold owns
    isplitl [H4]
    · iexists _; isplitr
      swap; · iexact H4
      ipureintro; exact View.read_writes_of_cover _ _ _ _ _ (cover0_B_4 c _ _ _ _ _ _ _ _ _ _ _ _ _ _ _ _ _ _ _ _)
    iexists _; isplitr
    swap; · iexact H5
    ipureintro; exact View.read_writes_of_cover _ _ _ _ _ (cover0_B_5 c _ _ _ _ _ _ _ _ _ _ _ _ _ _ _ _ _ _ _ _)

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Frame

end
-- ==== Proof.StatsPieces.lean ====
/-
  What the statistics kernel's runs leave in the accumulators, as values: at a later point accumulator 0 is the
  incoming accumulator plus the block's column sums of the scores, accumulator 1 the incoming one plus the column sums
  of their squares; at the first point the same over zero accumulators.
-/
import proofs.«116505_j37873021616799_1_alg».proof.Proof.StatsBody
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := by funext a; fin_cases a <;> rfl
theorem hz3 : (![0, 0, 0] : Fin 3 → Nat) = fun _ => 0 := by funext a; fin_cases a <;> rfl

theorem out0_B_4_eq (c : Dev nD) (i : grid0.Coords) (arg1 : Memref sig .tc .vmem S128x32x127 .f32) (harg1 : arg1.IsWhole) (arg2 : Memref sig .tc .vmem S127x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond0_0 i) (x0 : Vec F S128x32x127 .f32) (x1 : Vec F S127x256 .f32) (x2 : Vec F S1x256 .f32) (x3 : Vec F S1x256 .f32) (xo4 xo5 : Vec F S1x256 .f32) :
    out0_B_4 c i arg1 harg1 arg2 harg2 arg3 harg3 arg4 harg4 arg5 harg5 arg6 harg6 hc0 x0 x1 x2 x3 xo4 xo5 = k0_pay6 x0 x1 x2 x3 xo4 := by
  unfold out0_B_4
  rw [View.read_writes_eq_canon _ _ _ (cover0_B_4 c i arg1 harg1 arg2 harg2 arg3 harg3 arg4 harg4 arg5 harg5 arg6 harg6 hc0 x0 x1 x2 x3 xo4 xo5)]
  unfold kernelRun0_B
  dsimp only
  sl_unfold_run_names
  rw [View.canon_unit_zero (S := S1x256) hz2]
  simp only [View.readAt_eq_ld, harg1.read_unread, harg2.read_unread, harg3.read_unread, harg4.read_unread, harg5.read_unread, harg6.read_unread,
    View.ld_unit_zero (S := S128x32x127) hz3, View.ld_unit_zero (S := S127x256) hz2, View.ld_unit_zero (S := S1x256) hz2]

theorem out0_B_5_eq (c : Dev nD) (i : grid0.Coords) (arg1 : Memref sig .tc .vmem S128x32x127 .f32) (harg1 : arg1.IsWhole) (arg2 : Memref sig .tc .vmem S127x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : ¬cond0_0 i) (x0 : Vec F S128x32x127 .f32) (x1 : Vec F S127x256 .f32) (x2 : Vec F S1x256 .f32) (x3 : Vec F S1x256 .f32) (xo4 xo5 : Vec F S1x256 .f32) :
    out0_B_5 c i arg1 harg1 arg2 harg2 arg3 harg3 arg4 harg4 arg5 harg5 arg6 harg6 hc0 x0 x1 x2 x3 xo4 xo5 = k0_pay1 (k0_pay5 x0 x1 x2 x3) (k0_pay7 xo5) := by
  unfold out0_B_5
  rw [View.read_writes_eq_canon _ _ _ (cover0_B_5 c i arg1 harg1 arg2 harg2 arg3 harg3 arg4 harg4 arg5 harg5 arg6 harg6 hc0 x0 x1 x2 x3 xo4 xo5)]
  unfold kernelRun0_B
  dsimp only
  sl_unfold_run_names
  rw [View.canon_unit_zero (S := S1x256) hz2]
  simp only [View.readAt_eq_ld, harg1.read_unread, harg2.read_unread, harg3.read_unread, harg4.read_unread, harg5.read_unread, harg6.read_unread,
    View.ld_unit_zero (S := S128x32x127) hz3, View.ld_unit_zero (S := S127x256) hz2, View.ld_unit_zero (S := S1x256) hz2]

theorem out0_A_4_eq (c : Dev nD) (i : grid0.Coords) (arg1 : Memref sig .tc .vmem S128x32x127 .f32) (harg1 : arg1.IsWhole) (arg2 : Memref sig .tc .vmem S127x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : cond0_0 i) (x0 : Vec F S128x32x127 .f32) (x1 : Vec F S127x256 .f32) (x2 : Vec F S1x256 .f32) (x3 : Vec F S1x256 .f32) :
    out0_A_4 c i arg1 harg1 arg2 harg2 arg3 harg3 arg4 harg4 arg5 harg5 arg6 harg6 hc0 x0 x1 x2 x3 = k0_pay6 x0 x1 x2 x3 (k0_pay2 (F := F)) := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_run_names
  rw [View.canon_cons_unit_zero (S := S1x256) hz2]
  simp only [View.readAt_eq_ld, harg1.read_unread, harg2.read_unread, harg3.read_unread, harg4.read_unread,
    View.ld_unit_zero (S := S128x32x127) hz3, View.ld_unit_zero (S := S127x256) hz2, View.ld_unit_zero (S := S1x256) hz2]
  rw [View.readCov_unit_zero (S := S1x256) arg5.view hz2]

theorem out0_A_5_eq (c : Dev nD) (i : grid0.Coords) (arg1 : Memref sig .tc .vmem S128x32x127 .f32) (harg1 : arg1.IsWhole) (arg2 : Memref sig .tc .vmem S127x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (hc0 : cond0_0 i) (x0 : Vec F S128x32x127 .f32) (x1 : Vec F S127x256 .f32) (x2 : Vec F S1x256 .f32) (x3 : Vec F S1x256 .f32) :
    out0_A_5 c i arg1 harg1 arg2 harg2 arg3 harg3 arg4 harg4 arg5 harg5 arg6 harg6 hc0 x0 x1 x2 x3 = k0_pay1 (k0_pay5 x0 x1 x2 x3) (k0_pay7 (k0_pay3 (F := F))) := by
  unfold out0_A_5
  rw [View.read_writes_eq_canon _ _ _ (cover0_A_5 c i arg1 harg1 arg2 harg2 arg3 harg3 arg4 harg4 arg5 harg5 arg6 harg6 hc0 x0 x1 x2 x3)]
  unfold kernelRun0_A
  dsimp only
  sl_unfold_run_names
  rw [View.canon_cons_unit_zero (S := S1x256) hz2]
  simp only [View.readAt_eq_ld, harg1.read_unread, harg2.read_unread, harg3.read_unread, harg4.read_unread,
    View.ld_unit_zero (S := S128x32x127) hz3, View.ld_unit_zero (S := S127x256) hz2, View.ld_unit_zero (S := S1x256) hz2]
  rw [View.readCov_unit_zero (S := S1x256) arg6.view hz2]

end Cert.KernelIdeal.Frame

end
-- ==== Proof.Spec.lean ====
/-
  A direction-weighted neighbour pooling layer, as mathematics on the extended reals.

  For every batch entry b, vertex v and neighbour slot n the layer has
    * a direction row   dirw b v n k  (k < 3): the offset from the vertex to its neighbour, divided by its Euclidean
      length clamped below by a tiny constant, moved from [-1, 1] to [0, 1];
    * a direction weight theta b v n c = max (sum_k dirw k * (d_{k+1} c - d_0 c) + d_0 c, 0)  (c < 256);
    * a feature score    z b v n c = sum_k f k * W c k + |f| * W c 127 + bias c, with |f| the Euclidean length of the
      127 gathered features;
  the scores are normalised per channel by their mean and variance over all (b, v, n), scaled, shifted, clamped at 0,
  multiplied by theta, and the maximum over the 32 neighbour slots is taken.

  Two spellings occur for three of the quantities, and each is stated here so that the law joining them can be
  proved once, with no program in sight:
    * theta with its three products added one after the other, or as one contraction over k;
    * z with the distance column apart, or as one contraction over the 128 joined columns;
    * the variance as E[z^2] - E[z]^2, or as E[(z - E[z])^2].
  The first two pairs are equal on all extended reals (a finite sum regrouped); the third needs every score real.
-/
import Idealize.ShloMosaic.PureOps.Ideal
import Mathlib.Algebra.BigOperators.Fin

noncomputable section

namespace Cert.NeighborPool

open Idealize.ShloMosaic

/-- The f32 words the layer spells: the clamp under the direction's length, one, one half, the variance's offset,
    the number of (b, v, n) triples 4 * 4096 * 32 = 2^19, and minus infinity. -/
abbrev tiny : EReal := Ideal.ofBits .f32 0x2B8CBCCC#32
abbrev one : EReal := Ideal.ofBits .f32 0x3F800000#32
abbrev half : EReal := Ideal.ofBits .f32 0x3F000000#32
abbrev eps : EReal := Ideal.ofBits .f32 0x3727C5AC#32
abbrev count : EReal := Ideal.ofBits .f32 0x49000000#32
abbrev negInf : EReal := Ideal.ofBits .f32 0xFF800000#32

section Inputs

variable (nb : Fin 4 → Fin 4096 → Fin 32 → Fin 3 → EReal) (vx : Fin 4 → Fin 4096 → Fin 3 → EReal)
  (fs : Fin 4 → Fin 4096 → Fin 32 → Fin 127 → EReal)
  (dr : Fin 4 → Fin 256 → EReal) (W : Fin 256 → Fin 128 → EReal) (bias : Fin 256 → EReal)

/-- The offset from vertex (b, v) to its n-th neighbour, coordinate k. -/
def direc (b : Fin 4) (v : Fin 4096) (n : Fin 32) (k : Fin 3) : EReal := nb b v n k - vx b v k

/-- Its Euclidean length, clamped below. -/
def dnorm (b : Fin 4) (v : Fin 4096) (n : Fin 32) : EReal :=
  max (Ideal.sqrt (∑ k : Fin 3, direc nb vx b v n k * direc nb vx b v n k)) tiny

/-- The unit direction moved to [0, 1]. -/
def dirw (b : Fin 4) (v : Fin 4096) (n : Fin 32) (k : Fin 3) : EReal :=
  (Ideal.div (direc nb vx b v n k) (dnorm nb vx b v n) + one) * half

/-- The k-th support direction relative to the base direction 0. -/
def supw (k : Fin 3) (c : Fin 256) : EReal := dr k.succ c - dr 0 c

/-- The direction weight, its three products added one after the other. -/
def thetaSeq (b : Fin 4) (v : Fin 4096) (n : Fin 32) (c : Fin 256) : EReal :=
  max (dirw nb vx b v n 0 * supw dr 0 c + dirw nb vx b v n 1 * supw dr 1 c + dirw nb vx b v n 2 * supw dr 2 c + dr 0 c) 0

/-- The direction weight as one contraction. -/
def thetaDot (b : Fin 4) (v : Fin 4096) (n : Fin 32) (c : Fin 256) : EReal :=
  max ((∑ k : Fin 3, dirw nb vx b v n k * supw dr k c) + dr 0 c) 0

/-- The Euclidean length of the 127 gathered features. -/
def fdist (b : Fin 4) (v : Fin 4096) (n : Fin 32) : EReal := Ideal.sqrt (∑ k : Fin 127, fs b v n k * fs b v n k)

/-- The score with the distance column apart. -/
def zSplit (b : Fin 4) (v : Fin 4096) (n : Fin 32) (c : Fin 256) : EReal :=
  (∑ k : Fin 127, fs b v n k * W c k.castSucc) + fdist fs b v n * W c (Fin.last 127) + bias c

/-- The 127 features and their length joined into 128 columns. -/
def joined (b : Fin 4) (v : Fin 4096) (n : Fin 32) (i : Fin 128) : EReal :=
  if h : i.val < 127 then fs b v n ⟨i.val, h⟩ else fdist fs b v n

/-- The score as one contraction over the joined columns. -/
def zJoined (b : Fin 4) (v : Fin 4096) (n : Fin 32) (c : Fin 256) : EReal :=
  (∑ i : Fin 128, joined fs b v n i * W c i) + bias c

end Inputs

section Normalise

variable (z th : Fin 4 → Fin 4096 → Fin 32 → Fin 256 → EReal) (var gam bet : Fin 256 → EReal)

/-- The sum of channel c's scores over every (b, v, n). -/
def total (c : Fin 256) : EReal := ∑ b : Fin 4, ∑ v : Fin 4096, ∑ n : Fin 32, z b v n c

/-- Their mean. -/
def mean (c : Fin 256) : EReal := Ideal.div (total z c) count

/-- The variance as the mean square less the squared mean. -/
def varOnePass (c : Fin 256) : EReal :=
  Ideal.div (∑ b : Fin 4, ∑ v : Fin 4096, ∑ n : Fin 32, z b v n c * z b v n c) count - mean z c * mean z c

/-- The variance as the mean squared deviation. -/
def varTwoPass (c : Fin 256) : EReal :=
  Ideal.div (∑ b : Fin 4, ∑ v : Fin 4096, ∑ n : Fin 32, (z b v n c - mean z c) * (z b v n c - mean z c)) count

/-- The normalised, scaled, shifted score clamped at 0, times the direction weight. -/
def act (b : Fin 4) (v : Fin 4096) (n : Fin 32) (c : Fin 256) : EReal :=
  max ((z b v n c - mean z c) * Ideal.rsqrt (var c + eps) * gam c + bet c) 0 * th b v n c

/-- The layer's result: the maximum over the 32 neighbour slots, from minus infinity. -/
def pooled (b : Fin 4) (v : Fin 4096) (c : Fin 256) : EReal :=
  (Finset.univ : Finset (Fin 32)).fold max negInf (fun n => act z th var gam bet b v n c)

end Normalise

end Cert.NeighborPool

end
-- ==== Proof.StatsPayload.lean ====
/-
  The statistics pass, one element at a time.

  The pass walks the 16384 vertices in blocks of 128. A block holds 128 * 32 = 4096 rows of 127 gathered
  features (row r is neighbour r % 32 of vertex r / 32 of the block). For every row r and channel c it forms the
  score
      z r c = sum_k f r k * W k c + |f r| * wd c + bias c,      |f r| = sqrt (sum_k f r k * f r k),
  and adds the column sums  sum_r z r c  and  sum_r z r c * z r c  to two running rows that start from zero.
  Each value the pass stores is read here at one index as such a formula on the extended reals: a change of
  float format is the identity there, a product into a zero accumulator is the plain sum of products, and a
  reduction along one axis is the sum over that axis's coordinates.
-/
import proofs.«116505_j37873021616799_1_alg».proof.Proof.Gen.KernelIdeal.Skeleton
import proofs.«116505_j37873021616799_1_alg».proof.Proof.Spec
import Idealize.ShloMosaic.Lib.ValueIdx
import Idealize.ShloMosaic.Lib.ValueLayout
import Idealize.ShloMosaic.PureOps.Ideal.Laws

noncomputable section

namespace Cert.KernelIdeal.StatsPayload

open Idealize.ShloMosaic Idealize.ShloMosaic.ValueIdx Cert.KernelIdeal Cert.NeighborPool

/-- A [128, 32, 127] array viewed as [4096, 127]: row r is (r / 32, r % 32). -/
theorem cast_rows {α : Type} (x : S128x32x127.Idx → α) (h : S128x32x127.ShapeCasts S4096x127) (r : Fin 4096) (k : Fin 127) :
    shapeCast S4096x127 x h (ix2 r k) = x (ix3 (⟨r.val / 32, by omega⟩ : Fin 128) (⟨r.val % 32, by omega⟩ : Fin 32) k) :=
  shapeCast_apply x h _ _ (by
    rw [Shape.rowMajor_val_three, Shape.rowMajor_val_two]
    show (r.val / 32 * 32 + r.val % 32) * 127 + k.val = r.val * 127 + k.val
    rw [Nat.div_add_mod' r.val 32])

/-- A [4096] vector viewed as a [4096, 1] column. -/
theorem cast_col {α : Type} (x : S4096.Idx → α) (h : S4096.ShapeCasts S4096x1) (r : Fin 4096) (u : Fin 1) :
    shapeCast S4096x1 x h (ix2 r u) = x (ix1 r) :=
  shapeCast_apply x h _ _ (by
    rw [Shape.rowMajor_val_one, Shape.rowMajor_val_two]
    show r.val = r.val * 1 + u.val
    omega)

/-- A [4096, 1] column broadcast along the 256 lanes. -/
theorem bcast_col {α : Type} (x : S4096x1.Idx → α) (h : S4096x1.Broadcasts S4096x256) (r : Fin 4096) (c : Fin 256) :
    broadcastTo S4096x256 x h (ix2 r c) = x (ix2 r (0 : Fin 1)) := by
  refine broadcastTo_apply x h (ix2 r c) (ix2 r (0 : Fin 1)) fun ax => ?_
  match ax with
  | ⟨0, _⟩ => show r.val = if (4096 : Nat) = 1 then 0 else r.val; rw [if_neg (by decide)]
  | ⟨1, _⟩ => show 0 = if (1 : Nat) = 1 then 0 else c.val; rw [if_pos rfl]

/-- A [256] vector viewed as a [1, 256] row. -/
theorem cast_row {α : Type} (x : S256.Idx → α) (h : S256.ShapeCasts S1x256) (u : Fin 1) (c : Fin 256) :
    shapeCast S1x256 x h (ix2 u c) = x (ix1 c) :=
  shapeCast_a_1a_apply x h u c

/-- A square root and a reciprocal square root are taken element by element. -/
theorem sqrt_apply {s : Shape} {φ : FTy} (a : FVec Ideal s φ) (i : s.Idx) : sqrt a i = Ideal.sqrt (a i) := rfl
theorem rsqrt_apply {s : Shape} {φ : FTy} (a : FVec Ideal s φ) (i : s.Idx) : rsqrt a i = Ideal.rsqrt (a i) := rfl

/-- The sum along the 127 lanes of a [4096, 127] array, at row r. -/
theorem sum_lanes (v : FVec Ideal S4096x127 .f32) (h : S4096x127.Reduces [1] S4096)
    (hφ : FTy.f32 = FTy.f32 ∨ FTy.f32 = FTy.bf16) (hacc : (0x00000000#32 : BitVec 32) = 0x00000000#32) (r : Fin 4096) :
    multiReduction .add [1] S4096 v 0x00000000#32 h hφ hacc (ix1 r) = ∑ k : Fin 127, v (ix2 r k) := by
  refine (Ideal.multiReduction_add_single v 0x00000000#32 h hφ hacc (ix1 r)).trans ?_
  refine Finset.sum_congr rfl fun k _ => congrArg v ?_
  funext a
  match a with
  | ⟨0, _⟩ => rfl
  | ⟨1, _⟩ => rfl

/-- The sum down the 4096 rows of a [4096, 256] array, at lane c. -/
theorem sum_rows (v : FVec Ideal S4096x256 .f32) (h : S4096x256.Reduces [0] S256)
    (hφ : FTy.f32 = FTy.f32 ∨ FTy.f32 = FTy.bf16) (hacc : (0x00000000#32 : BitVec 32) = 0x00000000#32) (c : Fin 256) :
    multiReduction .add [0] S256 v 0x00000000#32 h hφ hacc (ix1 c) = ∑ r : Fin 4096, v (ix2 r c) := by
  refine (Ideal.multiReduction_add_single v 0x00000000#32 h hφ hacc (ix1 c)).trans ?_
  refine Finset.sum_congr rfl fun k _ => congrArg v ?_
  funext a
  match a with
  | ⟨0, _⟩ => rfl
  | ⟨1, _⟩ => rfl

/-- The operand indices of the matrix product at an output index: the kept axes read the output's coordinates. -/
theorem mm_apply_lhs0 (i : S4096x256.Idx) (q : dot_S4096x127_S127x256_S4096x256_1_0_0_1_n_n.contr.Idx) : (dot_S4096x127_S127x256_S4096x256_1_0_0_1_n_n.lhsIdx i q 0).val = (i 0).val := by
  unfold DotDims.lhsIdx
  rw [dif_neg (show ¬(0 : Fin S4096x127.rank) ∈ dot_S4096x127_S127x256_S4096x256_1_0_0_1_n_n.lhsBatch by decide),
    dif_pos (show (0 : Fin S4096x127.rank) ∈ dot_S4096x127_S127x256_S4096x256_1_0_0_1_n_n.lhsNonContracting by decide)]
  rfl
theorem mm_apply_rhs1 (i : S4096x256.Idx) (q : dot_S4096x127_S127x256_S4096x256_1_0_0_1_n_n.contr.Idx) : (dot_S4096x127_S127x256_S4096x256_1_0_0_1_n_n.rhsIdx i q 1).val = (i 1).val := by
  unfold DotDims.rhsIdx
  rw [dif_neg (show ¬(1 : Fin S127x256.rank) ∈ dot_S4096x127_S127x256_S4096x256_1_0_0_1_n_n.rhsBatch by decide),
    dif_pos (show (1 : Fin S127x256.rank) ∈ dot_S4096x127_S127x256_S4096x256_1_0_0_1_n_n.rhsNonContracting by decide)]
  rfl

/-- The matrix product into a zero accumulator, at (r, c): the sum over the 127 contracted columns. -/
theorem mm_apply (l : FVec Ideal S4096x127 .bf16) (w : FVec Ideal S127x256 .bf16) (r : Fin 4096) (c : Fin 256) :
    matmul dot_S4096x127_S127x256_S4096x256_1_0_0_1_n_n none l w (constant S4096x256 .f32 0x00000000#32) (ix2 r c)
      = ∑ k : Fin 127, l (ix2 r k) * w (ix2 k c) := by
  simp only [matmul]
  rw [Ideal.matmul_constant_zero_apply, ← Equiv.sum_comp (contrEquiv1 dot_S4096x127_S127x256_S4096x256_1_0_0_1_n_n 127 rfl rfl).symm]
  refine Finset.sum_congr rfl fun k _ => ?_
  have hk := contrEquiv1_symm_val dot_S4096x127_S127x256_S4096x256_1_0_0_1_n_n 127 rfl rfl k
  have el : dot_S4096x127_S127x256_S4096x256_1_0_0_1_n_n.lhsIdx (ix2 r c) ((contrEquiv1 dot_S4096x127_S127x256_S4096x256_1_0_0_1_n_n 127 rfl rfl).symm k) = ix2 r k :=
    funext fun a => Fin.ext (by
      match a with
      | ⟨0, _⟩ => exact mm_apply_lhs0 _ _
      | ⟨1, _⟩ => exact (dot_S4096x127_S127x256_S4096x256_1_0_0_1_n_n.lhsIdx_val_of_single rfl _ _).trans hk)
  have er : dot_S4096x127_S127x256_S4096x256_1_0_0_1_n_n.rhsIdx (ix2 r c) ((contrEquiv1 dot_S4096x127_S127x256_S4096x256_1_0_0_1_n_n 127 rfl rfl).symm k) = ix2 k c :=
    funext fun a => Fin.ext (by
      match a with
      | ⟨0, _⟩ => exact (dot_S4096x127_S127x256_S4096x256_1_0_0_1_n_n.rhsIdx_val_of_single rfl _ _).trans hk
      | ⟨1, _⟩ => exact mm_apply_rhs1 _ _)
  rw [el, er]

/-- The score of row r of the block at lane c: the features' product with the weights, plus their Euclidean
    length times the distance weights, plus the bias. Row r of the block is neighbour r % 32 of vertex r / 32. -/
def zrow (x0 : Vec Ideal S128x32x127 .f32) (wf : Vec Ideal S127x256 .f32) (wd bb : Vec Ideal S1x256 .f32)
    (r : Fin 4096) (c : Fin 256) : EReal :=
  (∑ k : Fin 127, x0 (ix3 (⟨r.val / 32, by omega⟩ : Fin 128) (⟨r.val % 32, by omega⟩ : Fin 32) k) * wf (ix2 k c))
    + Ideal.sqrt (∑ k : Fin 127, x0 (ix3 (⟨r.val / 32, by omega⟩ : Fin 128) (⟨r.val % 32, by omega⟩ : Fin 32) k)
        * x0 (ix3 (⟨r.val / 32, by omega⟩ : Fin 128) (⟨r.val % 32, by omega⟩ : Fin 32) k)) * wd (ix2 (0 : Fin 1) c)
    + bb (ix2 (0 : Fin 1) c)

/-- The scores' block at (r, c). -/
theorem pay4_apply (x0 : Vec Ideal S128x32x127 .f32) (wf : Vec Ideal S127x256 .f32) (wd bb : Vec Ideal S1x256 .f32)
    (r : Fin 4096) (c : Fin 256) :
    Gen.k0_pay4 (F := Ideal) x0 wf wd bb (ix2 r c) = zrow x0 wf wd bb r c := by
  unfold Gen.k0_pay4 zrow
  simp only [addf_apply, mulf_apply, bcast_col, broadcastTo_1b_ab_apply, shapeCast_self, mm_apply, sqrt_apply,
    cast_col, truncf_apply, cast_rows]
  rw [sum_lanes]
  simp only [mulf_apply, cast_rows]

/-- The running sum of the scores: the accumulator plus the block's column sums. -/
theorem pay6_apply (x0 : Vec Ideal S128x32x127 .f32) (wf : Vec Ideal S127x256 .f32) (wd bb acc : Vec Ideal S1x256 .f32)
    (u : Fin 1) (c : Fin 256) :
    Gen.k0_pay6 (F := Ideal) x0 wf wd bb acc (ix2 u c) = acc (ix2 u c) + ∑ r : Fin 4096, zrow x0 wf wd bb r c := by
  unfold Gen.k0_pay6
  simp only [addf_apply, shapeCast_self, cast_row]
  rw [sum_rows]
  simp only [pay4_apply]

/-- The block's column sums of the squared scores. -/
theorem pay5_apply (x0 : Vec Ideal S128x32x127 .f32) (wf : Vec Ideal S127x256 .f32) (wd bb : Vec Ideal S1x256 .f32)
    (u : Fin 1) (c : Fin 256) :
    Gen.k0_pay5 (F := Ideal) x0 wf wd bb (ix2 u c) = ∑ r : Fin 4096, zrow x0 wf wd bb r c * zrow x0 wf wd bb r c := by
  unfold Gen.k0_pay5
  simp only [cast_row]
  rw [sum_rows]
  simp only [mulf_apply, pay4_apply]

/-- The running sum of the squared scores: what was loaded plus the block's sums. -/
theorem pay1_apply (v29 v35 : FVec Ideal S1x256 .f32) (j : S1x256.Idx) :
    Gen.k0_pay1 (F := Ideal) v29 v35 j = v35 j + v29 j := rfl

/-- The loaded running sum is passed on as it is. -/
theorem pay7_eq (v : Vec Ideal S1x256 .f32) : Gen.k0_pay7 (F := Ideal) v = v := by
  unfold Gen.k0_pay7
  exact shapeCast_self v _

/-- Both accumulators start from zero. -/
theorem pay2_apply (j : S1x256.Idx) : Gen.k0_pay2 (F := Ideal) j = 0 := by
  unfold Gen.k0_pay2
  exact Ideal.ofBits_zero_f32
theorem pay3_apply (j : S1x256.Idx) : Gen.k0_pay3 (F := Ideal) j = 0 := by
  unfold Gen.k0_pay3
  exact Ideal.ofBits_zero_f32

end Cert.KernelIdeal.StatsPayload

end
-- ==== Proof.StatsValue.lean ====
/-
  The statistics pass, summed up.

  The pass visits 128 blocks. After the body at block n the first accumulator holds, at lane c, the sum over the
  blocks 0 .. n of the block's column sum of the scores, and the second the same sum of the squared scores: the
  first block adds its sums to zero, every later block adds its sums to what the block before left, the old value
  on the left. After the last block the two accumulators are written back whole, so the two result rows hold the
  sums over all 128 blocks.
-/
import proofs.«116505_j37873021616799_1_alg».proof.Proof.StatsPieces
import proofs.«116505_j37873021616799_1_alg».proof.Proof.StatsPayload
import Idealize.ShloMosaic.Lib.Pipeline.Value
import Idealize.ShloMosaic.Lib.ValueIdx

set_option maxRecDepth 16384

noncomputable section

namespace Cert.KernelIdeal.StatsValue

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Frame Cert.KernelIdeal.StatsPayload

variable (V : (c : Dev nD) → (b : Ref sig .tc) → Buf (Elt Ideal) ((c : Thread nD τ).loc b)) (c : Dev nD)

/-- Block t's column sum of the scores, at lane cc. -/
def blockSum (t : Fin cfg0.N) (cc : Fin 256) : EReal :=
  ∑ r : Fin 4096, zrow (iblk0 V c 0 t) (iblk0 V c 1 t) (iblk0 V c 2 t) (iblk0 V c 3 t) r cc

/-- Block t's column sum of the squared scores, at lane cc. -/
def blockSq (t : Fin cfg0.N) (cc : Fin 256) : EReal :=
  ∑ r : Fin 4096, zrow (iblk0 V c 0 t) (iblk0 V c 1 t) (iblk0 V c 2 t) (iblk0 V c 3 t) r cc
    * zrow (iblk0 V c 0 t) (iblk0 V c 1 t) (iblk0 V c 2 t) (iblk0 V c 3 t) r cc

/-- The first accumulator after the body at block n: the blocks' column sums, blocks 0 .. n. -/
theorem acc0 (n : ℕ) (hn : n < cfg0.N) (u : Fin 1) (cc : Fin 256) :
    (outsAt0 V c n hn).1 (ix2 u cc) = ∑ t : Fin (n + 1), blockSum V c ⟨t.val, Nat.lt_of_lt_of_le t.isLt hn⟩ cc := by
  induction n with
  | zero =>
    have e := congrArg Prod.fst (outsAt0_A V c ⟨0, hn⟩ (Nat.zero_mod _))
    dsimp only at e
    rw [e, out0_A_4_eq, pay6_apply, pay2_apply, zero_add, Fin.sum_univ_one]
    rfl
  | succ n ih =>
    have hN : n + 1 < 128 := lt_of_lt_of_eq hn (show cfg0.N = 128 from N_0)
    have h0 : ¬(⟨n + 1, hn⟩ : Fin cfg0.N).val % 128 = 0 := by
      show ¬(n + 1) % 128 = 0
      omega
    have e := congrArg Prod.fst (outsAt0_B V c ⟨n + 1, hn⟩ h0)
    dsimp only at e
    rw [e, out0_B_4_eq, pay6_apply]
    refine Eq.trans ?_ (Fin.sum_univ_castSucc
      (fun t : Fin (n + 1 + 1) => blockSum V c ⟨t.val, Nat.lt_of_lt_of_le t.isLt hn⟩ cc)).symm
    exact congrArg₂ (· + ·) (ih (Nat.lt_of_succ_lt hn)) rfl

/-- The second accumulator after the body at block n: the blocks' column sums of squares, blocks 0 .. n. -/
theorem acc1 (n : ℕ) (hn : n < cfg0.N) (u : Fin 1) (cc : Fin 256) :
    (outsAt0 V c n hn).2 (ix2 u cc) = ∑ t : Fin (n + 1), blockSq V c ⟨t.val, Nat.lt_of_lt_of_le t.isLt hn⟩ cc := by
  induction n with
  | zero =>
    have e := congrArg Prod.snd (outsAt0_A V c ⟨0, hn⟩ (Nat.zero_mod _))
    dsimp only at e
    rw [e, out0_A_5_eq, pay1_apply, pay7_eq, pay3_apply, zero_add, pay5_apply, Fin.sum_univ_one]
    rfl
  | succ n ih =>
    have hN : n + 1 < 128 := lt_of_lt_of_eq hn (show cfg0.N = 128 from N_0)
    have h0 : ¬(⟨n + 1, hn⟩ : Fin cfg0.N).val % 128 = 0 := by
      show ¬(n + 1) % 128 = 0
      omega
    have e := congrArg Prod.snd (outsAt0_B V c ⟨n + 1, hn⟩ h0)
    dsimp only at e
    rw [e, out0_B_5_eq, pay1_apply, pay7_eq, pay5_apply]
    refine Eq.trans ?_ (Fin.sum_univ_castSucc
      (fun t : Fin (n + 1 + 1) => blockSq V c ⟨t.val, Nat.lt_of_lt_of_le t.isLt hn⟩ cc)).symm
    exact congrArg₂ (· + ·) (ih (Nat.lt_of_succ_lt hn)) rfl

/-- The grid's last point. -/
abbrev tLast : Fin cfg0.N := ⟨127, lt_of_lt_of_eq (by decide : 127 < 128) (show 128 = cfg0.N from N_0.symm)⟩

/-- The scores' column sums over all 128 blocks, as a [1, 256] row. -/
def rowSum : S1x256.Idx → EReal := fun i =>
  ∑ t : Fin 128, blockSum V c ⟨t.val, lt_of_lt_of_eq t.isLt (show 128 = cfg0.N from N_0.symm)⟩ ⟨(i 1).val, (i 1).isLt⟩

/-- The squared scores' column sums over all 128 blocks, as a [1, 256] row. -/
def rowSq : S1x256.Idx → EReal := fun i =>
  ∑ t : Fin 128, blockSq V c ⟨t.val, lt_of_lt_of_eq t.isLt (show 128 = cfg0.N from N_0.symm)⟩ ⟨(i 1).val, (i 1).isLt⟩

/-- After the last block the first accumulator is the row of sums over all blocks. -/
theorem outs_last_1 (hn : 127 < cfg0.N) : (outsAt0 V c 127 hn).1 = rowSum V c := by
  funext i
  have hi : i = ix2 (i 0) (i 1) := eq_ix2 i
  refine (congrArg (outsAt0 V c 127 hn).1 hi).trans ((acc0 V c 127 hn (i 0) (i 1)).trans ?_)
  rfl

/-- After the last block the second accumulator is the row of sums of squares over all blocks. -/
theorem outs_last_2 (hn : 127 < cfg0.N) : (outsAt0 V c 127 hn).2 = rowSq V c := by
  funext i
  have hi : i = ix2 (i 0) (i 1) := eq_ix2 i
  refine (congrArg (outsAt0 V c 127 hn).2 hi).trans ((acc1 V c 127 hn (i 0) (i 1)).trans ?_)
  rfl

/-- The one write-back of the first result row, at the last point, writes the row of sums: block (0, 0) of the
    [1, 256] array read at zero offsets is the array. -/
theorem flushed4_eq (t : Fin cfg0.N) (hf : (cfg0.win 4).flush t = true) :
    (dat0 V c).flushed 4 t = ((cfg0.win 4).blk t).view.read (Elt Ideal) (rowSum V c) := by
  have hN : cfg0.N = 128 := N_0
  have h1 : t.val = 127 := by
    have := (flush0_4 t).mp hf
    have := t.isLt
    omega
  obtain rfl : t = tLast := Fin.ext h1
  show (cfg0.win 4).cut (grid0.coords tLast) ((dat0 V c).after 4 tLast) = _
  rw [after0_4, outs_last_1 V c tLast.isLt]
  have hz' : (fun a => win0_4.index tLast a * main_v45_0.ty.shape.size a) = fun _ => 0 :=
    funext fun a => by fin_cases a <;> decide +kernel
  exact (Memref.read_access_unit_zero (Elt Ideal) main_v45_0 hz' (fun a => by rw [congrFun hz' a]; simp) (rowSum V c)).symm

/-- The same for the second result row. -/
theorem flushed5_eq (t : Fin cfg0.N) (hf : (cfg0.win 5).flush t = true) :
    (dat0 V c).flushed 5 t = ((cfg0.win 5).blk t).view.read (Elt Ideal) (rowSq V c) := by
  have hN : cfg0.N = 128 := N_0
  have h1 : t.val = 127 := by
    have := (flush0_5 t).mp hf
    have := t.isLt
    omega
  obtain rfl : t = tLast := Fin.ext h1
  show (cfg0.win 5).cut (grid0.coords tLast) ((dat0 V c).after 5 tLast) = _
  rw [after0_5, outs_last_2 V c tLast.isLt]
  have hz' : (fun a => win0_5.index tLast a * main_v45_1.ty.shape.size a) = fun _ => 0 :=
    funext fun a => by fin_cases a <;> decide +kernel
  exact (Memref.read_access_unit_zero (Elt Ideal) main_v45_1 hz' (fun a => by rw [congrFun hz' a]; simp) (rowSq V c)).symm

/-- THE FIRST RESULT ROW after the region: at lane i 1 the scores' column sums over all 128 blocks (the last
    point's block is the whole [1, 256] array). -/
theorem arr4_eq : (dat0 V c).arrAt 4 cfg0.N = fun i =>
    ∑ t : Fin 128, blockSum V c ⟨t.val, lt_of_lt_of_eq t.isLt (show 128 = cfg0.N from N_0.symm)⟩ ⟨(i 1).val, (i 1).isLt⟩ :=
  (dat0 V c).arrAt_eq_of_cover 4 (rowSum V c) (flushed4_eq V c) fun i =>
    ⟨tLast, (flush0_4 tLast).mpr rfl, by
      show i ∈ ((View.whole main_v45_0).slice (win0_4.rect tLast)).set
      rw [View.set_slice_whole, Rect.mem_set_unit]
      intro a
      have h0 : (i 0 : Nat) < 1 := (i 0).isLt
      have h1 : (i 1 : Nat) < 256 := (i 1).isLt
      match a with
      | ⟨0, _⟩ =>
        show win0_4.index tLast 0 * win0_4.size 0 ≤ (i 0 : Nat)
          ∧ (i 0 : Nat) < win0_4.index tLast 0 * win0_4.size 0 + win0_4.xsize (grid0.coords tLast) 0
        rw [show win0_4.index tLast 0 * win0_4.size 0 = 0 from by decide +kernel,
          show win0_4.xsize (grid0.coords tLast) 0 = 1 from by decide +kernel]
        omega
      | ⟨1, _⟩ =>
        show win0_4.index tLast 1 * win0_4.size 1 ≤ (i 1 : Nat)
          ∧ (i 1 : Nat) < win0_4.index tLast 1 * win0_4.size 1 + win0_4.xsize (grid0.coords tLast) 1
        rw [show win0_4.index tLast 1 * win0_4.size 1 = 0 from by decide +kernel,
          show win0_4.xsize (grid0.coords tLast) 1 = 256 from by decide +kernel]
        omega⟩

/-- THE SECOND RESULT ROW after the region: at lane i 1 the squared scores' column sums over all 128 blocks. -/
theorem arr5_eq : (dat0 V c).arrAt 5 cfg0.N = fun i =>
    ∑ t : Fin 128, blockSq V c ⟨t.val, lt_of_lt_of_eq t.isLt (show 128 = cfg0.N from N_0.symm)⟩ ⟨(i 1).val, (i 1).isLt⟩ :=
  (dat0 V c).arrAt_eq_of_cover 5 (rowSq V c) (flushed5_eq V c) fun i =>
    ⟨tLast, (flush0_5 tLast).mpr rfl, by
      show i ∈ ((View.whole main_v45_1).slice (win0_5.rect tLast)).set
      rw [View.set_slice_whole, Rect.mem_set_unit]
      intro a
      have h0 : (i 0 : Nat) < 1 := (i 0).isLt
      have h1 : (i 1 : Nat) < 256 := (i 1).isLt
      match a with
      | ⟨0, _⟩ =>
        show win0_5.index tLast 0 * win0_5.size 0 ≤ (i 0 : Nat)
          ∧ (i 0 : Nat) < win0_5.index tLast 0 * win0_5.size 0 + win0_5.xsize (grid0.coords tLast) 0
        rw [show win0_5.index tLast 0 * win0_5.size 0 = 0 from by decide +kernel,
          show win0_5.xsize (grid0.coords tLast) 0 = 1 from by decide +kernel]
        omega
      | ⟨1, _⟩ =>
        show win0_5.index tLast 1 * win0_5.size 1 ≤ (i 1 : Nat)
          ∧ (i 1 : Nat) < win0_5.index tLast 1 * win0_5.size 1 + win0_5.xsize (grid0.coords tLast) 1
        rw [show win0_5.index tLast 1 * win0_5.size 1 = 0 from by decide +kernel,
          show win0_5.xsize (grid0.coords tLast) 1 = 256 from by decide +kernel]
        omega⟩

end Cert.KernelIdeal.StatsValue

end
-- ==== Proof.StatsBlocks.lean ====
/-
  The statistics region's input blocks read entry by entry off the arrays the region finds: block t of the gathered
  features is rows 128 t … 128 t + 127 of the flattened [16384, 32, 127] array; the three resident tables are read
  whole at every point.
-/
import proofs.«116505_j37873021616799_1_alg».proof.Proof.StatsBody
import Idealize.ShloMosaic.Lib.Pipeline.Value
import Idealize.ShloMosaic.Lib.ValueIdx

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- The printed index maps of the statistics region, decided once over its grid. -/
theorem idx_facts0 : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

section
variable (V : (c : Dev nD) → (b : Ref sig .tc) → Buf (Elt F) ((c : Thread nD τ).loc b))

theorem blk0_0_apply (c : Dev nD) (t : Fin cfg0.N) (p : Fin 128) (n : Fin 32) (k : Fin 127) (h : t.val * 128 + p.val < 16384) :
    iblk0 V c 0 t (ix3 p n k) = V c main_v15 (ix3 (⟨t.val * 128 + p.val, h⟩ : Fin 16384) n k) := by
  obtain ⟨e0, e1, e2, -⟩ := idx_facts0 t
  show V c main_v15 (((cfg0.win 0).blk t).view.emb (ix3 p n k)) = _
  congr 1
  funext a; apply Fin.ext
  match a with
  | ⟨0, _⟩ => show win0_0.index t (0 : Fin 3) * 128 + 1 * p.val = t.val * 128 + p.val; omega
  | ⟨1, _⟩ => show win0_0.index t (1 : Fin 3) * 32 + 1 * n.val = n.val; omega
  | ⟨2, _⟩ => show win0_0.index t (2 : Fin 3) * 127 + 1 * k.val = k.val; omega

theorem blk0_1_apply (c : Dev nD) (t : Fin cfg0.N) (k : Fin 127) (cc : Fin 256) :
    iblk0 V c 1 t (ix2 k cc) = V c main_v40 (ix2 k cc) := by
  obtain ⟨-, -, -, e0, e1, -⟩ := idx_facts0 t
  show V c main_v40 (((cfg0.win 1).blk t).view.emb (ix2 k cc)) = _
  congr 1
  funext a; apply Fin.ext
  match a with
  | ⟨0, _⟩ => show win0_1.index t (0 : Fin 2) * 127 + 1 * k.val = k.val; omega
  | ⟨1, _⟩ => show win0_1.index t (1 : Fin 2) * 256 + 1 * cc.val = cc.val; omega

theorem blk0_2_apply (c : Dev nD) (t : Fin cfg0.N) (u : Fin 1) (cc : Fin 256) :
    iblk0 V c 2 t (ix2 u cc) = V c main_v41 (ix2 u cc) := by
  obtain ⟨-, -, -, -, -, e0, e1, -⟩ := idx_facts0 t
  show V c main_v41 (((cfg0.win 2).blk t).view.emb (ix2 u cc)) = _
  congr 1
  funext a; apply Fin.ext
  match a with
  | ⟨0, _⟩ => show win0_2.index t (0 : Fin 2) * 1 + 1 * u.val = u.val; omega
  | ⟨1, _⟩ => show win0_2.index t (1 : Fin 2) * 256 + 1 * cc.val = cc.val; omega

theorem blk0_3_apply (c : Dev nD) (t : Fin cfg0.N) (u : Fin 1) (cc : Fin 256) :
    iblk0 V c 3 t (ix2 u cc) = V c main_v42 (ix2 u cc) := by
  obtain ⟨-, -, -, -, -, -, -, e0, e1⟩ := idx_facts0 t
  show V c main_v42 (((cfg0.win 3).blk t).view.emb (ix2 u cc)) = _
  congr 1
  funext a; apply Fin.ext
  match a with
  | ⟨0, _⟩ => show win0_3.index t (0 : Fin 2) * 1 + 1 * u.val = u.val; omega
  | ⟨1, _⟩ => show win0_3.index t (1 : Fin 2) * 256 + 1 * cc.val = cc.val; omega

end

end Cert.KernelIdeal.Frame

end
-- ==== Proof.Regroup.lean ====
/-
  Finite sums re-indexed by digits.

  A number j below A * B is a * B + b for exactly one pair of digits a below A and b below B, so a sum over j is
  the double sum over its digits.  Used three times this regroups a sum taken block by block — T blocks of V
  vertices, each block laid out as V * K rows with the vertex major and the neighbour slot minor — into the sum
  over B batches of W vertices and K slots, whenever T * V = B * W.
-/
import Mathlib.Algebra.BigOperators.Fin
import Mathlib.Logic.Equiv.Fin.Basic

namespace Cert.NeighborPool.Regroup

variable {M : Type*} [AddCommMonoid M]

/-- The high digit of a * K + n in base K, for n below K. -/
theorem div_digit (K a n : ℕ) (h : n < K) : (a * K + n) / K = a := by
  rw [Nat.add_comm, Nat.add_mul_div_right _ _ (Nat.lt_of_le_of_lt (Nat.zero_le _) h), Nat.div_eq_of_lt h,
    Nat.zero_add]

/-- The low digit of a * K + n in base K, for n below K. -/
theorem mod_digit (K a n : ℕ) (h : n < K) : (a * K + n) % K = n := by
  rw [Nat.add_comm, Nat.add_mul_mod_self_right, Nat.mod_eq_of_lt h]

/-- A sum over the numbers below N = A * B is the double sum over their two digits. -/
theorem sum_mul' (A B N : ℕ) (h : A * B = N) (g : ℕ → M) :
    ∑ j : Fin N, g j.val = ∑ a : Fin A, ∑ b : Fin B, g (a.val * B + b.val) := by
  subst h
  calc ∑ j : Fin (A * B), g j.val
      = ∑ p : Fin A × Fin B, g (finProdFinEquiv p).val :=
        (finProdFinEquiv.sum_comp (fun j : Fin (A * B) => g j.val)).symm
    _ = ∑ p : Fin A × Fin B, g (p.1.val * B + p.2.val) := by
        refine Fintype.sum_congr _ _ (fun p => ?_)
        congr 1
        simp only [finProdFinEquiv_apply_val]
        rw [Nat.add_comm, Nat.mul_comm]
    _ = ∑ a : Fin A, ∑ b : Fin B, g (a.val * B + b.val) :=
        Fintype.sum_prod_type' (fun (a : Fin A) (b : Fin B) => g (a.val * B + b.val))

/-- T blocks of V vertices, each flattened to R = V * K rows (vertex major, slot minor), summed block by block,
    against B batches of W vertices with K slots each, when both count the same T * V = B * W vertices. -/
theorem sum_blocks (T V K R B W : ℕ) (hR : V * K = R) (hN : T * V = B * W) (F : ℕ → ℕ → M) :
    (∑ t : Fin T, ∑ r : Fin R, F (t.val * V + r.val / K) (r.val % K))
      = ∑ b : Fin B, ∑ v : Fin W, ∑ n : Fin K, F (b.val * W + v.val) n.val := by
  -- each block: a row r is a * K + n, vertex a in the block, slot n
  have hrow : ∀ t : Fin T, (∑ r : Fin R, F (t.val * V + r.val / K) (r.val % K))
      = ∑ a : Fin V, ∑ n : Fin K, F (t.val * V + a.val) n.val := by
    intro t
    rw [sum_mul' V K R hR (fun r => F (t.val * V + r / K) (r % K))]
    refine Fintype.sum_congr _ _ (fun a => Fintype.sum_congr _ _ (fun n => ?_))
    rw [div_digit K a.val n.val n.isLt, mod_digit K a.val n.val n.isLt]
  simp only [hrow]
  -- block t and vertex a in it make vertex t * V + a of all T * V; that vertex is b * W + v
  rw [← sum_mul' T V (T * V) rfl (fun j => ∑ n : Fin K, F j n.val),
    sum_mul' B W (T * V) hN.symm (fun j => ∑ n : Fin K, F j n.val)]

/-- 128 blocks of 128 vertices, 4096 rows each, against 4 batches of 4096 vertices and 32 slots. -/
theorem sum_blocks_eq (F : ℕ → ℕ → M) :
    (∑ t : Fin 128, ∑ r : Fin 4096, F (t.val * 128 + r.val / 32) (r.val % 32))
      = ∑ b : Fin 4, ∑ v : Fin 4096, ∑ n : Fin 32, F (b.val * 4096 + v.val) n.val :=
  sum_blocks 128 128 32 4096 4 4096 rfl rfl F

/-- 256 blocks of 64 vertices, 2048 rows each, against the same 4 batches of 4096 vertices and 32 slots. -/
theorem sum_blocks64_eq (F : ℕ → ℕ → M) :
    (∑ t : Fin 256, ∑ r : Fin 2048, F (t.val * 64 + r.val / 32) (r.val % 32))
      = ∑ b : Fin 4, ∑ v : Fin 4096, ∑ n : Fin 32, F (b.val * 4096 + v.val) n.val :=
  sum_blocks 256 64 32 2048 4 4096 rfl rfl F

end Cert.NeighborPool.Regroup
-- ==== Proof.StatsSpec.lean ====
/-
  The statistics region's block sums as sums of the layer's scores: a row of block t is the score of one
  (batch entry, vertex, neighbour slot) triple, and the 128 blocks of 4096 rows run through every triple once.
-/
import proofs.«116505_j37873021616799_1_alg».proof.Proof.StatsBlocks
import proofs.«116505_j37873021616799_1_alg».proof.Proof.StatsPayload
import proofs.«116505_j37873021616799_1_alg».proof.Proof.Regroup
import proofs.«116505_j37873021616799_1_alg».proof.Proof.Spec

set_option maxRecDepth 16384

noncomputable section

namespace Cert.KernelIdeal.StatsSpec

open Idealize.ShloMosaic Idealize.ShloMosaic.TcCoe Idealize.SL.Sem Idealize.ShloMosaic.ValueIdx
open Cert.KernelIdeal Cert.KernelIdeal.Gen Cert.KernelIdeal.Frame Cert.KernelIdeal.StatsPayload Cert.NeighborPool

variable (V : (c : Dev nD) → (b : Ref sig .tc) → Buf (Elt Ideal) ((c : Thread nD τ).loc b)) (c : Dev nD)
  (fs : Fin 4 → Fin 4096 → Fin 32 → Fin 127 → EReal) (W : Fin 256 → Fin 128 → EReal) (bias : Fin 256 → EReal)

/-- The vertex a flattened row belongs to, as (batch entry, vertex). -/
theorem row_lt (t : Fin cfg0.N) (r : Fin 4096) : t.val * 128 + r.val / 32 < 16384 := by
  have hN : t.val < 128 := lt_of_lt_of_eq t.isLt (show cfg0.N = 128 from N_0)
  have := r.isLt; omega

/-- A row of block t is the score of its (batch entry, vertex, neighbour slot). -/
theorem zrow_eq (t : Fin cfg0.N) (r : Fin 4096) (cc : Fin 256)
    (h15 : ∀ (bv : Fin 16384) (n : Fin 32) (k : Fin 127), V c main_v15 (ix3 bv n k) = fs ⟨bv.val / 4096, by have := bv.isLt; omega⟩ ⟨bv.val % 4096, Nat.mod_lt _ (by norm_num)⟩ n k)
    (h40 : ∀ (k : Fin 127) (cc : Fin 256), V c main_v40 (ix2 k cc) = W cc k.castSucc)
    (h41 : ∀ cc : Fin 256, V c main_v41 (ix2 (0 : Fin 1) cc) = W cc (Fin.last 127))
    (h42 : ∀ cc : Fin 256, V c main_v42 (ix2 (0 : Fin 1) cc) = bias cc) :
    zrow (iblk0 V c 0 t) (iblk0 V c 1 t) (iblk0 V c 2 t) (iblk0 V c 3 t) r cc
      = zSplit fs W bias ⟨(t.val * 128 + r.val / 32) / 4096, by have := row_lt t r; omega⟩ ⟨(t.val * 128 + r.val / 32) % 4096, Nat.mod_lt _ (by norm_num)⟩ ⟨r.val % 32, Nat.mod_lt _ (by norm_num)⟩ cc := by
  have e0 : ∀ k : Fin 127, iblk0 V c 0 t (ix3 (⟨r.val / 32, by have := r.isLt; omega⟩ : Fin 128) (⟨r.val % 32, Nat.mod_lt _ (by norm_num)⟩ : Fin 32) k)
      = fs ⟨(t.val * 128 + r.val / 32) / 4096, by have := row_lt t r; omega⟩ ⟨(t.val * 128 + r.val / 32) % 4096, Nat.mod_lt _ (by norm_num)⟩ ⟨r.val % 32, Nat.mod_lt _ (by norm_num)⟩ k :=
    fun k => (blk0_0_apply V c t _ _ k (row_lt t r)).trans (h15 ⟨t.val * 128 + r.val / 32, row_lt t r⟩ _ k)
  have e1 : ∀ k : Fin 127, iblk0 V c 1 t (ix2 k cc) = W cc k.castSucc := fun k => (blk0_1_apply V c t k cc).trans (h40 k cc)
  have e2 : iblk0 V c 2 t (ix2 (0 : Fin 1) cc) = W cc (Fin.last 127) := (blk0_2_apply V c t 0 cc).trans (h41 cc)
  have e3 : iblk0 V c 3 t (ix2 (0 : Fin 1) cc) = bias cc := (blk0_3_apply V c t 0 cc).trans (h42 cc)
  unfold zrow zSplit fdist
  simp only [e0, e1, e2, e3]

/-- The scores over a flattened (vertex, slot) pair given as numbers. -/
def zAt (cc : Fin 256) (j n : ℕ) : EReal :=
  if h : j < 16384 ∧ n < 32 then zSplit fs W bias ⟨j / 4096, by omega⟩ ⟨j % 4096, Nat.mod_lt _ (by norm_num)⟩ ⟨n, h.2⟩ cc else 0

theorem zAt_row (cc : Fin 256) (t : Fin cfg0.N) (r : Fin 4096) :
    zSplit fs W bias ⟨(t.val * 128 + r.val / 32) / 4096, by have := row_lt t r; omega⟩ ⟨(t.val * 128 + r.val / 32) % 4096, Nat.mod_lt _ (by norm_num)⟩ ⟨r.val % 32, Nat.mod_lt _ (by norm_num)⟩ cc
      = zAt fs W bias cc (t.val * 128 + r.val / 32) (r.val % 32) := by
  unfold zAt; rw [dif_pos ⟨row_lt t r, Nat.mod_lt _ (by norm_num)⟩]

theorem zAt_triple (cc : Fin 256) (b : Fin 4) (v : Fin 4096) (n : Fin 32) :
    zAt fs W bias cc (b.val * 4096 + v.val) n.val = zSplit fs W bias b v n cc := by
  have hb := b.isLt; have hv := v.isLt
  unfold zAt; rw [dif_pos ⟨by omega, n.isLt⟩]
  congr 1
  · apply Fin.ext; show (b.val * 4096 + v.val) / 4096 = b.val; omega
  · apply Fin.ext; show (b.val * 4096 + v.val) % 4096 = v.val; omega

end Cert.KernelIdeal.StatsSpec

end
-- ==== Proof.StatsTotal.lean ====
/-
  The statistics region's two output arrays, after the region, are the sum of the layer's scores and the sum of their
  squares over every (batch entry, vertex, neighbour slot), channel by channel.
-/
import proofs.«116505_j37873021616799_1_alg».proof.Proof.StatsValue
import proofs.«116505_j37873021616799_1_alg».proof.Proof.StatsSpec

set_option maxRecDepth 16384

noncomputable section

namespace Cert.KernelIdeal.StatsSpec

open Idealize.ShloMosaic Idealize.ShloMosaic.TcCoe Idealize.SL.Sem Idealize.ShloMosaic.ValueIdx
open Cert.KernelIdeal Cert.KernelIdeal.Gen Cert.KernelIdeal.Frame Cert.KernelIdeal.StatsPayload Cert.KernelIdeal.StatsValue Cert.NeighborPool

variable (V : (c : Dev nD) → (b : Ref sig .tc) → Buf (Elt Ideal) ((c : Thread nD τ).loc b)) (c : Dev nD)
  (fs : Fin 4 → Fin 4096 → Fin 32 → Fin 127 → EReal) (W : Fin 256 → Fin 128 → EReal) (bias : Fin 256 → EReal)

/-- A block's column sum of the scores, as a sum over its rows named by (vertex, slot) numbers. -/
theorem blockSum_eq (t : Fin 128) (cc : Fin 256)
    (h15 : ∀ (bv : Fin 16384) (n : Fin 32) (k : Fin 127), V c main_v15 (ix3 bv n k) = fs ⟨bv.val / 4096, by have := bv.isLt; omega⟩ ⟨bv.val % 4096, Nat.mod_lt _ (by norm_num)⟩ n k)
    (h40 : ∀ (k : Fin 127) (cc : Fin 256), V c main_v40 (ix2 k cc) = W cc k.castSucc)
    (h41 : ∀ cc : Fin 256, V c main_v41 (ix2 (0 : Fin 1) cc) = W cc (Fin.last 127))
    (h42 : ∀ cc : Fin 256, V c main_v42 (ix2 (0 : Fin 1) cc) = bias cc) :
    blockSum V c ⟨t.val, lt_of_lt_of_eq t.isLt (show 128 = cfg0.N from N_0.symm)⟩ cc
      = ∑ r : Fin 4096, zAt fs W bias cc (t.val * 128 + r.val / 32) (r.val % 32) := by
  unfold blockSum
  refine Finset.sum_congr rfl fun r _ => ?_
  rw [zrow_eq V c fs W bias _ r cc h15 h40 h41 h42, zAt_row]

theorem blockSq_eq (t : Fin 128) (cc : Fin 256)
    (h15 : ∀ (bv : Fin 16384) (n : Fin 32) (k : Fin 127), V c main_v15 (ix3 bv n k) = fs ⟨bv.val / 4096, by have := bv.isLt; omega⟩ ⟨bv.val % 4096, Nat.mod_lt _ (by norm_num)⟩ n k)
    (h40 : ∀ (k : Fin 127) (cc : Fin 256), V c main_v40 (ix2 k cc) = W cc k.castSucc)
    (h41 : ∀ cc : Fin 256, V c main_v41 (ix2 (0 : Fin 1) cc) = W cc (Fin.last 127))
    (h42 : ∀ cc : Fin 256, V c main_v42 (ix2 (0 : Fin 1) cc) = bias cc) :
    blockSq V c ⟨t.val, lt_of_lt_of_eq t.isLt (show 128 = cfg0.N from N_0.symm)⟩ cc
      = ∑ r : Fin 4096, zAt fs W bias cc (t.val * 128 + r.val / 32) (r.val % 32) * zAt fs W bias cc (t.val * 128 + r.val / 32) (r.val % 32) := by
  unfold blockSq
  refine Finset.sum_congr rfl fun r _ => ?_
  rw [zrow_eq V c fs W bias _ r cc h15 h40 h41 h42, zAt_row]

/-- The accumulated sum of the scores is their total over every triple. -/
theorem rowSum_total (u : Fin 1) (cc : Fin 256)
    (h15 : ∀ (bv : Fin 16384) (n : Fin 32) (k : Fin 127), V c main_v15 (ix3 bv n k) = fs ⟨bv.val / 4096, by have := bv.isLt; omega⟩ ⟨bv.val % 4096, Nat.mod_lt _ (by norm_num)⟩ n k)
    (h40 : ∀ (k : Fin 127) (cc : Fin 256), V c main_v40 (ix2 k cc) = W cc k.castSucc)
    (h41 : ∀ cc : Fin 256, V c main_v41 (ix2 (0 : Fin 1) cc) = W cc (Fin.last 127))
    (h42 : ∀ cc : Fin 256, V c main_v42 (ix2 (0 : Fin 1) cc) = bias cc) :
    rowSum V c (ix2 u cc) = total (zSplit fs W bias) cc := by
  show (∑ t : Fin 128, blockSum V c ⟨t.val, lt_of_lt_of_eq t.isLt (show 128 = cfg0.N from N_0.symm)⟩ cc) = _
  rw [Finset.sum_congr rfl fun t _ => blockSum_eq V c fs W bias t cc h15 h40 h41 h42]
  rw [Cert.NeighborPool.Regroup.sum_blocks_eq (zAt fs W bias cc)]
  unfold total
  simp only [zAt_triple]

/-- The accumulated sum of the squared scores likewise. -/
theorem rowSq_total (u : Fin 1) (cc : Fin 256)
    (h15 : ∀ (bv : Fin 16384) (n : Fin 32) (k : Fin 127), V c main_v15 (ix3 bv n k) = fs ⟨bv.val / 4096, by have := bv.isLt; omega⟩ ⟨bv.val % 4096, Nat.mod_lt _ (by norm_num)⟩ n k)
    (h40 : ∀ (k : Fin 127) (cc : Fin 256), V c main_v40 (ix2 k cc) = W cc k.castSucc)
    (h41 : ∀ cc : Fin 256, V c main_v41 (ix2 (0 : Fin 1) cc) = W cc (Fin.last 127))
    (h42 : ∀ cc : Fin 256, V c main_v42 (ix2 (0 : Fin 1) cc) = bias cc) :
    rowSq V c (ix2 u cc) = ∑ b : Fin 4, ∑ v : Fin 4096, ∑ n : Fin 32, zSplit fs W bias b v n cc * zSplit fs W bias b v n cc := by
  show (∑ t : Fin 128, blockSq V c ⟨t.val, lt_of_lt_of_eq t.isLt (show 128 = cfg0.N from N_0.symm)⟩ cc) = _
  rw [Finset.sum_congr rfl fun t _ => blockSq_eq V c fs W bias t cc h15 h40 h41 h42]
  rw [Cert.NeighborPool.Regroup.sum_blocks_eq (fun j n => zAt fs W bias cc j n * zAt fs W bias cc j n)]
  simp only [zAt_triple]

end Cert.KernelIdeal.StatsSpec

end
-- ==== Proof.HostReads.lean ====
/-
  The host operations around the two kernel calls, read at an index.

  Before the first call the program gathers the neighbours' positions and features, flattens the pair (batch entry,
  vertex) into one row index bv = b * 4096 + v, cuts the direction table into its base row and the three rows
  relative to it, transposes the weights and cuts off their last column, and gives the three per-channel vectors a
  leading unit axis. Between the calls it divides the two channel sums by the count and forms the mean square less the
  squared mean. After the second call it unflattens the row index. Each result is read here at one index as the
  argument entry (or the entries) it is made of; the two gathers are left as they are.
-/
import proofs.«116505_j37873021616799_1_alg».proof.Proof.Gen.KernelIdeal.Launch
import proofs.«116505_j37873021616799_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

noncomputable section

namespace Cert.KernelIdeal.HostReads

open Idealize.ShloMosaic Idealize.SL.Sem Idealize.ShloMosaic.ValueIdx Cert.KernelIdeal Cert.KernelIdeal.Gen

/-- The batch entry of a flattened row. -/
abbrev bOf (bv : Fin 16384) : Fin 4 := ⟨bv.val / 4096, by have := bv.isLt; omega⟩

/-- The vertex of a flattened row. -/
abbrev vOf (bv : Fin 16384) : Fin 4096 := ⟨bv.val % 4096, by omega⟩

/-- The flattened row of a batch entry and a vertex. -/
abbrev rowOf (b : Fin 4) (v : Fin 4096) : Fin 16384 := ⟨b.val * 4096 + v.val, by have := b.isLt; have := v.isLt; omega⟩

/-- The neighbour indices as the gathers take them: a negative index counted from the end (4096 added), then a
    trailing unit axis. Both gathers take the same words. -/
def idxWords (a0 : IVec S4x4096x32 32) : IVec S4x4096x32x1 32 :=
  broadcastInDim S4x4096x32x1 ![0, 1, 2] bcast_S4x4096x32_S4x4096x32x1_0_1_2
    (select (cmpi .slt a0 (broadcastInDim S4x4096x32 ![] bcast_S_S4x4096x32 (constantI S_ 32 0#32)))
      (addi a0 (broadcastInDim S4x4096x32 ![] bcast_S_S4x4096x32 (constantI S_ 32 4096#32))) a0)

abbrev nbWords (a0 : IVec S4x4096x32 32) : IVec S4x4096x32x1 32 := idxWords a0
abbrev fsWords (a0 : IVec S4x4096x32 32) : IVec S4x4096x32x1 32 := idxWords a0

/-! ### The arguments and the calls' results, at their printed types -/

section Names

variable (Vm : Valuation τ sig (Elt Ideal))

abbrev a0 : IVec S4x4096x32 32 := Vm (Proc.devRef .tc main_arg0)
abbrev a1 : FVec Ideal S4x4096x3 .f32 := Vm (Proc.devRef .tc main_arg1)
abbrev a2 : FVec Ideal S4x4096x127 .f32 := Vm (Proc.devRef .tc main_arg2)
abbrev a3 : FVec Ideal S4x256 .f32 := Vm (Proc.devRef .tc main_arg3)
abbrev a4 : FVec Ideal S256x128 .f32 := Vm (Proc.devRef .tc main_arg4)
abbrev a5 : FVec Ideal S256 .f32 := Vm (Proc.devRef .tc main_arg5)
abbrev a6 : FVec Ideal S256 .f32 := Vm (Proc.devRef .tc main_arg6)
abbrev a7 : FVec Ideal S256 .f32 := Vm (Proc.devRef .tc main_arg7)
/-- The first call's two results (the channel sums) and the second call's result. -/
abbrev sum0 : FVec Ideal S1x256 .f32 := Vm (Proc.devRef .tc main_v45_0)
abbrev sum1 : FVec Ideal S1x256 .f32 := Vm (Proc.devRef .tc main_v45_1)
abbrev out52 : FVec Ideal S16384x256 .f32 := Vm (Proc.devRef .tc main_v52)

end Names

/-! ### A three-operand operation's result, each operand at its own reference -/

section Nary3

variable {τ' : Topo} {sig' : RefSig} {Val : EltTy → Type} {x a b y : Ref sig' .tc}

theorem nary3_result
    (f : ((k : Fin 3) → ((![x, a, b] : Fin 3 → Ref sig' .tc) k).ty.Contents Val) → y.ty.Contents Val) (hxs hy)
    (G : Valuation τ' sig' Val) :
    (StableHlo.nary (τ := τ') ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

theorem nary3_result'
    (f : ((k : Fin 3) → ((![x, a, b] : Fin 3 → Ref sig' .tc) k).ty.Contents Val) → y.ty.Contents Val) (hxs hy)
    (G : Valuation τ' sig' Val) :
    (StableHlo.nary (τ := τ') ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

end Nary3

section Before

variable (Vm : Valuation τ sig (Elt Ideal))

/-! ### The operations' terms -/

theorem v14_term : (StableHlo.after (hostOps0 (F := Ideal)) Vm (Proc.devRef .tc main_v14) : S16384x32x3.Idx → EReal)
    = shapeCast S16384x32x3
        (Host.gather gather_S4x4096x3_S4x4096x32x1_S4x4096x32x3_3_1_0_0_1_3_113
          (a1 Vm) (nbWords (a0 Vm)))
        shapeCasts_S4x4096x32x3_S16384x32x3 := by
  after_results_simp
  rfl

theorem v15_term : (StableHlo.after (hostOps0 (F := Ideal)) Vm (Proc.devRef .tc main_v15) : S16384x32x127.Idx → EReal)
    = shapeCast S16384x32x127
        (Host.gather gather_S4x4096x127_S4x4096x32x1_S4x4096x32x127_3_1_0_0_1_3_11127
          (a2 Vm) (fsWords (a0 Vm)))
        shapeCasts_S4x4096x32x127_S16384x32x127 := by
  after_results_simp
  rfl

theorem v16_term : (StableHlo.after (hostOps0 (F := Ideal)) Vm (Proc.devRef .tc main_v16) : S16384x3.Idx → EReal)
    = shapeCast S16384x3 (a1 Vm) shapeCasts_S4x4096x3_S16384x3 := by
  after_results_simp
  rfl

/-- Row r of the direction table, as a vector over the channels. -/
abbrev dirRow (a3 : FVec Ideal S4x256 .f32) (off : Fin 2 → Nat) (h : S4x256.Slices off S1x256) : FVec Ideal S256 .f32 :=
  shapeCast S256 (extractStridedSlice S1x256 off a3 h) shapeCasts_S1x256_S256

theorem v38_term : (StableHlo.after (hostOps0 (F := Ideal)) Vm (Proc.devRef .tc main_v38) : S1x256.Idx → EReal)
    = shapeCast S1x256 (dirRow (a3 Vm) ![0, 0] slices_S4x256_S1x256_0_0) shapeCasts_S256_S1x256 := by
  after_results_simp
  rfl

theorem v40_term : (StableHlo.after (hostOps0 (F := Ideal)) Vm (Proc.devRef .tc main_v40) : S127x256.Idx → EReal)
    = extractStridedSlice S127x256 ![0, 0]
        (transpose S128x256 [1, 0] (a4 Vm) transposes_S256x128_S128x256_1_0)
        slices_S128x256_S127x256_0_0 := by
  after_results_simp

theorem v41_term : (StableHlo.after (hostOps0 (F := Ideal)) Vm (Proc.devRef .tc main_v41) : S1x256.Idx → EReal)
    = extractStridedSlice S1x256 ![127, 0]
        (transpose S128x256 [1, 0] (a4 Vm) transposes_S256x128_S128x256_1_0)
        slices_S128x256_S1x256_127_0 := by
  after_results_simp

theorem v42_term : (StableHlo.after (hostOps0 (F := Ideal)) Vm (Proc.devRef .tc main_v42) : S1x256.Idx → EReal)
    = shapeCast S1x256 (a5 Vm) shapeCasts_S256_S1x256 := by
  after_results_simp
  rfl

theorem v43_term : (StableHlo.after (hostOps0 (F := Ideal)) Vm (Proc.devRef .tc main_v43) : S1x256.Idx → EReal)
    = shapeCast S1x256 (a6 Vm) shapeCasts_S256_S1x256 := by
  after_results_simp
  rfl

theorem v44_term : (StableHlo.after (hostOps0 (F := Ideal)) Vm (Proc.devRef .tc main_v44) : S1x256.Idx → EReal)
    = shapeCast S1x256 (a7 Vm) shapeCasts_S256_S1x256 := by
  after_results_simp
  rfl

/-! ### Read at an index -/

/-- The gathered neighbour positions, flattened. -/
theorem v14_apply (bv : Fin 16384) (n : Fin 32) (k : Fin 3) :
    (StableHlo.after (hostOps0 (F := Ideal)) Vm (Proc.devRef .tc main_v14) : S16384x32x3.Idx → EReal) (ix3 bv n k)
      = Host.gather gather_S4x4096x3_S4x4096x32x1_S4x4096x32x3_3_1_0_0_1_3_113
          (a1 Vm) (nbWords (a0 Vm))
          (ix4 (bOf bv) (vOf bv) n k) := by
  rw [v14_term]
  refine shapeCast_apply _ _ _ _ ?_
  rw [Shape.rowMajor_val_four, Shape.rowMajor_val_three]
  show ((bv.val / 4096 * 4096 + bv.val % 4096) * 32 + n.val) * 3 + k.val = (bv.val * 32 + n.val) * 3 + k.val
  omega

/-- The gathered neighbour features, flattened. -/
theorem v15_apply (bv : Fin 16384) (n : Fin 32) (k : Fin 127) :
    (StableHlo.after (hostOps0 (F := Ideal)) Vm (Proc.devRef .tc main_v15) : S16384x32x127.Idx → EReal) (ix3 bv n k)
      = Host.gather gather_S4x4096x127_S4x4096x32x1_S4x4096x32x127_3_1_0_0_1_3_11127
          (a2 Vm) (fsWords (a0 Vm))
          (ix4 (bOf bv) (vOf bv) n k) := by
  rw [v15_term]
  refine shapeCast_apply _ _ _ _ ?_
  rw [Shape.rowMajor_val_four, Shape.rowMajor_val_three]
  show ((bv.val / 4096 * 4096 + bv.val % 4096) * 32 + n.val) * 127 + k.val = (bv.val * 32 + n.val) * 127 + k.val
  omega

/-- The vertex positions, flattened. -/
theorem v16_apply (bv : Fin 16384) (k : Fin 3) :
    (StableHlo.after (hostOps0 (F := Ideal)) Vm (Proc.devRef .tc main_v16) : S16384x3.Idx → EReal) (ix2 bv k)
      = (a1 Vm) (ix3 (bOf bv) (vOf bv) k) := by
  rw [v16_term]
  refine shapeCast_apply (s := S4x4096x3) (t := S16384x3) _ _ _ _ ?_
  rw [Shape.rowMajor_val_three, Shape.rowMajor_val_two]
  show (bv.val / 4096 * 4096 + bv.val % 4096) * 3 + k.val = bv.val * 3 + k.val
  omega

/-- Row r of the direction table at channel c. -/
theorem dirRow_apply (a3 : FVec Ideal S4x256 .f32) (r : Fin 4) (h : S4x256.Slices ![r.val, 0] S1x256) (c : Fin 256) :
    dirRow a3 ![r.val, 0] h (ix1 c) = a3 (ix2 r c) := by
  refine (shapeCast_1a_a_apply _ _ c).trans ?_
  exact slice2_axis0_apply r.val a3 h (0 : Fin 1) c r rfl

/-- The base direction row. -/
theorem v38_apply (u : Fin 1) (c : Fin 256) :
    (StableHlo.after (hostOps0 (F := Ideal)) Vm (Proc.devRef .tc main_v38) : S1x256.Idx → EReal) (ix2 u c)
      = (a3 Vm) (ix2 (0 : Fin 4) c) := by
  rw [v38_term]
  refine (shapeCast_a_1a_apply _ _ u c).trans ?_
  exact dirRow_apply _ (0 : Fin 4) slices_S4x256_S1x256_0_0 c

/-- The weights of the 127 feature columns, transposed. -/
theorem v40_apply (k : Fin 127) (c : Fin 256) :
    (StableHlo.after (hostOps0 (F := Ideal)) Vm (Proc.devRef .tc main_v40) : S127x256.Idx → EReal) (ix2 k c)
      = (a4 Vm) (ix2 c k.castSucc) := by
  rw [v40_term]
  refine (slice2_axis0_apply 0 _ _ k c k.castSucc (by show k.val = 0 + k.val; omega)).trans ?_
  exact transpose_ix2_apply _ _ k.castSucc c

/-- The weights of the distance column. -/
theorem v41_apply (u : Fin 1) (c : Fin 256) :
    (StableHlo.after (hostOps0 (F := Ideal)) Vm (Proc.devRef .tc main_v41) : S1x256.Idx → EReal) (ix2 u c)
      = (a4 Vm) (ix2 c (Fin.last 127)) := by
  rw [v41_term]
  refine (slice2_axis0_apply 127 _ _ u c (Fin.last 127) (by show 127 = 127 + u.val; omega)).trans ?_
  exact transpose_ix2_apply _ _ (Fin.last 127) c

/-- The three per-channel vectors with a leading unit axis. -/
theorem v42_apply (u : Fin 1) (c : Fin 256) :
    (StableHlo.after (hostOps0 (F := Ideal)) Vm (Proc.devRef .tc main_v42) : S1x256.Idx → EReal) (ix2 u c)
      = (a5 Vm) (ix1 c) := by
  rw [v42_term]
  exact shapeCast_a_1a_apply _ _ u c

theorem v43_apply (u : Fin 1) (c : Fin 256) :
    (StableHlo.after (hostOps0 (F := Ideal)) Vm (Proc.devRef .tc main_v43) : S1x256.Idx → EReal) (ix2 u c)
      = (a6 Vm) (ix1 c) := by
  rw [v43_term]
  exact shapeCast_a_1a_apply _ _ u c

theorem v44_apply (u : Fin 1) (c : Fin 256) :
    (StableHlo.after (hostOps0 (F := Ideal)) Vm (Proc.devRef .tc main_v44) : S1x256.Idx → EReal) (ix2 u c)
      = (a7 Vm) (ix1 c) := by
  rw [v44_term]
  exact shapeCast_a_1a_apply _ _ u c

/-! ### The three direction rows relative to the base row -/

/-- Row r of the direction table less the base row, with a leading unit axis. -/
abbrev relRow (a3 : FVec Ideal S4x256 .f32) (off : Fin 2 → Nat) (h : S4x256.Slices off S1x256) : FVec Ideal S1x256 .f32 :=
  broadcastInDim S1x256 ![1] bcast_S256_S1x256_1
    (subf (F := Ideal) (dirRow a3 off h) (dirRow a3 ![0, 0] slices_S4x256_S1x256_0_0))

theorem v35_term : (StableHlo.after (hostOps0 (F := Ideal)) Vm (Proc.devRef .tc main_v35) : S3x256.Idx → EReal)
    = concatenate S3x256 0
        [⟨S1x256, relRow (a3 Vm) ![1, 0] slices_S4x256_S1x256_1_0⟩,
         ⟨S1x256, relRow (a3 Vm) ![2, 0] slices_S4x256_S1x256_2_0⟩,
         ⟨S1x256, relRow (a3 Vm) ![3, 0] slices_S4x256_S1x256_3_0⟩]
        concatenates_S1x256_S1x256_S1x256_S3x256_d0 := by
  simp (disch := decide) only [StableHlo.after_cons, StableHlo.after_nil,
    StableHlo.nullary_result', StableHlo.unary_result', StableHlo.binary_result', StableHlo.ternary_result',
    StableHlo.reshape_result', nary3_result',
    StableHlo.nullary_result_ne', StableHlo.unary_result_ne', StableHlo.binary_result_ne', StableHlo.ternary_result_ne',
    StableHlo.reshape_result_ne', StableHlo.nary_result_ne']
  rfl

/-- A relative row at channel c. -/
theorem relRow_apply (a3 : FVec Ideal S4x256 .f32) (r : Fin 4) (h : S4x256.Slices ![r.val, 0] S1x256) (u : Fin 1) (c : Fin 256) :
    relRow a3 ![r.val, 0] h (ix2 u c) = a3 (ix2 r c) - a3 (ix2 (0 : Fin 4) c) := by
  refine (broadcastInDim_apply ![1] bcast_S256_S1x256_1 _ (ix2 u c) (ix1 c) fun a => match a with | ⟨0, _⟩ => rfl).trans ?_
  show dirRow a3 ![r.val, 0] h (ix1 c) - dirRow a3 ![0, 0] slices_S4x256_S1x256_0_0 (ix1 c) = _
  have e0 : dirRow a3 ![0, 0] slices_S4x256_S1x256_0_0 (ix1 c) = a3 (ix2 (0 : Fin 4) c) :=
    dirRow_apply a3 (0 : Fin 4) slices_S4x256_S1x256_0_0 c
  rw [dirRow_apply a3 r h c, e0]

/-- The three support rows relative to the base row. -/
theorem v35_apply (j : Fin 3) (c : Fin 256) :
    (StableHlo.after (hostOps0 (F := Ideal)) Vm (Proc.devRef .tc main_v35) : S3x256.Idx → EReal) (ix2 j c)
      = (a3 Vm) (ix2 j.succ c)
        - (a3 Vm) (ix2 (0 : Fin 4) c) := by
  rw [v35_term]
  match j with
  | ⟨0, _⟩ =>
    refine (concatenate_apply_piece (0 : Fin 2) _ _ (ix2 (⟨0, by omega⟩ : Fin 3) c) 0 (by show 0 < 3; omega) S1x256 _ rfl rfl 0 rfl
      (ix2 (0 : Fin 1) c) (fun b hb => match b with | ⟨0, _⟩ => absurd rfl hb | ⟨1, _⟩ => rfl) rfl).trans ?_
    exact relRow_apply _ (1 : Fin 4) slices_S4x256_S1x256_1_0 (0 : Fin 1) c
  | ⟨1, _⟩ =>
    refine (concatenate_apply_piece (0 : Fin 2) _ _ (ix2 (⟨1, by omega⟩ : Fin 3) c) 1 (by show 1 < 3; omega) S1x256 _ rfl rfl 1 rfl
      (ix2 (0 : Fin 1) c) (fun b hb => match b with | ⟨0, _⟩ => absurd rfl hb | ⟨1, _⟩ => rfl) rfl).trans ?_
    exact relRow_apply _ (2 : Fin 4) slices_S4x256_S1x256_2_0 (0 : Fin 1) c
  | ⟨2, _⟩ =>
    refine (concatenate_apply_piece (0 : Fin 2) _ _ (ix2 (⟨2, by omega⟩ : Fin 3) c) 2 (by show 2 < 3; omega) S1x256 _ rfl rfl 2 rfl
      (ix2 (0 : Fin 1) c) (fun b hb => match b with | ⟨0, _⟩ => absurd rfl hb | ⟨1, _⟩ => rfl) rfl).trans ?_
    exact relRow_apply _ (3 : Fin 4) slices_S4x256_S1x256_3_0 (0 : Fin 1) c

end Before

/-! ### Between the two calls: the mean and the variance -/

section Between

variable (Vm : Valuation τ sig (Elt Ideal))

/-- The count, broadcast over the channels. -/
abbrev countRow : FVec Ideal S1x256 .f32 :=
  broadcastInDim S1x256 ![] bcast_S_S1x256 (constant (F := Ideal) S_ .f32 0x49000000#32)

theorem countRow_apply (j : S1x256.Idx) : countRow j = Cert.NeighborPool.count :=
  broadcastInDim_scalar_apply _ _ j

theorem v47_term : (StableHlo.after (hostOps1 (F := Ideal)) Vm (Proc.devRef .tc main_v47) : S1x256.Idx → EReal)
    = Host.divf (F := Ideal) (sum0 Vm) countRow := by
  after_results

theorem v51_term : (StableHlo.after (hostOps1 (F := Ideal)) Vm (Proc.devRef .tc main_v51) : S1x256.Idx → EReal)
    = subf (F := Ideal) (Host.divf (F := Ideal) (sum1 Vm) countRow)
        (mulf (F := Ideal) (Host.divf (F := Ideal) (sum0 Vm) countRow)
          (Host.divf (F := Ideal) (sum0 Vm) countRow)) := by
  after_results

/-- The mean: the first channel sum over the count. -/
theorem v47_apply (j : S1x256.Idx) :
    (StableHlo.after (hostOps1 (F := Ideal)) Vm (Proc.devRef .tc main_v47) : S1x256.Idx → EReal) j
      = Ideal.div ((sum0 Vm) j) Cert.NeighborPool.count := by
  rw [v47_term]
  show Ideal.div _ (countRow j) = _
  rw [countRow_apply]

/-- The variance: the second channel sum over the count, less the squared mean. -/
theorem v51_apply (j : S1x256.Idx) :
    (StableHlo.after (hostOps1 (F := Ideal)) Vm (Proc.devRef .tc main_v51) : S1x256.Idx → EReal) j
      = Ideal.div ((sum1 Vm) j) Cert.NeighborPool.count
        - Ideal.div ((sum0 Vm) j) Cert.NeighborPool.count
          * Ideal.div ((sum0 Vm) j) Cert.NeighborPool.count := by
  rw [v51_term]
  show Ideal.div _ (countRow j) - Ideal.div _ (countRow j) * Ideal.div _ (countRow j) = _
  rw [countRow_apply]

/-- The operations between the calls write none of the first stretch's results. -/
theorem hostOps1_keeps {r : Ref sig .tc}
    (h : r ≠ main_cst ∧ r ≠ main_v46 ∧ r ≠ main_v47 ∧ r ≠ main_cst_3 ∧ r ≠ main_v48 ∧ r ≠ main_v49 ∧ r ≠ main_v50 ∧ r ≠ main_v51) :
    StableHlo.after (hostOps1 (F := Ideal)) Vm (Proc.devRef .tc r) = Vm (Proc.devRef .tc r) := by
  obtain ⟨h1, h2, h3, h4, h5, h6, h7, h8⟩ := h
  refine StableHlo.after_of_forall_not_mem _ _ (List.forall_iff_forall_mem.mp ?_)
  simp only [hostOps1, List.Forall, StableHlo.nullary_writes, StableHlo.unary_writes, StableHlo.binary_writes,
    Finset.mem_singleton]
  exact ⟨StableHlo.devRef_ne_of_ne h1, StableHlo.devRef_ne_of_ne h2, StableHlo.devRef_ne_of_ne h3,
    StableHlo.devRef_ne_of_ne h4, StableHlo.devRef_ne_of_ne h5, StableHlo.devRef_ne_of_ne h6,
    StableHlo.devRef_ne_of_ne h7, StableHlo.devRef_ne_of_ne h8⟩

theorem hostOps1_v14 : StableHlo.after (hostOps1 (F := Ideal)) Vm (Proc.devRef .tc main_v14) = Vm (Proc.devRef .tc main_v14) :=
  hostOps1_keeps Vm (by decide)
theorem hostOps1_v15 : StableHlo.after (hostOps1 (F := Ideal)) Vm (Proc.devRef .tc main_v15) = Vm (Proc.devRef .tc main_v15) :=
  hostOps1_keeps Vm (by decide)
theorem hostOps1_v16 : StableHlo.after (hostOps1 (F := Ideal)) Vm (Proc.devRef .tc main_v16) = Vm (Proc.devRef .tc main_v16) :=
  hostOps1_keeps Vm (by decide)
theorem hostOps1_v35 : StableHlo.after (hostOps1 (F := Ideal)) Vm (Proc.devRef .tc main_v35) = Vm (Proc.devRef .tc main_v35) :=
  hostOps1_keeps Vm (by decide)
theorem hostOps1_v38 : StableHlo.after (hostOps1 (F := Ideal)) Vm (Proc.devRef .tc main_v38) = Vm (Proc.devRef .tc main_v38) :=
  hostOps1_keeps Vm (by decide)
theorem hostOps1_v40 : StableHlo.after (hostOps1 (F := Ideal)) Vm (Proc.devRef .tc main_v40) = Vm (Proc.devRef .tc main_v40) :=
  hostOps1_keeps Vm (by decide)
theorem hostOps1_v41 : StableHlo.after (hostOps1 (F := Ideal)) Vm (Proc.devRef .tc main_v41) = Vm (Proc.devRef .tc main_v41) :=
  hostOps1_keeps Vm (by decide)
theorem hostOps1_v42 : StableHlo.after (hostOps1 (F := Ideal)) Vm (Proc.devRef .tc main_v42) = Vm (Proc.devRef .tc main_v42) :=
  hostOps1_keeps Vm (by decide)
theorem hostOps1_v43 : StableHlo.after (hostOps1 (F := Ideal)) Vm (Proc.devRef .tc main_v43) = Vm (Proc.devRef .tc main_v43) :=
  hostOps1_keeps Vm (by decide)
theorem hostOps1_v44 : StableHlo.after (hostOps1 (F := Ideal)) Vm (Proc.devRef .tc main_v44) = Vm (Proc.devRef .tc main_v44) :=
  hostOps1_keeps Vm (by decide)

end Between

/-! ### After the second call: the row index unflattened -/

section After

variable (Vm : Valuation τ sig (Elt Ideal))

theorem v53_term : (StableHlo.after (hostOps2 (F := Ideal)) Vm (Proc.devRef .tc main_v53) : S4x4096x256.Idx → EReal)
    = shapeCast S4x4096x256 (out52 Vm) shapeCasts_S16384x256_S4x4096x256 := by
  after_results
  rfl

/-- The result at (b, v, c) is the second call's at row b * 4096 + v. -/
theorem v53_apply (b : Fin 4) (v : Fin 4096) (c : Fin 256) :
    (StableHlo.after (hostOps2 (F := Ideal)) Vm (Proc.devRef .tc main_v53) : S4x4096x256.Idx → EReal) (ix3 b v c)
      = (out52 Vm) (ix2 (rowOf b v) c) := by
  rw [v53_term]
  refine shapeCast_apply (s := S16384x256) (t := S4x4096x256) _ _ _ _ ?_
  rw [Shape.rowMajor_val_three, Shape.rowMajor_val_two]
  rfl

end After

end Cert.KernelIdeal.HostReads

end
-- ==== Proof.MainRuns.lean ====
/-
  The pooling kernel (region 1 of the program) on whole staging buffers at one grid point.

  The body reads a block of 64 vertices — their gathered features, their neighbours' coordinates, their own
  coordinates — and nine resident tables (the support directions, the base direction, the weights, the bias, the
  scale and shift, the mean and the variance), and stores the 64 x 256 block of pooled activations. It has one
  control case; it is run once, symbolically, and the store it leaves in the output buffer is recorded.
-/
import proofs.«116505_j37873021616799_1_alg».proof.Proof.Gen.KernelIdeal.Launch
import proofs.«116505_j37873021616799_1_alg».proof.Proof.Gen.KernelIdeal.Skeleton
import proofs.«116505_j37873021616799_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether or not it was fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether or not it was fetched there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether or not it was fetched there. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether or not it was fetched there. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether or not it was fetched there. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, whether or not it was fetched there. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, whether or not it was fetched there. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's staging buffer holds its block at every point, whether or not it was fetched there. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's staging buffer holds its block at every point, whether or not it was fetched there. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's staging buffer holds its block at every point, whether or not it was fetched there. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's staging buffer holds its block at every point, whether or not it was fetched there. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- Input window 11's staging buffer holds its block at every point, whether or not it was fetched there. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

end

/-- One staging buffer of the output window, through which its contents are stated. -/
abbrev VO1_12 : View sig .tc .vmem S64x256 .f32 := (Memref.whole cc1_stg12_0 : Memref sig .tc .vmem S64x256 .f32).view
abbrev ms1_0 (t : Fin cfg1.N) : Memref sig .tc .vmem S64x32x127 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x32x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x3 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S3x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S127x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x256 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x256 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x256 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x256 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S64x256 .f32 := win1_12.stage (cfg1.slots t 12)
abbrev hs1_12 (t : Fin cfg1.N) : (ms1_12 t).IsWhole := hstage1_12 ((cfg1.slots t 12).cast nbuf1_12)

set_option maxHeartbeats 4000000 in
/-- The body at any grid point: the output buffer may hold anything on entry and ends with the recorded store. -/
noncomputable def kernelRun1 (c : Dev nD) (i : grid1.Coords) (arg1 : Memref sig .tc .vmem S64x32x127 .f32) (harg1 : arg1.IsWhole) (arg2 : Memref sig .tc .vmem S64x32x3 .f32) (harg2 : arg2.IsWhole) (arg3 : Memref sig .tc .vmem S64x3 .f32) (harg3 : arg3.IsWhole) (arg4 : Memref sig .tc .vmem S3x256 .f32) (harg4 : arg4.IsWhole) (arg5 : Memref sig .tc .vmem S1x256 .f32) (harg5 : arg5.IsWhole) (arg6 : Memref sig .tc .vmem S127x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S64x256 .f32) (harg13 : arg13.IsWhole)
    (x0 : Vec F S64x32x127 .f32) (x1 : Vec F S64x32x3 .f32) (x2 : Vec F S64x3 .f32) (x3 : Vec F S3x256 .f32) (x4 : Vec F S1x256 .f32) (x5 : Vec F S127x256 .f32) (x6 : Vec F S1x256 .f32) (x7 : Vec F S1x256 .f32) (x8 : Vec F S1x256 .f32) (x9 : Vec F S1x256 .f32) (x10 : Vec F S1x256 .f32) (x11 : Vec F S1x256 .f32) :
    { L12 : List (View.Piece (Elt F) S64x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12)) -∗ K ⟨⟩))
          ⊢ wp frame (wpE (defs₀ (F := F)) Variants.none c none) E (cc1_main_kernel i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc1_main_kernel_eq_skeleton]; unfold cc1_main_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    iexists _; iexact H12

end Cert.KernelIdeal.Frame

end
-- ==== Proof.MainBody.lean ====
/-
  The pooling kernel over its 256 grid points: what the output buffer holds after each point (that point's run on
  its input blocks), the proof data of the pipeline, and the body obligation at a generic point.
-/
import proofs.«116505_j37873021616799_1_alg».proof.Proof.MainRuns

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's store covers the output buffer. -/
theorem cover1_12 (c : Dev nD) (i : grid1.Coords) (arg1 : Memref sig .tc .vmem S64x32x127 .f32) (harg1 : arg1.IsWhole) (arg2 : Memref sig .tc .vmem S64x32x3 .f32) (harg2 : arg2.IsWhole) (arg3 : Memref sig .tc .vmem S64x3 .f32) (harg3 : arg3.IsWhole) (arg4 : Memref sig .tc .vmem S3x256 .f32) (harg4 : arg4.IsWhole) (arg5 : Memref sig .tc .vmem S1x256 .f32) (harg5 : arg5.IsWhole) (arg6 : Memref sig .tc .vmem S127x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S64x256 .f32) (harg13 : arg13.IsWhole) (x0 : Vec F S64x32x127 .f32) (x1 : Vec F S64x32x3 .f32) (x2 : Vec F S64x3 .f32) (x3 : Vec F S3x256 .f32) (x4 : Vec F S1x256 .f32) (x5 : Vec F S127x256 .f32) (x6 : Vec F S1x256 .f32) (x7 : Vec F S1x256 .f32) (x8 : Vec F S1x256 .f32) (x9 : Vec F S1x256 .f32) (x10 : Vec F S1x256 .f32) (x11 : Vec F S1x256 .f32) (y : S64x256.Idx) :
    ∃ pc ∈ (kernelRun1 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).1, y ∈ pc.1.set :=
  View.cover_of_tiledL (kernelRun1 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).1 S64x256.size (by sl_kernel_rfl) y
/-- What the body leaves in the output buffer. -/
def out1_12 (c : Dev nD) (i : grid1.Coords) (arg1 : Memref sig .tc .vmem S64x32x127 .f32) (harg1 : arg1.IsWhole) (arg2 : Memref sig .tc .vmem S64x32x3 .f32) (harg2 : arg2.IsWhole) (arg3 : Memref sig .tc .vmem S64x3 .f32) (harg3 : arg3.IsWhole) (arg4 : Memref sig .tc .vmem S3x256 .f32) (harg4 : arg4.IsWhole) (arg5 : Memref sig .tc .vmem S1x256 .f32) (harg5 : arg5.IsWhole) (arg6 : Memref sig .tc .vmem S127x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S64x256 .f32) (harg13 : arg13.IsWhole) (x0 : Vec F S64x32x127 .f32) (x1 : Vec F S64x32x3 .f32) (x2 : Vec F S64x3 .f32) (x3 : Vec F S3x256 .f32) (x4 : Vec F S1x256 .f32) (x5 : Vec F S127x256 .f32) (x6 : Vec F S1x256 .f32) (x7 : Vec F S1x256 .f32) (x8 : Vec F S1x256 .f32) (x9 : Vec F S1x256 .f32) (x10 : Vec F S1x256 .f32) (x11 : Vec F S1x256 .f32) : Vec F S64x256 .f32 :=
  VO1_12.read (Elt F) (VO1_12.writes (Elt F) VO1_12.junk (kernelRun1 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).1)

section
variable (V : (c : Dev nD) → (b : Ref sig .tc) → Buf (Elt F) ((c : Thread nD τ).loc b))

/-- The output buffer after the body at point `t`. -/
def outAt1 (c : Dev nD) (t : Fin cfg1.N) : Vec F S64x256 .f32 :=
  out1_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)

/-- The proof data of the pooling pipeline on core `c`: the arrays as the region finds them; after the body at point
    `t` each input's buffer at its block and the output's at `outAt1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t))

set_option maxHeartbeats 1600000 in
/-- The body at any point: the inputs' buffers hold their blocks, so the run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  unfold outAt1 out1_12
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun1 c (grid1.coords t) _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, ⟨%e12, H12⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  unfold owns; iexists _; isplitr
  swap; · iexact H12
  ipureintro; exact View.read_writes_of_cover _ _ _ _ _ (cover1_12 c _ _ _ _ _ _ _ _ _ _ _ _ _ _ _ _ _ _ _ _ _ _ _ _ _ _ _ _ _ _ _ _ _ _ _ _ _ _ _)

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Frame

end
-- ==== Proof.Run.lean ====
/-
  The whole program as five segments — host operations, the statistics region, host operations, the pooling region,
  one last host operation — run from the launch to the return, with the contents of every buffer named at each
  boundary: a host stretch applies its operations; a region leaves each of its arrays at what its write-backs made of
  it and every other buffer alone. The run ends with every unscoped buffer at the last boundary's contents, from
  which both the unchanged arguments and the result are read.
-/
import proofs.«116505_j37873021616799_1_alg».proof.Proof.StatsBody
import proofs.«116505_j37873021616799_1_alg».proof.Proof.MainBody

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch: what the statistics region is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the statistics region: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what the pooling region is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the pooling region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host operation: the program's end. -/
abbrev W5 : Dev nD → Valuation τ sig (Elt F) := fun c => StableHlo.after hostOps2 (W4 m ρ c)

/-! The arguments end as launched: no host operation writes one and neither region has one among its arrays. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg7) := rfl

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the pipeline's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the pipeline's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => (show iprop(StableHlo.held (c : Thread nD τ) (Pipeline.ucRefs τ sig) (W5 m ρ c) ∗ R c)
        ⊢ iprop(Tₙ m ρ c ∗ ∃ W, owes (c : Thread nD τ) (0 : CellTallies nD τ sig Unit) W) from by
      iintro ⟨Hh, Hp, HO⟩
      isplitr [HO]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun r h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c)⟩) (run_all m ρ)

end Cert.KernelIdeal.Frame

end
-- ==== Proof.Boundary.lean ====
/-
  Which buffers the statistics region and the host stretch after it leave as they found them: the region's four
  input arrays (the flattened features, the two weight tables, the bias) and the six buffers it never touches reach the
  pooling region as the first host stretch wrote them; the region's two outputs hold its accumulated sums, and the
  pooling region's output holds its blocks.
-/
import proofs.«116505_j37873021616799_1_alg».proof.Proof.Run

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem V3_main_v15 (c : Dev nD) : V3 m ρ c main_v15 = V1 m ρ c main_v15 :=
  calc W3 m ρ c (Proc.devRef .tc main_v15)
    _ = W2 m ρ c (Proc.devRef .tc main_v15) := StableHlo.after_of_forall_not_mem (b := Proc.devRef .tc main_v15) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_v15) := (W2_arr m ρ c 0).trans (((dat0 (V1 m ρ) c).arrAt_in 0 rfl _).trans (A_eq0 (V1 m ρ) c 0))

theorem V3_main_v40 (c : Dev nD) : V3 m ρ c main_v40 = V1 m ρ c main_v40 :=
  calc W3 m ρ c (Proc.devRef .tc main_v40)
    _ = W2 m ρ c (Proc.devRef .tc main_v40) := StableHlo.after_of_forall_not_mem (b := Proc.devRef .tc main_v40) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_v40) := (W2_arr m ρ c 1).trans (((dat0 (V1 m ρ) c).arrAt_in 1 rfl _).trans (A_eq0 (V1 m ρ) c 1))

theorem V3_main_v41 (c : Dev nD) : V3 m ρ c main_v41 = V1 m ρ c main_v41 :=
  calc W3 m ρ c (Proc.devRef .tc main_v41)
    _ = W2 m ρ c (Proc.devRef .tc main_v41) := StableHlo.after_of_forall_not_mem (b := Proc.devRef .tc main_v41) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_v41) := (W2_arr m ρ c 2).trans (((dat0 (V1 m ρ) c).arrAt_in 2 rfl _).trans (A_eq0 (V1 m ρ) c 2))

theorem V3_main_v42 (c : Dev nD) : V3 m ρ c main_v42 = V1 m ρ c main_v42 :=
  calc W3 m ρ c (Proc.devRef .tc main_v42)
    _ = W2 m ρ c (Proc.devRef .tc main_v42) := StableHlo.after_of_forall_not_mem (b := Proc.devRef .tc main_v42) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_v42) := (W2_arr m ρ c 3).trans (((dat0 (V1 m ρ) c).arrAt_in 3 rfl _).trans (A_eq0 (V1 m ρ) c 3))

theorem V3_main_v14 (c : Dev nD) : V3 m ρ c main_v14 = V1 m ρ c main_v14 :=
  calc W3 m ρ c (Proc.devRef .tc main_v14)
    _ = W2 m ρ c (Proc.devRef .tc main_v14) := StableHlo.after_of_forall_not_mem (b := Proc.devRef .tc main_v14) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_v14) := W2_of_ne m ρ c main_v14 (by decide)

theorem V3_main_v16 (c : Dev nD) : V3 m ρ c main_v16 = V1 m ρ c main_v16 :=
  calc W3 m ρ c (Proc.devRef .tc main_v16)
    _ = W2 m ρ c (Proc.devRef .tc main_v16) := StableHlo.after_of_forall_not_mem (b := Proc.devRef .tc main_v16) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_v16) := W2_of_ne m ρ c main_v16 (by decide)

theorem V3_main_v35 (c : Dev nD) : V3 m ρ c main_v35 = V1 m ρ c main_v35 :=
  calc W3 m ρ c (Proc.devRef .tc main_v35)
    _ = W2 m ρ c (Proc.devRef .tc main_v35) := StableHlo.after_of_forall_not_mem (b := Proc.devRef .tc main_v35) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_v35) := W2_of_ne m ρ c main_v35 (by decide)

theorem V3_main_v38 (c : Dev nD) : V3 m ρ c main_v38 = V1 m ρ c main_v38 :=
  calc W3 m ρ c (Proc.devRef .tc main_v38)
    _ = W2 m ρ c (Proc.devRef .tc main_v38) := StableHlo.after_of_forall_not_mem (b := Proc.devRef .tc main_v38) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_v38) := W2_of_ne m ρ c main_v38 (by decide)

theorem V3_main_v43 (c : Dev nD) : V3 m ρ c main_v43 = V1 m ρ c main_v43 :=
  calc W3 m ρ c (Proc.devRef .tc main_v43)
    _ = W2 m ρ c (Proc.devRef .tc main_v43) := StableHlo.after_of_forall_not_mem (b := Proc.devRef .tc main_v43) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_v43) := W2_of_ne m ρ c main_v43 (by decide)

theorem V3_main_v44 (c : Dev nD) : V3 m ρ c main_v44 = V1 m ρ c main_v44 :=
  calc W3 m ρ c (Proc.devRef .tc main_v44)
    _ = W2 m ρ c (Proc.devRef .tc main_v44) := StableHlo.after_of_forall_not_mem (b := Proc.devRef .tc main_v44) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_v44) := W2_of_ne m ρ c main_v44 (by decide)

/-- The statistics region's two outputs after it: the accumulators' arrays. -/
theorem W2_main_v45_0 (c : Dev nD) : W2 m ρ c (Proc.devRef .tc main_v45_0) = (dat0 (V1 m ρ) c).arrAt 4 cfg0.N := W2_arr m ρ c 4
theorem W2_main_v45_1 (c : Dev nD) : W2 m ρ c (Proc.devRef .tc main_v45_1) = (dat0 (V1 m ρ) c).arrAt 5 cfg0.N := W2_arr m ρ c 5
/-- The pooling region's output after it. -/
theorem W4_main_v52 (c : Dev nD) : W4 m ρ c (Proc.devRef .tc main_v52) = (dat1 (V3 m ρ) c).arrAt 12 cfg1.N := W4_arr m ρ c 12

end Cert.KernelIdeal.Frame

end
-- ==== Proof.KernelStats.lean ====
/-
  What the pooling region finds in its mean and variance tables: the statistics region's two sums, divided by the
  number of (batch entry, vertex, neighbour slot) triples by the host — the mean of the scores and their one-pass
  variance, channel by channel. The layer's inputs are named here as functions of coordinates of the program's
  argument arrays, the two gathers kept as the arrays they produce.
-/
import proofs.«116505_j37873021616799_1_alg».proof.Proof.StatsTotal
import proofs.«116505_j37873021616799_1_alg».proof.Proof.HostReads
import proofs.«116505_j37873021616799_1_alg».proof.Proof.Boundary

set_option maxRecDepth 16384

noncomputable section

namespace Cert.KernelIdeal.KernelValue

open Idealize.ShloMosaic Idealize.ShloMosaic.TcCoe Idealize.SL.Sem Idealize.ShloMosaic.ValueIdx
open Cert.KernelIdeal Cert.KernelIdeal.Gen Cert.KernelIdeal.Frame Cert.KernelIdeal.HostReads Cert.KernelIdeal.StatsSpec Cert.NeighborPool

variable (m : (ℓ : Loc nD τ sig) → Buf (Elt Ideal) ℓ) (ρ : Dev nD → PrngReg) (c : Dev nD)

/-- The launch contents of core c's buffers. -/
abbrev Vm : Valuation τ sig (Elt Ideal) := W0 m ρ c

/-- The gathered neighbour features and coordinates, the vertex coordinates, the direction rows, the weights, the bias,
    the scale and the shift, as functions of coordinates. -/
def fsK (b : Fin 4) (v : Fin 4096) (n : Fin 32) (k : Fin 127) : EReal :=
  Host.gather gather_S4x4096x127_S4x4096x32x1_S4x4096x32x127_3_1_0_0_1_3_11127 (a2 (Vm m ρ c)) (fsWords (a0 (Vm m ρ c))) (ix4 b v n k)
def nbK (b : Fin 4) (v : Fin 4096) (n : Fin 32) (k : Fin 3) : EReal :=
  Host.gather gather_S4x4096x3_S4x4096x32x1_S4x4096x32x3_3_1_0_0_1_3_113 (a1 (Vm m ρ c)) (nbWords (a0 (Vm m ρ c))) (ix4 b v n k)
def vxK (b : Fin 4) (v : Fin 4096) (k : Fin 3) : EReal := a1 (Vm m ρ c) (ix3 b v k)
def drK (j : Fin 4) (cc : Fin 256) : EReal := a3 (Vm m ρ c) (ix2 j cc)
def WK (cc : Fin 256) (i : Fin 128) : EReal := a4 (Vm m ρ c) (ix2 cc i)
def biasK (cc : Fin 256) : EReal := a5 (Vm m ρ c) (ix1 cc)
def gamK (cc : Fin 256) : EReal := a6 (Vm m ρ c) (ix1 cc)
def betK (cc : Fin 256) : EReal := a7 (Vm m ρ c) (ix1 cc)

/-- The layer's scores, from the kernel's inputs. -/
abbrev zK : Fin 4 → Fin 4096 → Fin 32 → Fin 256 → EReal := zSplit (fsK m ρ c) (WK m ρ c) (biasK m ρ c)

/-! What the first host stretch leaves in the statistics region's four input arrays. -/

theorem h15 (bv : Fin 16384) (n : Fin 32) (k : Fin 127) :
    V1 m ρ c main_v15 (ix3 bv n k) = fsK m ρ c ⟨bv.val / 4096, by have := bv.isLt; omega⟩ ⟨bv.val % 4096, Nat.mod_lt _ (by norm_num)⟩ n k :=
  v15_apply (Vm m ρ c) bv n k
theorem h40 (k : Fin 127) (cc : Fin 256) : V1 m ρ c main_v40 (ix2 k cc) = WK m ρ c cc k.castSucc := v40_apply (Vm m ρ c) k cc
theorem h41 (cc : Fin 256) : V1 m ρ c main_v41 (ix2 (0 : Fin 1) cc) = WK m ρ c cc (Fin.last 127) := v41_apply (Vm m ρ c) 0 cc
theorem h42 (cc : Fin 256) : V1 m ρ c main_v42 (ix2 (0 : Fin 1) cc) = biasK m ρ c cc := v42_apply (Vm m ρ c) 0 cc

/-- The statistics region's two output arrays after it: the accumulated sums. -/
theorem sum0_eq : sum0 (W2 m ρ c) = StatsValue.rowSum (V1 m ρ) c := (W2_main_v45_0 m ρ c).trans (StatsValue.arr4_eq (V1 m ρ) c)
theorem sum1_eq : sum1 (W2 m ρ c) = StatsValue.rowSq (V1 m ρ) c := (W2_main_v45_1 m ρ c).trans (StatsValue.arr5_eq (V1 m ρ) c)

/-- The mean table the pooling region finds. -/
theorem mean_eq (u : Fin 1) (cc : Fin 256) : V3 m ρ c main_v47 (ix2 u cc) = mean (zK m ρ c) cc := by
  refine (v47_apply (W2 m ρ c) (ix2 u cc)).trans ?_
  rw [sum0_eq, rowSum_total (V1 m ρ) c (fsK m ρ c) (WK m ρ c) (biasK m ρ c) u cc (h15 m ρ c) (h40 m ρ c) (h41 m ρ c) (h42 m ρ c)]
  rfl

/-- The variance table the pooling region finds. -/
theorem var_eq (u : Fin 1) (cc : Fin 256) : V3 m ρ c main_v51 (ix2 u cc) = varOnePass (zK m ρ c) cc := by
  refine (v51_apply (W2 m ρ c) (ix2 u cc)).trans ?_
  rw [sum0_eq, sum1_eq, rowSum_total (V1 m ρ) c (fsK m ρ c) (WK m ρ c) (biasK m ρ c) u cc (h15 m ρ c) (h40 m ρ c) (h41 m ρ c) (h42 m ρ c),
    rowSq_total (V1 m ρ) c (fsK m ρ c) (WK m ρ c) (biasK m ρ c) u cc (h15 m ρ c) (h40 m ρ c) (h41 m ρ c) (h42 m ρ c)]
  rfl

end Cert.KernelIdeal.KernelValue

end
-- ==== Proof.MainPieces.lean ====
/-
  What the pooling kernel's run leaves in the output buffer, as a value: the body's one payload of the loaded blocks,
  the three support rows being rows 0, 1, 2 of the [3,256] table block.
-/
import proofs.«116505_j37873021616799_1_alg».proof.Proof.MainBody
import Idealize.ShloMosaic.Lib.Pipeline.Value
import Idealize.ShloMosaic.Lib.ValueIdx

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2' : (![0, 0] : Fin 2 → Nat) = fun _ => 0 := by funext a; fin_cases a <;> rfl
theorem hz3' : (![0, 0, 0] : Fin 3 → Nat) = fun _ => 0 := by funext a; fin_cases a <;> rfl

/-- Row 0, 1, 2 of the support table block, as the body loads them. -/
abbrev supRow0 (x3 : Vec F S3x256 .f32) : Vec F S1x256 .f32 := View.ld x3 (Rect.unit (s := S3x256) ![0, 0] S1x256.size inb_S3x256_S1x256_0_0)
abbrev supRow1 (x3 : Vec F S3x256 .f32) : Vec F S1x256 .f32 := View.ld x3 (Rect.unit (s := S3x256) ![1, 0] S1x256.size inb_S3x256_S1x256_1_0)
abbrev supRow2 (x3 : Vec F S3x256 .f32) : Vec F S1x256 .f32 := View.ld x3 (Rect.unit (s := S3x256) ![2, 0] S1x256.size inb_S3x256_S1x256_2_0)

theorem out1_12_eq (c : Dev nD) (i : grid1.Coords) (arg1 : Memref sig .tc .vmem S64x32x127 .f32) (harg1 : arg1.IsWhole) (arg2 : Memref sig .tc .vmem S64x32x3 .f32) (harg2 : arg2.IsWhole) (arg3 : Memref sig .tc .vmem S64x3 .f32) (harg3 : arg3.IsWhole) (arg4 : Memref sig .tc .vmem S3x256 .f32) (harg4 : arg4.IsWhole) (arg5 : Memref sig .tc .vmem S1x256 .f32) (harg5 : arg5.IsWhole) (arg6 : Memref sig .tc .vmem S127x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S64x256 .f32) (harg13 : arg13.IsWhole) (x0 : Vec F S64x32x127 .f32) (x1 : Vec F S64x32x3 .f32) (x2 : Vec F S64x3 .f32) (x3 : Vec F S3x256 .f32) (x4 : Vec F S1x256 .f32) (x5 : Vec F S127x256 .f32) (x6 : Vec F S1x256 .f32) (x7 : Vec F S1x256 .f32) (x8 : Vec F S1x256 .f32) (x9 : Vec F S1x256 .f32) (x10 : Vec F S1x256 .f32) (x11 : Vec F S1x256 .f32) :
    out1_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 =
      k1_pay1 (k1_pay7 (k1_pay4 (supRow2 x3)) (k1_pay5 x1 x2 (supRow0 x3) (supRow1 x3)) (k1_pay6 x1 x2) x4) (k1_pay8 x11)
        (k1_pay9 (k1_pay2 x0) x5 x6 x7 x10) x8 x9 := by
  unfold out1_12
  rw [View.read_writes_eq_canon _ _ _ (cover1_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11)]
  unfold kernelRun1
  dsimp only
  sl_unfold_run_names
  rw [View.canon_unit_zero (S := S64x256) hz2']
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread,
    View.ld_unit_zero (S := S64x32x127) hz3', View.ld_unit_zero (S := S64x32x3) hz3', View.ld_unit_zero (S := S64x3) hz2', View.ld_unit_zero (S := S127x256) hz2', View.ld_unit_zero (S := S1x256) hz2']

open Idealize.ShloMosaic.ValueIdx in
theorem supRow0_apply (x3 : Vec F S3x256 .f32) (u : Fin 1) (c : Fin 256) : supRow0 x3 (ix2 u c) = x3 (ix2 (0 : Fin 3) c) := by
  show x3 _ = x3 _
  congr 1; funext a; apply Fin.ext
  match a with
  | ⟨0, _⟩ => have := u.isLt; simp [Rect.unit, ix2] <;> omega
  | ⟨1, _⟩ => simp [Rect.unit, ix2]

open Idealize.ShloMosaic.ValueIdx in
theorem supRow1_apply (x3 : Vec F S3x256 .f32) (u : Fin 1) (c : Fin 256) : supRow1 x3 (ix2 u c) = x3 (ix2 (1 : Fin 3) c) := by
  show x3 _ = x3 _
  congr 1; funext a; apply Fin.ext
  match a with
  | ⟨0, _⟩ => have := u.isLt; simp [Rect.unit, ix2] <;> omega
  | ⟨1, _⟩ => simp [Rect.unit, ix2]

open Idealize.ShloMosaic.ValueIdx in
theorem supRow2_apply (x3 : Vec F S3x256 .f32) (u : Fin 1) (c : Fin 256) : supRow2 x3 (ix2 u c) = x3 (ix2 (2 : Fin 3) c) := by
  show x3 _ = x3 _
  congr 1; funext a; apply Fin.ext
  match a with
  | ⟨0, _⟩ => have := u.isLt; simp [Rect.unit, ix2] <;> omega
  | ⟨1, _⟩ => simp [Rect.unit, ix2]

end Cert.KernelIdeal.Frame

end
-- ==== Proof.MainPayload.lean ====
/-
  The pooling pass, one element at a time.

  The pass walks the 16384 vertices in blocks of 64. For vertex p of a block, neighbour slot n and channel c it forms
    * the offset from the vertex to its neighbour, its Euclidean length clamped below by a tiny constant, and the
      unit direction moved from [-1, 1] to [0, 1]:   dw k = (dl k / max (|dl|, tiny) + 1) * 1/2,   k < 3;
    * the direction weight   th = max (dw 0 * s0 c + dw 1 * s1 c + dw 2 * s2 c + d0 c, 0);
    * the feature score      zz = sum_k f k * W k c + |f| * wd c + bias c  over the 127 gathered features;
  and stores, per vertex and channel, the maximum over the 32 neighbour slots, from minus infinity, of
      max ((zz - mean c) * rsqrt (var c + eps) * gamma c + beta c, 0) * th.
  Each intermediate value is read here at one index as such a formula on the extended reals: a re-layout reads one
  element of its operand, a change of float format is the identity, a product into a zero accumulator is the plain
  sum of products, and a reduction along one axis is the sum, or the fold of max, over that axis's coordinates.
-/
import proofs.«116505_j37873021616799_1_alg».proof.Proof.Gen.KernelIdeal.Skeleton
import proofs.«116505_j37873021616799_1_alg».proof.Proof.Spec
import Idealize.ShloMosaic.Lib.ValueIdx
import Idealize.ShloMosaic.Lib.ValueLayout
import Idealize.ShloMosaic.PureOps.Ideal.Laws

noncomputable section

namespace Cert.KernelIdeal.MainPayload

open Idealize.ShloMosaic Idealize.ShloMosaic.ValueIdx Cert.KernelIdeal Cert.NeighborPool

/-- A square root and a reciprocal square root are taken element by element; a float word read as a scalar is the
    extended real it encodes. -/
theorem sqrt_apply {s : Shape} {φ : FTy} (a : FVec Ideal s φ) (i : s.Idx) : sqrt a i = Ideal.sqrt (a i) := rfl
theorem rsqrt_apply {s : Shape} {φ : FTy} (a : FVec Ideal s φ) (i : s.Idx) : rsqrt a i = Ideal.rsqrt (a i) := rfl
theorem ofBits_eq (b : BitVec 32) : (Scalar.ofBits .f32 b : Ideal .f32) = Ideal.ofBits .f32 b := rfl

/-! ## The layout operations of the pass, each read at an index given by coordinates -/

/-- The vertex block [64, 3] viewed as [64, 1, 3]. -/
theorem cast_vtx {α : Type} (x : S64x3.Idx → α) (h : S64x3.ShapeCasts S64x1x3) (p : Fin 64) (u : Fin 1) (k : Fin 3) :
    shapeCast S64x1x3 x h (ix3 p u k) = x (ix2 p k) :=
  shapeCast_apply x h _ _ (by
    rw [Shape.rowMajor_val_two, Shape.rowMajor_val_three]
    show p.val * 3 + k.val = (p.val * 1 + u.val) * 3 + k.val
    omega)

/-- A [64, 32] array viewed as [64, 32, 1]. -/
theorem cast_keep {α : Type} (x : S64x32.Idx → α) (h : S64x32.ShapeCasts S64x32x1) (p : Fin 64) (n : Fin 32) (u : Fin 1) :
    shapeCast S64x32x1 x h (ix3 p n u) = x (ix2 p n) :=
  shapeCast_apply x h _ _ (by
    rw [Shape.rowMajor_val_two, Shape.rowMajor_val_three]
    show p.val * 32 + n.val = (p.val * 32 + n.val) * 1 + u.val
    omega)

/-- A [1, 256] row viewed as [1, 1, 256]. -/
theorem cast_chan {α : Type} (x : S1x256.Idx → α) (h : S1x256.ShapeCasts S1x1x256) (u v : Fin 1) (c : Fin 256) :
    shapeCast S1x1x256 x h (ix3 u v c) = x (ix2 v c) :=
  shapeCast_ab_1ab_apply x h u v c

/-- The features block [64, 32, 127] viewed as [2048, 127]: row p * 32 + n is neighbour n of vertex p. -/
theorem cast_rows {α : Type} (x : S64x32x127.Idx → α) (h : S64x32x127.ShapeCasts S2048x127) (p : Fin 64) (n : Fin 32) (k : Fin 127) :
    shapeCast S2048x127 x h (ix2 (⟨p.val * 32 + n.val, by omega⟩ : Fin 2048) k) = x (ix3 p n k) :=
  shapeCast_apply x h _ _ (by
    rw [Shape.rowMajor_val_three, Shape.rowMajor_val_two]
    rfl)

/-- A [2048, 256] array viewed as [64, 32, 256]: (p, n) is row p * 32 + n. -/
theorem cast_unrows {α : Type} (x : S2048x256.Idx → α) (h : S2048x256.ShapeCasts S64x32x256) (p : Fin 64) (n : Fin 32) (c : Fin 256) :
    shapeCast S64x32x256 x h (ix3 p n c) = x (ix2 (⟨p.val * 32 + n.val, by omega⟩ : Fin 2048) c) :=
  shapeCast_apply x h _ _ (by
    rw [Shape.rowMajor_val_three, Shape.rowMajor_val_two]
    rfl)

/-- The vertex row [64, 1, 3] repeated over the 32 neighbour slots. -/
theorem bcast_vtx {α : Type} (x : S64x1x3.Idx → α) (h : S64x1x3.Broadcasts S64x32x3) (p : Fin 64) (n : Fin 32) (c : Fin 3) :
    broadcastTo S64x32x3 x h (ix3 p n c) = x (ix3 p (0 : Fin 1) c) := by
  refine broadcastTo_apply x h (ix3 p n c) (ix3 p (0 : Fin 1) c) fun ax => ?_
  match ax with
  | ⟨0, _⟩ => show p.val = if (64 : Nat) = 1 then 0 else p.val; rw [if_neg (by decide)]
  | ⟨1, _⟩ => show 0 = if (1 : Nat) = 1 then 0 else n.val; rw [if_pos rfl]
  | ⟨2, _⟩ => show c.val = if (3 : Nat) = 1 then 0 else c.val; rw [if_neg (by decide)]

/-- A [64, 32, 1] column repeated over the 3 coordinates. -/
theorem bcast_len3 {α : Type} (x : S64x32x1.Idx → α) (h : S64x32x1.Broadcasts S64x32x3) (p : Fin 64) (n : Fin 32) (c : Fin 3) :
    broadcastTo S64x32x3 x h (ix3 p n c) = x (ix3 p n (0 : Fin 1)) := by
  refine broadcastTo_apply x h (ix3 p n c) (ix3 p n (0 : Fin 1)) fun ax => ?_
  match ax with
  | ⟨0, _⟩ => show p.val = if (64 : Nat) = 1 then 0 else p.val; rw [if_neg (by decide)]
  | ⟨1, _⟩ => show n.val = if (32 : Nat) = 1 then 0 else n.val; rw [if_neg (by decide)]
  | ⟨2, _⟩ => show 0 = if (1 : Nat) = 1 then 0 else c.val; rw [if_pos rfl]

/-- A [64, 32, 1] column repeated over the 256 channels. -/
theorem bcast_len256 {α : Type} (x : S64x32x1.Idx → α) (h : S64x32x1.Broadcasts S64x32x256) (p : Fin 64) (n : Fin 32) (c : Fin 256) :
    broadcastTo S64x32x256 x h (ix3 p n c) = x (ix3 p n (0 : Fin 1)) := by
  refine broadcastTo_apply x h (ix3 p n c) (ix3 p n (0 : Fin 1)) fun ax => ?_
  match ax with
  | ⟨0, _⟩ => show p.val = if (64 : Nat) = 1 then 0 else p.val; rw [if_neg (by decide)]
  | ⟨1, _⟩ => show n.val = if (32 : Nat) = 1 then 0 else n.val; rw [if_neg (by decide)]
  | ⟨2, _⟩ => show 0 = if (1 : Nat) = 1 then 0 else c.val; rw [if_pos rfl]

/-- A [1, 1, 256] channel row repeated over the 64 vertices and 32 neighbour slots. -/
theorem bcast_chan {α : Type} (x : S1x1x256.Idx → α) (h : S1x1x256.Broadcasts S64x32x256) (p : Fin 64) (n : Fin 32) (c : Fin 256) :
    broadcastTo S64x32x256 x h (ix3 p n c) = x (ix3 (0 : Fin 1) (0 : Fin 1) c) := by
  refine broadcastTo_apply x h (ix3 p n c) (ix3 (0 : Fin 1) (0 : Fin 1) c) fun ax => ?_
  match ax with
  | ⟨0, _⟩ => show 0 = if (1 : Nat) = 1 then 0 else p.val; rw [if_pos rfl]
  | ⟨1, _⟩ => show 0 = if (1 : Nat) = 1 then 0 else n.val; rw [if_pos rfl]
  | ⟨2, _⟩ => show c.val = if (256 : Nat) = 1 then 0 else c.val; rw [if_neg (by decide)]

/-- Column k of a [64, 32, 3] array, as a [64, 32, 1] slice. -/
theorem slice_0 {α : Type} (X : S64x32x3.Idx → α) (h : S64x32x3.Slices ![0, 0, 0] S64x32x1) (p : Fin 64) (n : Fin 32) (u : Fin 1) :
    extractStridedSlice S64x32x1 ![0, 0, 0] X h (ix3 p n u) = X (ix3 p n (0 : Fin 3)) :=
  extractStridedSlice_apply _ X h _ _ (fun ax => by
    match ax with
    | ⟨0, _⟩ => exact (Nat.zero_add _).symm
    | ⟨1, _⟩ => exact (Nat.zero_add _).symm
    | ⟨2, _⟩ => show 0 = 0 + u.val; omega)

theorem slice_1 {α : Type} (X : S64x32x3.Idx → α) (h : S64x32x3.Slices ![0, 0, 1] S64x32x1) (p : Fin 64) (n : Fin 32) (u : Fin 1) :
    extractStridedSlice S64x32x1 ![0, 0, 1] X h (ix3 p n u) = X (ix3 p n (1 : Fin 3)) :=
  extractStridedSlice_apply _ X h _ _ (fun ax => by
    match ax with
    | ⟨0, _⟩ => exact (Nat.zero_add _).symm
    | ⟨1, _⟩ => exact (Nat.zero_add _).symm
    | ⟨2, _⟩ => show 1 = 1 + u.val; omega)

theorem slice_2 {α : Type} (X : S64x32x3.Idx → α) (h : S64x32x3.Slices ![0, 0, 2] S64x32x1) (p : Fin 64) (n : Fin 32) (u : Fin 1) :
    extractStridedSlice S64x32x1 ![0, 0, 2] X h (ix3 p n u) = X (ix3 p n (2 : Fin 3)) :=
  extractStridedSlice_apply _ X h _ _ (fun ax => by
    match ax with
    | ⟨0, _⟩ => exact (Nat.zero_add _).symm
    | ⟨1, _⟩ => exact (Nat.zero_add _).symm
    | ⟨2, _⟩ => show 2 = 2 + u.val; omega)

/-! ## The reductions and the matrix product -/

/-- The sum over the 3 coordinates. -/
theorem sum_coords (v : FVec Ideal S64x32x3 .f32) (h : S64x32x3.Reduces [2] S64x32)
    (hφ : FTy.f32 = FTy.f32 ∨ FTy.f32 = FTy.bf16) (hacc : (0x00000000#32 : BitVec 32) = 0x00000000#32) (p : Fin 64) (n : Fin 32) :
    multiReduction .add [2] S64x32 v 0x00000000#32 h hφ hacc (ix2 p n) = ∑ k : Fin 3, v (ix3 p n k) := by
  refine (Ideal.multiReduction_add_single v 0x00000000#32 h hφ hacc (ix2 p n)).trans ?_
  refine Finset.sum_congr rfl fun k _ => congrArg v ?_
  funext a
  match a with
  | ⟨0, _⟩ => rfl
  | ⟨1, _⟩ => rfl
  | ⟨2, _⟩ => rfl

/-- The sum over the 127 features. -/
theorem sum_feats (v : FVec Ideal S64x32x127 .f32) (h : S64x32x127.Reduces [2] S64x32)
    (hφ : FTy.f32 = FTy.f32 ∨ FTy.f32 = FTy.bf16) (hacc : (0x00000000#32 : BitVec 32) = 0x00000000#32) (p : Fin 64) (n : Fin 32) :
    multiReduction .add [2] S64x32 v 0x00000000#32 h hφ hacc (ix2 p n) = ∑ k : Fin 127, v (ix3 p n k) := by
  refine (Ideal.multiReduction_add_single v 0x00000000#32 h hφ hacc (ix2 p n)).trans ?_
  refine Finset.sum_congr rfl fun k _ => congrArg v ?_
  funext a
  match a with
  | ⟨0, _⟩ => rfl
  | ⟨1, _⟩ => rfl
  | ⟨2, _⟩ => rfl

/-- The maximum over the 32 neighbour slots, from minus infinity. -/
theorem max_slots (v : FVec Ideal S64x32x256 .f32) (h : S64x32x256.Reduces [1] S64x256)
    (hφ : FTy.f32 = FTy.f32 ∨ FTy.f32 = FTy.bf16) (hacc : (0xFF800000#32 : BitVec 32) = 0xFF800000#32) (p : Fin 64) (c : Fin 256) :
    multiReduction .maximumf [1] S64x256 v 0xFF800000#32 h hφ hacc (ix2 p c)
      = (Finset.univ : Finset (Fin 32)).fold max negInf (fun n => v (ix3 p n c)) := by
  refine (Ideal.multiReduction_maximumf_single v 0xFF800000#32 h hφ hacc (ix2 p c)).trans ?_
  refine congrArg (fun f => (Finset.univ : Finset (Fin 32)).fold max negInf f) (funext fun n => congrArg v ?_)
  funext a
  match a with
  | ⟨0, _⟩ => rfl
  | ⟨1, _⟩ => rfl
  | ⟨2, _⟩ => rfl

/-- The operand indices of the matrix product at an output index: the kept axes read the output's coordinates. -/
theorem mm_apply_lhs0 (i : S2048x256.Idx) (q : dot_S2048x127_S127x256_S2048x256_1_0_0_1_n_n.contr.Idx) : (dot_S2048x127_S127x256_S2048x256_1_0_0_1_n_n.lhsIdx i q 0).val = (i 0).val := by
  unfold DotDims.lhsIdx
  rw [dif_neg (show ¬(0 : Fin S2048x127.rank) ∈ dot_S2048x127_S127x256_S2048x256_1_0_0_1_n_n.lhsBatch by decide),
    dif_pos (show (0 : Fin S2048x127.rank) ∈ dot_S2048x127_S127x256_S2048x256_1_0_0_1_n_n.lhsNonContracting by decide)]
  rfl
theorem mm_apply_rhs1 (i : S2048x256.Idx) (q : dot_S2048x127_S127x256_S2048x256_1_0_0_1_n_n.contr.Idx) : (dot_S2048x127_S127x256_S2048x256_1_0_0_1_n_n.rhsIdx i q 1).val = (i 1).val := by
  unfold DotDims.rhsIdx
  rw [dif_neg (show ¬(1 : Fin S127x256.rank) ∈ dot_S2048x127_S127x256_S2048x256_1_0_0_1_n_n.rhsBatch by decide),
    dif_pos (show (1 : Fin S127x256.rank) ∈ dot_S2048x127_S127x256_S2048x256_1_0_0_1_n_n.rhsNonContracting by decide)]
  rfl

/-- The matrix product into a zero accumulator, at (r, c): the sum over the 127 contracted columns. -/
theorem mm_apply (l : FVec Ideal S2048x127 .bf16) (w : FVec Ideal S127x256 .bf16) (r : Fin 2048) (c : Fin 256) :
    matmul dot_S2048x127_S127x256_S2048x256_1_0_0_1_n_n none l w (constant S2048x256 .f32 0x00000000#32) (ix2 r c)
      = ∑ k : Fin 127, l (ix2 r k) * w (ix2 k c) := by
  simp only [matmul]
  rw [Ideal.matmul_constant_zero_apply, ← Equiv.sum_comp (contrEquiv1 dot_S2048x127_S127x256_S2048x256_1_0_0_1_n_n 127 rfl rfl).symm]
  refine Finset.sum_congr rfl fun k _ => ?_
  have hk := contrEquiv1_symm_val dot_S2048x127_S127x256_S2048x256_1_0_0_1_n_n 127 rfl rfl k
  have el : dot_S2048x127_S127x256_S2048x256_1_0_0_1_n_n.lhsIdx (ix2 r c) ((contrEquiv1 dot_S2048x127_S127x256_S2048x256_1_0_0_1_n_n 127 rfl rfl).symm k) = ix2 r k :=
    funext fun a => Fin.ext (by
      match a with
      | ⟨0, _⟩ => exact mm_apply_lhs0 _ _
      | ⟨1, _⟩ => exact (dot_S2048x127_S127x256_S2048x256_1_0_0_1_n_n.lhsIdx_val_of_single rfl _ _).trans hk)
  have er : dot_S2048x127_S127x256_S2048x256_1_0_0_1_n_n.rhsIdx (ix2 r c) ((contrEquiv1 dot_S2048x127_S127x256_S2048x256_1_0_0_1_n_n 127 rfl rfl).symm k) = ix2 k c :=
    funext fun a => Fin.ext (by
      match a with
      | ⟨0, _⟩ => exact (dot_S2048x127_S127x256_S2048x256_1_0_0_1_n_n.rhsIdx_val_of_single rfl _ _).trans hk
      | ⟨1, _⟩ => exact mm_apply_rhs1 _ _)
  rw [el, er]

/-! ## The quantities of one (vertex, neighbour slot, channel) of a block -/

/-- The offset from vertex p to its n-th neighbour, coordinate k. -/
def dl (x1 : Vec Ideal S64x32x3 .f32) (x2 : Vec Ideal S64x3 .f32) (p : Fin 64) (n : Fin 32) (k : Fin 3) : EReal :=
  x1 (ix3 p n k) - x2 (ix2 p k)

/-- Its Euclidean length, clamped below. -/
def dn (x1 : Vec Ideal S64x32x3 .f32) (x2 : Vec Ideal S64x3 .f32) (p : Fin 64) (n : Fin 32) : EReal :=
  max (Ideal.sqrt (∑ k : Fin 3, dl x1 x2 p n k * dl x1 x2 p n k)) tiny

/-- The unit direction moved to [0, 1]. -/
def dw (x1 : Vec Ideal S64x32x3 .f32) (x2 : Vec Ideal S64x3 .f32) (p : Fin 64) (n : Fin 32) (k : Fin 3) : EReal :=
  (Ideal.div (dl x1 x2 p n k) (dn x1 x2 p n) + one) * half

/-- The direction weight, its three products added one after the other, clamped at 0. -/
def th (x1 : Vec Ideal S64x32x3 .f32) (x2 : Vec Ideal S64x3 .f32) (s0 s1 s2 d0 : Vec Ideal S1x256 .f32)
    (p : Fin 64) (n : Fin 32) (c : Fin 256) : EReal :=
  max (dw x1 x2 p n 0 * s0 (ix2 (0 : Fin 1) c) + dw x1 x2 p n 1 * s1 (ix2 (0 : Fin 1) c)
    + dw x1 x2 p n 2 * s2 (ix2 (0 : Fin 1) c) + d0 (ix2 (0 : Fin 1) c)) 0

/-- The feature score: the features' product with the weights, plus their length times the distance weights, plus
    the bias. -/
def zz (x0 : Vec Ideal S64x32x127 .f32) (wf : Vec Ideal S127x256 .f32) (wd bb : Vec Ideal S1x256 .f32)
    (p : Fin 64) (n : Fin 32) (c : Fin 256) : EReal :=
  (∑ k : Fin 127, x0 (ix3 p n k) * wf (ix2 k c))
    + Ideal.sqrt (∑ k : Fin 127, x0 (ix3 p n k) * x0 (ix3 p n k)) * wd (ix2 (0 : Fin 1) c) + bb (ix2 (0 : Fin 1) c)

/-! ## Each value the pass computes, at an index -/

/-- The loaded features are used as they are. -/
theorem pay2_eq (x0 : Vec Ideal S64x32x127 .f32) : Gen.k1_pay2 (F := Ideal) x0 = x0 := by
  unfold Gen.k1_pay2
  exact shapeCast_self x0 _

/-- The direction rows. -/
theorem pay3_apply (x1 : Vec Ideal S64x32x3 .f32) (x2 : Vec Ideal S64x3 .f32) (p : Fin 64) (n : Fin 32) (k : Fin 3) :
    Gen.k1_pay3 (F := Ideal) x1 x2 (ix3 p n k) = dw x1 x2 p n k := by
  unfold Gen.k1_pay3 dw dn dl
  simp only [mulf_apply, addf_apply, subf_apply, divf_apply, maximumf_apply, broadcast_apply, sqrt_apply, ofBits_eq,
    shapeCast_self, bcast_len3, cast_keep]
  rw [sum_coords]
  simp only [mulf_apply, subf_apply, shapeCast_self, bcast_vtx, cast_vtx]

/-- A channel row lifted to [1, 1, 256]. -/
theorem pay4_apply (s2 : Vec Ideal S1x256 .f32) (u v : Fin 1) (c : Fin 256) :
    Gen.k1_pay4 (F := Ideal) s2 (ix3 u v c) = s2 (ix2 v c) := by
  unfold Gen.k1_pay4
  simp only [shapeCast_self, cast_chan]

/-- The first two products of the direction weight. -/
theorem pay5_apply (x1 : Vec Ideal S64x32x3 .f32) (x2 : Vec Ideal S64x3 .f32) (s0 s1 : Vec Ideal S1x256 .f32)
    (p : Fin 64) (n : Fin 32) (c : Fin 256) :
    Gen.k1_pay5 (F := Ideal) x1 x2 s0 s1 (ix3 p n c)
      = dw x1 x2 p n 0 * s0 (ix2 (0 : Fin 1) c) + dw x1 x2 p n 1 * s1 (ix2 (0 : Fin 1) c) := by
  unfold Gen.k1_pay5
  simp only [mulf_apply, addf_apply, shapeCast_self, cast_chan, bcast_len256, bcast_chan, slice_0, slice_1, pay3_apply]

/-- The third direction coordinate, repeated over the channels. -/
theorem pay6_apply (x1 : Vec Ideal S64x32x3 .f32) (x2 : Vec Ideal S64x3 .f32) (p : Fin 64) (n : Fin 32) (c : Fin 256) :
    Gen.k1_pay6 (F := Ideal) x1 x2 (ix3 p n c) = dw x1 x2 p n 2 := by
  unfold Gen.k1_pay6
  simp only [bcast_len256, slice_2, pay3_apply]

/-- The direction weight from its parts. -/
theorem pay7_apply (v29 : FVec Ideal S1x1x256 .f32) (v38 v40 : FVec Ideal S64x32x256 .f32) (d0 : Vec Ideal S1x256 .f32)
    (p : Fin 64) (n : Fin 32) (c : Fin 256) :
    Gen.k1_pay7 (F := Ideal) v29 v38 v40 d0 (ix3 p n c)
      = max (v38 (ix3 p n c) + v40 (ix3 p n c) * v29 (ix3 (0 : Fin 1) (0 : Fin 1) c) + d0 (ix2 (0 : Fin 1) c)) 0 := by
  unfold Gen.k1_pay7
  simp only [mulf_apply, addf_apply, maximumf_apply, broadcast_apply, ofBits_eq, Ideal.ofBits_zero_f32, shapeCast_self,
    cast_chan, bcast_chan]

/-- The reciprocal standard deviation. -/
theorem pay8_apply (vr : Vec Ideal S1x256 .f32) (u v : Fin 1) (c : Fin 256) :
    Gen.k1_pay8 (F := Ideal) vr (ix3 u v c) = Ideal.rsqrt (vr (ix2 v c) + eps) := by
  unfold Gen.k1_pay8
  simp only [addf_apply, rsqrt_apply, broadcast_apply, ofBits_eq, shapeCast_self, cast_chan]

/-- The centred feature score. -/
theorem pay9_apply (v1 : FVec Ideal S64x32x127 .f32) (wf : Vec Ideal S127x256 .f32) (wd bb mu : Vec Ideal S1x256 .f32)
    (p : Fin 64) (n : Fin 32) (c : Fin 256) :
    Gen.k1_pay9 (F := Ideal) v1 wf wd bb mu (ix3 p n c) = zz v1 wf wd bb p n c - mu (ix2 (0 : Fin 1) c) := by
  unfold Gen.k1_pay9 zz
  simp only [mulf_apply, addf_apply, subf_apply, sqrt_apply, truncf_apply, shapeCast_self, cast_chan, bcast_chan,
    bcast_len256, cast_keep, cast_unrows, mm_apply, cast_rows]
  rw [sum_feats]
  simp only [mulf_apply]

/-- The stored block: per vertex and channel, the maximum over the neighbour slots of the normalised, scaled,
    shifted score clamped at 0, times the direction weight. -/
theorem pay1_apply (v50 : FVec Ideal S64x32x256 .f32) (v82 : FVec Ideal S1x1x256 .f32) (v84 : FVec Ideal S64x32x256 .f32)
    (gm bt : Vec Ideal S1x256 .f32) (p : Fin 64) (c : Fin 256) :
    Gen.k1_pay1 (F := Ideal) v50 v82 v84 gm bt (ix2 p c)
      = (Finset.univ : Finset (Fin 32)).fold max negInf (fun n =>
          max (v84 (ix3 p n c) * v82 (ix3 (0 : Fin 1) (0 : Fin 1) c) * gm (ix2 (0 : Fin 1) c) + bt (ix2 (0 : Fin 1) c)) 0
            * v50 (ix3 p n c)) := by
  unfold Gen.k1_pay1
  rw [max_slots]
  simp only [mulf_apply, addf_apply, maximumf_apply, broadcast_apply, ofBits_eq, Ideal.ofBits_zero_f32, shapeCast_self,
    cast_chan, bcast_chan]

/-- THE BLOCK THE PASS STORES, from the blocks it loads. -/
theorem main_apply (x0 : Vec Ideal S64x32x127 .f32) (x1 : Vec Ideal S64x32x3 .f32) (x2 : Vec Ideal S64x3 .f32)
    (s0 s1 s2 d0 wd bb gm bt mu vr : Vec Ideal S1x256 .f32) (wf : Vec Ideal S127x256 .f32) (p : Fin 64) (c : Fin 256) :
    Gen.k1_pay1 (F := Ideal)
        (Gen.k1_pay7 (Gen.k1_pay4 s2) (Gen.k1_pay5 x1 x2 s0 s1) (Gen.k1_pay6 x1 x2) d0) (Gen.k1_pay8 vr)
        (Gen.k1_pay9 (Gen.k1_pay2 x0) wf wd bb mu) gm bt (ix2 p c)
      = (Finset.univ : Finset (Fin 32)).fold max negInf (fun n =>
          max ((zz x0 wf wd bb p n c - mu (ix2 (0 : Fin 1) c)) * Ideal.rsqrt (vr (ix2 (0 : Fin 1) c) + eps)
              * gm (ix2 (0 : Fin 1) c) + bt (ix2 (0 : Fin 1) c)) 0
            * th x1 x2 s0 s1 s2 d0 p n c) := by
  rw [pay1_apply, pay2_eq]
  simp only [pay7_apply, pay4_apply, pay5_apply, pay6_apply, pay8_apply, pay9_apply, th]

end Cert.KernelIdeal.MainPayload

end
-- ==== Proof.MainValue.lean ====
/-
  From blocks to the array, for the pooling region.

  The region walks its 256 grid points; point t stages rows 64 t … 64 t + 63 of the features, of the neighbour
  coordinates and of the vertex coordinates, keeps the nine tables resident (block 0 at every point), and writes
  back rows 64 t … 64 t + 63 of the output. What the body stores at (p, c) is the layer's pooled activation computed
  from the staged blocks; a staged block's entry is the array's entry at block index times block size plus the
  coordinate inside the block, so the stored value is the pooled activation of vertex 64 t + p of the WHOLE arrays.
  Row r of the output lies in the block of point r / 64, every point writes back, and so the output array ends as
  one function of the arrays the region found: the pooled array `G1`.
-/
import proofs.«116505_j37873021616799_1_alg».proof.Proof.MainPieces
import proofs.«116505_j37873021616799_1_alg».proof.Proof.MainPayload
import Idealize.ShloMosaic.Lib.Pipeline.Value
import Idealize.ShloMosaic.Lib.ValueIdx

noncomputable section

namespace Cert.KernelIdeal.MainValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame Cert.NeighborPool

/-! ## The layer over the whole arrays (16384 vertices) -/

/-- The offset from vertex v to its n-th neighbour, coordinate k. -/
def dlA (a1 : S16384x32x3.Idx → EReal) (a2 : S16384x3.Idx → EReal) (v : Fin 16384) (n : Fin 32) (k : Fin 3) : EReal :=
  a1 (ix3 v n k) - a2 (ix2 v k)

/-- Its Euclidean length, clamped below. -/
def dnA (a1 : S16384x32x3.Idx → EReal) (a2 : S16384x3.Idx → EReal) (v : Fin 16384) (n : Fin 32) : EReal :=
  max (Ideal.sqrt (∑ k : Fin 3, dlA a1 a2 v n k * dlA a1 a2 v n k)) tiny

/-- The unit direction moved to [0, 1]. -/
def dwA (a1 : S16384x32x3.Idx → EReal) (a2 : S16384x3.Idx → EReal) (v : Fin 16384) (n : Fin 32) (k : Fin 3) : EReal :=
  (Ideal.div (dlA a1 a2 v n k) (dnA a1 a2 v n) + one) * half

/-- The direction weight: rows 0, 1, 2 of the support table s against the direction, plus the base row d0, clamped at 0. -/
def thA (a1 : S16384x32x3.Idx → EReal) (a2 : S16384x3.Idx → EReal) (s : S3x256.Idx → EReal) (d0 : S1x256.Idx → EReal)
    (v : Fin 16384) (n : Fin 32) (c : Fin 256) : EReal :=
  max (dwA a1 a2 v n 0 * s (ix2 (0 : Fin 3) c) + dwA a1 a2 v n 1 * s (ix2 (1 : Fin 3) c)
    + dwA a1 a2 v n 2 * s (ix2 (2 : Fin 3) c) + d0 (ix2 (0 : Fin 1) c)) 0

/-- The feature score. -/
def zzA (a0 : S16384x32x127.Idx → EReal) (wf : S127x256.Idx → EReal) (wd bb : S1x256.Idx → EReal)
    (v : Fin 16384) (n : Fin 32) (c : Fin 256) : EReal :=
  (∑ k : Fin 127, a0 (ix3 v n k) * wf (ix2 k c))
    + Ideal.sqrt (∑ k : Fin 127, a0 (ix3 v n k) * a0 (ix3 v n k)) * wd (ix2 (0 : Fin 1) c) + bb (ix2 (0 : Fin 1) c)

/-- The pooled activation of vertex v at channel c: the maximum over the neighbour slots, from minus infinity, of the
    normalised, scaled, shifted score clamped at 0, times the direction weight. The arrays are named by the window
    that stages them: a0 features, a1 neighbour coordinates, a2 vertex coordinates, a3 support table, a4 base
    direction, a5 weights, a6 distance weights, a7 bias, a8 scale, a9 shift, a10 mean, a11 variance. -/
def poolA (a0 : S16384x32x127.Idx → EReal) (a1 : S16384x32x3.Idx → EReal) (a2 : S16384x3.Idx → EReal)
    (a3 : S3x256.Idx → EReal) (a4 : S1x256.Idx → EReal) (a5 : S127x256.Idx → EReal)
    (a6 a7 a8 a9 a10 a11 : S1x256.Idx → EReal) (v : Fin 16384) (c : Fin 256) : EReal :=
  (Finset.univ : Finset (Fin 32)).fold max negInf (fun n =>
    max ((zzA a0 a5 a6 a7 v n c - a10 (ix2 (0 : Fin 1) c)) * Ideal.rsqrt (a11 (ix2 (0 : Fin 1) c) + eps)
        * a8 (ix2 (0 : Fin 1) c) + a9 (ix2 (0 : Fin 1) c)) 0
      * thA a1 a2 a3 a4 v n c)

/-! ## A block's payload is the layer on the block's rows -/

/-- Whatever blocks the body loads, if the three blocked ones are the rows `row p` of their arrays, the three
    support rows are rows 0, 1, 2 of the table and the resident ones are their arrays, the value it stores at (p, c)
    is the pooled activation of vertex `row p`. -/
theorem block_eq (a0 : S16384x32x127.Idx → EReal) (a1 : S16384x32x3.Idx → EReal) (a2 : S16384x3.Idx → EReal)
    (a3 : S3x256.Idx → EReal) (a4 : S1x256.Idx → EReal) (a5 : S127x256.Idx → EReal)
    (a6 a7 a8 a9 a10 a11 : S1x256.Idx → EReal)
    (x0 : Vec Ideal S64x32x127 .f32) (x1 : Vec Ideal S64x32x3 .f32) (x2 : Vec Ideal S64x3 .f32) (s0 s1 s2 : Vec Ideal S1x256 .f32)
    (x4 : Vec Ideal S1x256 .f32) (x5 : Vec Ideal S127x256 .f32) (x6 x7 x8 x9 x10 x11 : Vec Ideal S1x256 .f32)
    (row : Fin 64 → Fin 16384)
    (h0 : ∀ p n k, x0 (ix3 p n k) = a0 (ix3 (row p) n k)) (h1 : ∀ p n k, x1 (ix3 p n k) = a1 (ix3 (row p) n k))
    (h2 : ∀ p k, x2 (ix2 p k) = a2 (ix2 (row p) k)) (hs0 : ∀ c, s0 (ix2 (0 : Fin 1) c) = a3 (ix2 (0 : Fin 3) c))
    (hs1 : ∀ c, s1 (ix2 (0 : Fin 1) c) = a3 (ix2 (1 : Fin 3) c)) (hs2 : ∀ c, s2 (ix2 (0 : Fin 1) c) = a3 (ix2 (2 : Fin 3) c))
    (h4 : ∀ c, x4 (ix2 (0 : Fin 1) c) = a4 (ix2 (0 : Fin 1) c)) (h5 : ∀ k c, x5 (ix2 k c) = a5 (ix2 k c))
    (h6 : ∀ c, x6 (ix2 (0 : Fin 1) c) = a6 (ix2 (0 : Fin 1) c)) (h7 : ∀ c, x7 (ix2 (0 : Fin 1) c) = a7 (ix2 (0 : Fin 1) c))
    (h8 : ∀ c, x8 (ix2 (0 : Fin 1) c) = a8 (ix2 (0 : Fin 1) c)) (h9 : ∀ c, x9 (ix2 (0 : Fin 1) c) = a9 (ix2 (0 : Fin 1) c))
    (h10 : ∀ c, x10 (ix2 (0 : Fin 1) c) = a10 (ix2 (0 : Fin 1) c)) (h11 : ∀ c, x11 (ix2 (0 : Fin 1) c) = a11 (ix2 (0 : Fin 1) c))
    (p : Fin 64) (c : Fin 256) :
    k1_pay1 (F := Ideal) (k1_pay7 (k1_pay4 s2) (k1_pay5 x1 x2 s0 s1) (k1_pay6 x1 x2) x4) (k1_pay8 x11)
        (k1_pay9 (k1_pay2 x0) x5 x6 x7 x10) x8 x9 (ix2 p c)
      = poolA a0 a1 a2 a3 a4 a5 a6 a7 a8 a9 a10 a11 (row p) c := by
  rw [MainPayload.main_apply x0 x1 x2 s0 s1 s2 x4 x6 x7 x8 x9 x10 x11 x5 p c]
  unfold poolA thA dwA dnA dlA zzA MainPayload.th MainPayload.dw MainPayload.dn MainPayload.dl MainPayload.zz
  simp only [h0, h1, h2, hs0, hs1, hs2, h4, h5, h6, h7, h8, h9, h10, h11]

/-! ## The blocks of a grid point, read off the arrays -/

/-- The printed index maps, decided once over the 256 grid points: the features, the neighbour coordinates, the vertex
    coordinates and the output move one block of 64 rows per point; every table stays at block 0. -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0
    ∧ win1_12.index t (0 : Fin 2) = t.val ∧ win1_12.index t (1 : Fin 2) = 0 :=
  (by decide +kernel : ∀ t : Fin grid1.N, _)

/-- Row p of the block of point t, as a row of the whole array. -/
def rowOf (t : Fin cfg1.N) (p : Fin 64) : Fin 16384 :=
  ⟨t.val * 64 + p.val, by have h := t.isLt; have hN : cfg1.N = 256 := N_1; omega⟩

section Blocks
variable (V : (c : Dev nD) → (b : Ref sig .tc) → Buf (Elt Ideal) ((c : Thread nD τ).loc b))

/-- An entry of window w's block at point t is the array's entry at block index times block size plus the coordinate
    inside the block, on each axis. -/
theorem blk0_apply (c : Dev nD) (t : Fin cfg1.N) (x0 : Fin 64) (x1 : Fin 32) (x2 : Fin 127) :
    (iblk1 V c 0 t : Vec Ideal S64x32x127 .f32) (ix3 x0 x1 x2)
      = (V c (Pipeline.arrRef spec1 0) : S16384x32x127.Idx → EReal) (ix3 (rowOf t x0) x1 x2) := by
  obtain ⟨e0_0, e0_1, e0_2, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1⟩ := idx_facts t
  unfold iblk1
  rw [View.read_apply]
  show V c (Pipeline.arrRef spec1 0) _ = V c (Pipeline.arrRef spec1 0) _
  congr 1
  funext a
  apply Fin.ext
  match a with
  | ⟨0, _⟩ => show win1_0.index t (0 : Fin 3) * 64 + 1 * x0.val = t.val * 64 + x0.val; rw [e0_0]; omega
  | ⟨1, _⟩ => show win1_0.index t (1 : Fin 3) * 32 + 1 * x1.val = x1.val; rw [e0_1]; omega
  | ⟨2, _⟩ => show win1_0.index t (2 : Fin 3) * 127 + 1 * x2.val = x2.val; rw [e0_2]; omega

theorem blk1_apply (c : Dev nD) (t : Fin cfg1.N) (x0 : Fin 64) (x1 : Fin 32) (x2 : Fin 3) :
    (iblk1 V c 1 t : Vec Ideal S64x32x3 .f32) (ix3 x0 x1 x2)
      = (V c (Pipeline.arrRef spec1 1) : S16384x32x3.Idx → EReal) (ix3 (rowOf t x0) x1 x2) := by
  obtain ⟨e0_0, e0_1, e0_2, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1⟩ := idx_facts t
  unfold iblk1
  rw [View.read_apply]
  show V c (Pipeline.arrRef spec1 1) _ = V c (Pipeline.arrRef spec1 1) _
  congr 1
  funext a
  apply Fin.ext
  match a with
  | ⟨0, _⟩ => show win1_1.index t (0 : Fin 3) * 64 + 1 * x0.val = t.val * 64 + x0.val; rw [e1_0]; omega
  | ⟨1, _⟩ => show win1_1.index t (1 : Fin 3) * 32 + 1 * x1.val = x1.val; rw [e1_1]; omega
  | ⟨2, _⟩ => show win1_1.index t (2 : Fin 3) * 3 + 1 * x2.val = x2.val; rw [e1_2]; omega

theorem blk2_apply (c : Dev nD) (t : Fin cfg1.N) (x0 : Fin 64) (x1 : Fin 3) :
    (iblk1 V c 2 t : Vec Ideal S64x3 .f32) (ix2 x0 x1)
      = (V c (Pipeline.arrRef spec1 2) : S16384x3.Idx → EReal) (ix2 (rowOf t x0) x1) := by
  obtain ⟨e0_0, e0_1, e0_2, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1⟩ := idx_facts t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 64 + 1 * x0.val = t.val * 64 + x0.val; rw [e2_0]; omega
  | ⟨1, _⟩ => show win1_2.index t (1 : Fin 2) * 3 + 1 * x1.val = x1.val; rw [e2_1]; omega

theorem blk3_apply (c : Dev nD) (t : Fin cfg1.N) (x0 : Fin 3) (x1 : Fin 256) :
    (iblk1 V c 3 t : Vec Ideal S3x256 .f32) (ix2 x0 x1)
      = (V c (Pipeline.arrRef spec1 3) : S3x256.Idx → EReal) (ix2 x0 x1) := by
  obtain ⟨e0_0, e0_1, e0_2, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1⟩ := idx_facts t
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 3 + 1 * x0.val = x0.val; rw [e3_0]; omega
  | ⟨1, _⟩ => show win1_3.index t (1 : Fin 2) * 256 + 1 * x1.val = x1.val; rw [e3_1]; omega

theorem blk4_apply (c : Dev nD) (t : Fin cfg1.N) (x0 : Fin 1) (x1 : Fin 256) :
    (iblk1 V c 4 t : Vec Ideal S1x256 .f32) (ix2 x0 x1)
      = (V c (Pipeline.arrRef spec1 4) : S1x256.Idx → EReal) (ix2 x0 x1) := by
  obtain ⟨e0_0, e0_1, e0_2, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1⟩ := idx_facts t
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 1 + 1 * x0.val = x0.val; rw [e4_0]; omega
  | ⟨1, _⟩ => show win1_4.index t (1 : Fin 2) * 256 + 1 * x1.val = x1.val; rw [e4_1]; omega

theorem blk5_apply (c : Dev nD) (t : Fin cfg1.N) (x0 : Fin 127) (x1 : Fin 256) :
    (iblk1 V c 5 t : Vec Ideal S127x256 .f32) (ix2 x0 x1)
      = (V c (Pipeline.arrRef spec1 5) : S127x256.Idx → EReal) (ix2 x0 x1) := by
  obtain ⟨e0_0, e0_1, e0_2, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1⟩ := idx_facts t
  unfold iblk1
  rw [View.read_apply]
  show V c (Pipeline.arrRef spec1 5) _ = V c (Pipeline.arrRef spec1 5) _
  congr 1
  funext a
  apply Fin.ext
  match a with
  | ⟨0, _⟩ => show win1_5.index t (0 : Fin 2) * 127 + 1 * x0.val = x0.val; rw [e5_0]; omega
  | ⟨1, _⟩ => show win1_5.index t (1 : Fin 2) * 256 + 1 * x1.val = x1.val; rw [e5_1]; omega

theorem blk6_apply (c : Dev nD) (t : Fin cfg1.N) (x0 : Fin 1) (x1 : Fin 256) :
    (iblk1 V c 6 t : Vec Ideal S1x256 .f32) (ix2 x0 x1)
      = (V c (Pipeline.arrRef spec1 6) : S1x256.Idx → EReal) (ix2 x0 x1) := by
  obtain ⟨e0_0, e0_1, e0_2, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1⟩ := idx_facts t
  unfold iblk1
  rw [View.read_apply]
  show V c (Pipeline.arrRef spec1 6) _ = V c (Pipeline.arrRef spec1 6) _
  congr 1
  funext a
  apply Fin.ext
  match a with
  | ⟨0, _⟩ => show win1_6.index t (0 : Fin 2) * 1 + 1 * x0.val = x0.val; rw [e6_0]; omega
  | ⟨1, _⟩ => show win1_6.index t (1 : Fin 2) * 256 + 1 * x1.val = x1.val; rw [e6_1]; omega

theorem blk7_apply (c : Dev nD) (t : Fin cfg1.N) (x0 : Fin 1) (x1 : Fin 256) :
    (iblk1 V c 7 t : Vec Ideal S1x256 .f32) (ix2 x0 x1)
      = (V c (Pipeline.arrRef spec1 7) : S1x256.Idx → EReal) (ix2 x0 x1) := by
  obtain ⟨e0_0, e0_1, e0_2, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1⟩ := idx_facts t
  unfold iblk1
  rw [View.read_apply]
  show V c (Pipeline.arrRef spec1 7) _ = V c (Pipeline.arrRef spec1 7) _
  congr 1
  funext a
  apply Fin.ext
  match a with
  | ⟨0, _⟩ => show win1_7.index t (0 : Fin 2) * 1 + 1 * x0.val = x0.val; rw [e7_0]; omega
  | ⟨1, _⟩ => show win1_7.index t (1 : Fin 2) * 256 + 1 * x1.val = x1.val; rw [e7_1]; omega

theorem blk8_apply (c : Dev nD) (t : Fin cfg1.N) (x0 : Fin 1) (x1 : Fin 256) :
    (iblk1 V c 8 t : Vec Ideal S1x256 .f32) (ix2 x0 x1)
      = (V c (Pipeline.arrRef spec1 8) : S1x256.Idx → EReal) (ix2 x0 x1) := by
  obtain ⟨e0_0, e0_1, e0_2, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1⟩ := idx_facts t
  unfold iblk1
  rw [View.read_apply]
  show V c (Pipeline.arrRef spec1 8) _ = V c (Pipeline.arrRef spec1 8) _
  congr 1
  funext a
  apply Fin.ext
  match a with
  | ⟨0, _⟩ => show win1_8.index t (0 : Fin 2) * 1 + 1 * x0.val = x0.val; rw [e8_0]; omega
  | ⟨1, _⟩ => show win1_8.index t (1 : Fin 2) * 256 + 1 * x1.val = x1.val; rw [e8_1]; omega

theorem blk9_apply (c : Dev nD) (t : Fin cfg1.N) (x0 : Fin 1) (x1 : Fin 256) :
    (iblk1 V c 9 t : Vec Ideal S1x256 .f32) (ix2 x0 x1)
      = (V c (Pipeline.arrRef spec1 9) : S1x256.Idx → EReal) (ix2 x0 x1) := by
  obtain ⟨e0_0, e0_1, e0_2, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1⟩ := idx_facts t
  unfold iblk1
  rw [View.read_apply]
  show V c (Pipeline.arrRef spec1 9) _ = V c (Pipeline.arrRef spec1 9) _
  congr 1
  funext a
  apply Fin.ext
  match a with
  | ⟨0, _⟩ => show win1_9.index t (0 : Fin 2) * 1 + 1 * x0.val = x0.val; rw [e9_0]; omega
  | ⟨1, _⟩ => show win1_9.index t (1 : Fin 2) * 256 + 1 * x1.val = x1.val; rw [e9_1]; omega

theorem blk10_apply (c : Dev nD) (t : Fin cfg1.N) (x0 : Fin 1) (x1 : Fin 256) :
    (iblk1 V c 10 t : Vec Ideal S1x256 .f32) (ix2 x0 x1)
      = (V c (Pipeline.arrRef spec1 10) : S1x256.Idx → EReal) (ix2 x0 x1) := by
  obtain ⟨e0_0, e0_1, e0_2, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1⟩ := idx_facts t
  unfold iblk1
  rw [View.read_apply]
  show V c (Pipeline.arrRef spec1 10) _ = V c (Pipeline.arrRef spec1 10) _
  congr 1
  funext a
  apply Fin.ext
  match a with
  | ⟨0, _⟩ => show win1_10.index t (0 : Fin 2) * 1 + 1 * x0.val = x0.val; rw [e10_0]; omega
  | ⟨1, _⟩ => show win1_10.index t (1 : Fin 2) * 256 + 1 * x1.val = x1.val; rw [e10_1]; omega

theorem blk11_apply (c : Dev nD) (t : Fin cfg1.N) (x0 : Fin 1) (x1 : Fin 256) :
    (iblk1 V c 11 t : Vec Ideal S1x256 .f32) (ix2 x0 x1)
      = (V c (Pipeline.arrRef spec1 11) : S1x256.Idx → EReal) (ix2 x0 x1) := by
  obtain ⟨e0_0, e0_1, e0_2, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1⟩ := idx_facts t
  unfold iblk1
  rw [View.read_apply]
  show V c (Pipeline.arrRef spec1 11) _ = V c (Pipeline.arrRef spec1 11) _
  congr 1
  funext a
  apply Fin.ext
  match a with
  | ⟨0, _⟩ => show win1_11.index t (0 : Fin 2) * 1 + 1 * x0.val = x0.val; rw [e11_0]; omega
  | ⟨1, _⟩ => show win1_11.index t (1 : Fin 2) * 256 + 1 * x1.val = x1.val; rw [e11_1]; omega

/-! ## The output array after the region -/

/-- THE POOLED ARRAY: the layer of the arrays as the region finds them (window w's array is
    `V c (Pipeline.arrRef spec1 w)`), at vertex `i 0` and channel `i 1`. -/
def G1 (c : Dev nD) : S16384x256.Idx → EReal := fun i =>
  poolA (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11))
    ⟨(i 0).val, idx2_lt0 i⟩ ⟨(i 1).val, idx2_lt1 i⟩

/-- The three support rows the body loads are rows 0, 1, 2 of the table. -/
theorem sup0_apply (c : Dev nD) (t : Fin cfg1.N) (cc : Fin 256) :
    supRow0 (iblk1 V c 3 t : Vec Ideal S3x256 .f32) (ix2 (0 : Fin 1) cc)
      = (V c (Pipeline.arrRef spec1 3) : S3x256.Idx → EReal) (ix2 (0 : Fin 3) cc) :=
  (supRow0_apply (iblk1 V c 3 t : Vec Ideal S3x256 .f32) 0 cc).trans (blk3_apply V c t 0 cc)
theorem sup1_apply (c : Dev nD) (t : Fin cfg1.N) (cc : Fin 256) :
    supRow1 (iblk1 V c 3 t : Vec Ideal S3x256 .f32) (ix2 (0 : Fin 1) cc)
      = (V c (Pipeline.arrRef spec1 3) : S3x256.Idx → EReal) (ix2 (1 : Fin 3) cc) :=
  (supRow1_apply (iblk1 V c 3 t : Vec Ideal S3x256 .f32) 0 cc).trans (blk3_apply V c t 1 cc)
theorem sup2_apply (c : Dev nD) (t : Fin cfg1.N) (cc : Fin 256) :
    supRow2 (iblk1 V c 3 t : Vec Ideal S3x256 .f32) (ix2 (0 : Fin 1) cc)
      = (V c (Pipeline.arrRef spec1 3) : S3x256.Idx → EReal) (ix2 (2 : Fin 3) cc) :=
  (supRow2_apply (iblk1 V c 3 t : Vec Ideal S3x256 .f32) 0 cc).trans (blk3_apply V c t 2 cc)

/-- WHAT POINT t WRITES BACK is block t of the pooled array. -/
theorem flushed12_eq (c : Dev nD) (t : Fin cfg1.N) :
    (dat1 V c).flushed 12 t = ((cfg1.win 12).blk t).view.read (Elt Ideal) (G1 V c) := by
  show (cfg1.win 12).cut (grid1.coords t) ((dat1 V c).after 12 t) = _
  rw [after1_12]
  unfold outAt1
  rw [out1_12_eq]
  obtain ⟨e0_0, e0_1, e0_2, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1⟩ := idx_facts t
  funext j
  obtain ⟨p, cc, rfl⟩ : ∃ (p : Fin 64) (cc : Fin 256), j = ix2 p cc := ⟨j 0, j 1, eq_ix2 j⟩
  refine (block_eq (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11))
    (iblk1 V c 0 t) (iblk1 V c 1 t) (iblk1 V c 2 t) (supRow0 (iblk1 V c 3 t)) (supRow1 (iblk1 V c 3 t)) (supRow2 (iblk1 V c 3 t))
    (iblk1 V c 4 t) (iblk1 V c 5 t) (iblk1 V c 6 t) (iblk1 V c 7 t) (iblk1 V c 8 t) (iblk1 V c 9 t) (iblk1 V c 10 t) (iblk1 V c 11 t) (rowOf t)
    (fun p n k => blk0_apply V c t p n k) (fun p n k => blk1_apply V c t p n k) (fun p k => blk2_apply V c t p k)
    (fun cc => sup0_apply V c t cc) (fun cc => sup1_apply V c t cc) (fun cc => sup2_apply V c t cc)
    (fun cc => blk4_apply V c t 0 cc) (fun k cc => blk5_apply V c t k cc) (fun cc => blk6_apply V c t 0 cc)
    (fun cc => blk7_apply V c t 0 cc) (fun cc => blk8_apply V c t 0 cc) (fun cc => blk9_apply V c t 0 cc)
    (fun cc => blk10_apply V c t 0 cc) (fun cc => blk11_apply V c t 0 cc) p cc).trans ?_
  rw [View.read_apply]
  show poolA (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11)) (rowOf t p) cc
    = G1 V c (((cfg1.win 12).blk t).view.emb (ix2 p cc))
  unfold G1
  refine congrArg₂ (poolA (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11))) (Fin.ext ?_) (Fin.ext ?_)
  · show t.val * 64 + p.val = win1_12.index t (0 : Fin 2) * 64 + 1 * p.val
    rw [e12_0]; omega
  · show cc.val = win1_12.index t (1 : Fin 2) * 256 + 1 * cc.val
    rw [e12_1]; omega

/-- An index of the output array is in point t's block iff each coordinate is in the block's range on its axis. -/
theorem mem_blk12 (t : Fin cfg1.N) (i : S16384x256.Idx) :
    i ∈ ((cfg1.win 12).blk t).view.set ↔ ∀ a : Fin 2, win1_12.index t a * S64x256.size a ≤ (i a).val
      ∧ (i a).val < win1_12.index t a * S64x256.size a + S64x256.size a := by
  show i ∈ ((View.whole main_v52).slice (win1_12.rect t)).set ↔ _
  rw [View.set_slice_whole, Rect.mem_set_unit]
  exact Iff.rfl

/-- Every index of the output array is in the block of some point: row r is in the block of point r / 64. -/
theorem cover12 (i : S16384x256.Idx) :
    ∃ t : Fin cfg1.N, (cfg1.win 12).flush t = true ∧ i ∈ ((cfg1.win 12).blk t).view.set := by
  have hi0 : (i 0).val < 16384 := (i 0).isLt
  have hi1 : (i 1).val < 256 := (i 1).isLt
  have hN : cfg1.N = 256 := N_1
  obtain ⟨t, ht⟩ : ∃ t : Fin cfg1.N, t.val = (i 0).val / 64 := ⟨⟨(i 0).val / 64, by omega⟩, rfl⟩
  obtain ⟨e0_0, e0_1, e0_2, e1_0, e1_1, e1_2, e2_0, e2_1, e3_0, e3_1, e4_0, e4_1, e5_0, e5_1, e6_0, e6_1, e7_0, e7_1, e8_0, e8_1, e9_0, e9_1, e10_0, e10_1, e11_0, e11_1, e12_0, e12_1⟩ := idx_facts t
  refine ⟨t, flush1_12 t, ?_⟩
  rw [mem_blk12]
  intro a
  match a with
  | ⟨0, _⟩ =>
    show win1_12.index t (0 : Fin 2) * 64 ≤ (i 0).val ∧ (i 0).val < win1_12.index t (0 : Fin 2) * 64 + 64
    rw [e12_0, ht]; omega
  | ⟨1, _⟩ =>
    show win1_12.index t (1 : Fin 2) * 256 ≤ (i 1).val ∧ (i 1).val < win1_12.index t (1 : Fin 2) * 256 + 256
    rw [e12_1]; omega

/-- THE OUTPUT ARRAY after the region is the pooled array. -/
theorem final12 (c : Dev nD) : (dat1 V c).arrAt 12 cfg1.N = G1 V c :=
  (dat1 V c).arrAt_eq_of_cover 12 (G1 V c) (fun t _ => flushed12_eq V c t) (cover12)

end Blocks

end Cert.KernelIdeal.MainValue

end
-- ==== Proof.KernelPool.lean ====
/-
  The pooling region's output, read through the last host operation, is the layer of the specification in the
  kernel's own spelling (the distance column apart, the direction weight added term by term, the one-pass variance):
  every table the region reads is traced back to the program's arguments, the mean and variance tables to the
  statistics region's sums.
-/
import proofs.«116505_j37873021616799_1_alg».proof.Proof.KernelStats
import proofs.«116505_j37873021616799_1_alg».proof.Proof.MainValue

set_option maxRecDepth 16384

noncomputable section

namespace Cert.KernelIdeal.KernelValue

open Idealize.ShloMosaic Idealize.ShloMosaic.TcCoe Idealize.SL.Sem Idealize.ShloMosaic.ValueIdx
open Cert.KernelIdeal Cert.KernelIdeal.Gen Cert.KernelIdeal.Frame Cert.KernelIdeal.HostReads Cert.KernelIdeal.StatsSpec Cert.NeighborPool
open Cert.KernelIdeal.MainValue (G1 poolA zzA thA dwA dnA dlA)

variable (m : (ℓ : Loc nD τ sig) → Buf (Elt Ideal) ℓ) (ρ : Dev nD → PrngReg) (c : Dev nD)

theorem bOf_row (b : Fin 4) (v : Fin 4096) : bOf (HostReads.rowOf b v) = b :=
  Fin.ext (by show (b.val * 4096 + v.val) / 4096 = b.val; have := v.isLt; omega)
theorem vOf_row (b : Fin 4) (v : Fin 4096) : vOf (HostReads.rowOf b v) = v :=
  Fin.ext (by show (b.val * 4096 + v.val) % 4096 = v.val; have := v.isLt; omega)

/-! The twelve tables the pooling region finds, named, and read entry by entry. -/

def T0 : S16384x32x127.Idx → EReal := V3 m ρ c main_v15
def T1 : S16384x32x3.Idx → EReal := V3 m ρ c main_v14
def T2 : S16384x3.Idx → EReal := V3 m ρ c main_v16
def T3 : S3x256.Idx → EReal := V3 m ρ c main_v35
def T4 : S1x256.Idx → EReal := V3 m ρ c main_v38
def T5 : S127x256.Idx → EReal := V3 m ρ c main_v40
def T6 : S1x256.Idx → EReal := V3 m ρ c main_v41
def T7 : S1x256.Idx → EReal := V3 m ρ c main_v42
def T8 : S1x256.Idx → EReal := V3 m ρ c main_v43
def T9 : S1x256.Idx → EReal := V3 m ρ c main_v44
def T10 : S1x256.Idx → EReal := V3 m ρ c main_v47
def T11 : S1x256.Idx → EReal := V3 m ρ c main_v51

theorem T0_apply (b : Fin 4) (v : Fin 4096) (n : Fin 32) (k : Fin 127) :
    T0 m ρ c (ix3 (HostReads.rowOf b v) n k) = fsK m ρ c b v n k := by
  unfold T0; rw [V3_main_v15 m ρ c]
  refine (v15_apply (Vm m ρ c) (HostReads.rowOf b v) n k).trans ?_
  rw [bOf_row, vOf_row]; rfl
theorem T1_apply (b : Fin 4) (v : Fin 4096) (n : Fin 32) (k : Fin 3) :
    T1 m ρ c (ix3 (HostReads.rowOf b v) n k) = nbK m ρ c b v n k := by
  unfold T1; rw [V3_main_v14 m ρ c]
  refine (v14_apply (Vm m ρ c) (HostReads.rowOf b v) n k).trans ?_
  rw [bOf_row, vOf_row]; rfl
theorem T2_apply (b : Fin 4) (v : Fin 4096) (k : Fin 3) :
    T2 m ρ c (ix2 (HostReads.rowOf b v) k) = vxK m ρ c b v k := by
  unfold T2; rw [V3_main_v16 m ρ c]
  refine (v16_apply (Vm m ρ c) (HostReads.rowOf b v) k).trans ?_
  rw [bOf_row, vOf_row]; rfl
theorem T3_apply (j : Fin 3) (cc : Fin 256) : T3 m ρ c (ix2 j cc) = supw (drK m ρ c) j cc := by
  unfold T3; rw [V3_main_v35 m ρ c]; exact v35_apply (Vm m ρ c) j cc
theorem T4_apply (cc : Fin 256) : T4 m ρ c (ix2 (0 : Fin 1) cc) = drK m ρ c 0 cc := by
  unfold T4; rw [V3_main_v38 m ρ c]; exact v38_apply (Vm m ρ c) 0 cc
theorem T5_apply (k : Fin 127) (cc : Fin 256) : T5 m ρ c (ix2 k cc) = WK m ρ c cc k.castSucc := by
  unfold T5; rw [V3_main_v40 m ρ c]; exact v40_apply (Vm m ρ c) k cc
theorem T6_apply (cc : Fin 256) : T6 m ρ c (ix2 (0 : Fin 1) cc) = WK m ρ c cc (Fin.last 127) := by
  unfold T6; rw [V3_main_v41 m ρ c]; exact v41_apply (Vm m ρ c) 0 cc
theorem T7_apply (cc : Fin 256) : T7 m ρ c (ix2 (0 : Fin 1) cc) = biasK m ρ c cc := by
  unfold T7; rw [V3_main_v42 m ρ c]; exact v42_apply (Vm m ρ c) 0 cc
theorem T8_apply (cc : Fin 256) : T8 m ρ c (ix2 (0 : Fin 1) cc) = gamK m ρ c cc := by
  unfold T8; rw [V3_main_v43 m ρ c]; exact v43_apply (Vm m ρ c) 0 cc
theorem T9_apply (cc : Fin 256) : T9 m ρ c (ix2 (0 : Fin 1) cc) = betK m ρ c cc := by
  unfold T9; rw [V3_main_v44 m ρ c]; exact v44_apply (Vm m ρ c) 0 cc
theorem T10_apply (cc : Fin 256) : T10 m ρ c (ix2 (0 : Fin 1) cc) = mean (zSplit (fsK m ρ c) (WK m ρ c) (biasK m ρ c)) cc := by
  unfold T10; exact mean_eq m ρ c 0 cc
theorem T11_apply (cc : Fin 256) : T11 m ρ c (ix2 (0 : Fin 1) cc) = varOnePass (zSplit (fsK m ρ c) (WK m ρ c) (biasK m ρ c)) cc := by
  unfold T11; exact var_eq m ρ c 0 cc

/-- The score the pooling region forms is the layer's. -/
theorem zz_eq (b : Fin 4) (v : Fin 4096) (n : Fin 32) (cc : Fin 256) :
    zzA (T0 m ρ c) (T5 m ρ c) (T6 m ρ c) (T7 m ρ c) (HostReads.rowOf b v) n cc = zSplit (fsK m ρ c) (WK m ρ c) (biasK m ρ c) b v n cc := by
  unfold zzA zSplit fdist
  simp only [T0_apply, T5_apply, T6_apply, T7_apply]

/-- The direction weight the pooling region forms is the layer's. -/
theorem th_eq (b : Fin 4) (v : Fin 4096) (n : Fin 32) (cc : Fin 256) :
    thA (T1 m ρ c) (T2 m ρ c) (T3 m ρ c) (T4 m ρ c) (HostReads.rowOf b v) n cc
      = thetaSeq (nbK m ρ c) (vxK m ρ c) (drK m ρ c) b v n cc := by
  unfold thA dwA dnA dlA thetaSeq dirw dnorm direc
  simp only [T1_apply, T2_apply, T3_apply, T4_apply]

/-- THE KERNEL'S RESULT, entry by entry. -/
theorem pool_eq (b : Fin 4) (v : Fin 4096) (cc : Fin 256) :
    W5 m ρ c (Proc.devRef .tc main_v53) (ix3 b v cc)
      = pooled (zSplit (fsK m ρ c) (WK m ρ c) (biasK m ρ c)) (thetaSeq (nbK m ρ c) (vxK m ρ c) (drK m ρ c))
          (varOnePass (zSplit (fsK m ρ c) (WK m ρ c) (biasK m ρ c))) (gamK m ρ c) (betK m ρ c) b v cc := by
  refine (v53_apply (W4 m ρ c) b v cc).trans ?_
  have hfun : out52 (W4 m ρ c) = G1 (V3 m ρ) c := (W4_main_v52 m ρ c).trans (MainValue.final12 (V3 m ρ) c)
  rw [hfun]
  show poolA (T0 m ρ c) (T1 m ρ c) (T2 m ρ c) (T3 m ρ c) (T4 m ρ c) (T5 m ρ c) (T6 m ρ c) (T7 m ρ c) (T8 m ρ c) (T9 m ρ c) (T10 m ρ c) (T11 m ρ c)
      (HostReads.rowOf b v) cc = _
  unfold poolA pooled act
  simp only [zz_eq, th_eq, T8_apply, T9_apply, T10_apply, T11_apply]

end Cert.KernelIdeal.KernelValue

end
-- ==== Proof.RefValue.lean ====
/-
  The reference program's result, read index by index, is the direction-weighted neighbour pooling layer of the
  specification: each of its operations is read at one index, the two gathers are kept as the arrays they produce,
  the two concatenations are read piece by piece, the two sums over (batch, vertex, neighbour) become triple sums,
  and the closing maximum over the neighbour axis becomes the fold of max from minus infinity.
-/
import proofs.«116505_j37873021616799_1_alg».proof.Proof.Gen.ReferenceIdeal.Read
import proofs.«116505_j37873021616799_1_alg».proof.Proof.Spec

noncomputable section

namespace Cert.ReferenceIdeal.RefValue

open Cert.ReferenceIdeal Cert.ReferenceIdeal.Gen Idealize.ShloMosaic Idealize.ShloMosaic.ValueIdx Cert.NeighborPool
open scoped BigOperators

/-! ## The layer's inputs, as functions of coordinates -/

section Inputs

variable (x0 : (⟨S4x4096x32, .i32⟩ : BufTy).Contents (Elt Ideal))
  (x1 : (⟨S4x4096x3, .f32⟩ : BufTy).Contents (Elt Ideal))
  (x2 : (⟨S4x4096x127, .f32⟩ : BufTy).Contents (Elt Ideal))
  (x3 : (⟨S4x256, .f32⟩ : BufTy).Contents (Elt Ideal))
  (x4 : (⟨S256x128, .f32⟩ : BufTy).Contents (Elt Ideal))
  (x5 x6 x7 : (⟨S256, .f32⟩ : BufTy).Contents (Elt Ideal))

/-- The gathered neighbour coordinates. -/
def nb (b : Fin 4) (v : Fin 4096) (n : Fin 32) (k : Fin 3) : EReal := Read.val_main_v6 (F := Ideal) x0 x1 (ix4 b v n k)
/-- The gathered neighbour features. -/
def fs (b : Fin 4) (v : Fin 4096) (n : Fin 32) (k : Fin 127) : EReal := Read.val_main_v51 (F := Ideal) x0 x2 (ix4 b v n k)
/-- The vertex coordinates. -/
def vx (b : Fin 4) (v : Fin 4096) (k : Fin 3) : EReal := x1 (ix3 b v k)
/-- The four direction rows. -/
def dr (j : Fin 4) (c : Fin 256) : EReal := x3 (ix2 j c)
/-- The weight matrix. -/
def W (c : Fin 256) (i : Fin 128) : EReal := x4 (ix2 c i)
/-- The bias. -/
def bias (c : Fin 256) : EReal := x5 (ix1 c)
/-- The normalisation's scale. -/
def gam (c : Fin 256) : EReal := x6 (ix1 c)
/-- The normalisation's shift. -/
def bet (c : Fin 256) : EReal := x7 (ix1 c)

/-! ## The direction weight -/

/-- The offset from a vertex to its neighbour. -/
theorem direc_eq (b : Fin 4) (v : Fin 4096) (n : Fin 32) (k : Fin 3) :
    Read.val_main_v9 (F := Ideal) x0 x1 (ix4 b v n k) = direc (nb x0 x1) (vx x1) b v n k := by
  rw [Read.val_main_v9_apply, Read.val_main_v8_apply, Read.val_main_v7_apply]
  have e : Read.idx_main_v7 (Read.idx_main_v8 (ix4 b v n k)) = ix3 b v k :=
    funext fun a => Fin.ext (by match a with | ⟨0, _⟩ => rfl | ⟨1, _⟩ => rfl | ⟨2, _⟩ => rfl)
  rw [e]
  rfl

/-- Its Euclidean length, clamped below. -/
theorem dnorm_eq (b : Fin 4) (v : Fin 4096) (n : Fin 32) :
    Read.val_main_v12 (F := Ideal) x0 x1 (ix4 b v n (0 : Fin 1)) = dnorm (nb x0 x1) (vx x1) b v n := by
  rw [Read.val_main_v12_apply, Read.val_main_v10_apply, Read.val_main_call0_v2_apply, Read.val_main_call0_v1_apply,
    Read.val_main_v11_apply, Read.val_main_cst_apply, Read.val_main_call0_cst_apply]
  have e : ∀ k : Fin 3, Read.idx_main_call0_v1 (Read.idx_main_call0_v2 (ix4 b v n (0 : Fin 1))) k = ix4 b v n k :=
    fun k => funext fun a => Fin.ext (by match a with | ⟨0, _⟩ => rfl | ⟨1, _⟩ => rfl | ⟨2, _⟩ => rfl | ⟨3, _⟩ => rfl)
  simp only [e, Read.val_main_call0_v0_apply, direc_eq, Ideal.maximumf_def, Ideal.hostUnary_sqrt_def, Ideal.mulf_def,
    Ideal.ofBits_def, Ideal.ofBits_zero_f32, zero_add]
  rfl

/-- The unit direction moved to [0, 1]. -/
theorem dirw_eq (b : Fin 4) (v : Fin 4096) (n : Fin 32) (k : Fin 3) :
    Read.val_main_v18 (F := Ideal) x0 x1 (ix4 b v n k) = dirw (nb x0 x1) (vx x1) b v n k := by
  rw [Read.val_main_v18_apply, Read.val_main_v16_apply, Read.val_main_v14_apply, Read.val_main_v13_apply,
    Read.val_main_v15_apply, Read.val_main_cst_1_apply, Read.val_main_v17_apply, Read.val_main_cst_2_apply, direc_eq]
  have e : Read.idx_main_v13 (ix4 b v n k) = ix4 b v n (0 : Fin 1) :=
    funext fun a => Fin.ext (by match a with | ⟨0, _⟩ => rfl | ⟨1, _⟩ => rfl | ⟨2, _⟩ => rfl | ⟨3, _⟩ => rfl)
  rw [e, dnorm_eq]
  rfl

/-- A support direction relative to the base direction: row 1 of the directions less row 0 … -/
theorem sup0_eq (c : Fin 256) : Read.val_main_v23 (F := Ideal) x3 (ix1 c) = supw (dr x3) 0 c := by
  rw [Read.val_main_v23_apply, Read.val_main_v20_apply, Read.val_main_v19_apply, Read.val_main_v22_apply,
    Read.val_main_v21_apply]
  have e1 : Read.idx_main_v19 (Read.idx_main_v20 (ix1 c)) = ix2 (Fin.succ (0 : Fin 3)) c :=
    funext fun a => Fin.ext (by
      match a with
      | ⟨0, _⟩ => rfl
      | ⟨1, _⟩ => exact Nat.mod_eq_of_lt c.isLt)
  have e0 : Read.idx_main_v21 (Read.idx_main_v22 (ix1 c)) = ix2 (0 : Fin 4) c :=
    funext fun a => Fin.ext (by
      match a with
      | ⟨0, _⟩ => rfl
      | ⟨1, _⟩ => exact Nat.mod_eq_of_lt c.isLt)
  rw [e1, e0]
  rfl

/-- … row 2 less row 0 … -/
theorem sup1_eq (c : Fin 256) : Read.val_main_v28 (F := Ideal) x3 (ix1 c) = supw (dr x3) 1 c := by
  rw [Read.val_main_v28_apply, Read.val_main_v25_apply, Read.val_main_v24_apply, Read.val_main_v27_apply,
    Read.val_main_v26_apply]
  have e1 : Read.idx_main_v24 (Read.idx_main_v25 (ix1 c)) = ix2 (Fin.succ (1 : Fin 3)) c :=
    funext fun a => Fin.ext (by
      match a with
      | ⟨0, _⟩ => rfl
      | ⟨1, _⟩ => exact Nat.mod_eq_of_lt c.isLt)
  have e0 : Read.idx_main_v26 (Read.idx_main_v27 (ix1 c)) = ix2 (0 : Fin 4) c :=
    funext fun a => Fin.ext (by
      match a with
      | ⟨0, _⟩ => rfl
      | ⟨1, _⟩ => exact Nat.mod_eq_of_lt c.isLt)
  rw [e1, e0]
  rfl

/-- … and row 3 less row 0. -/
theorem sup2_eq (c : Fin 256) : Read.val_main_v33 (F := Ideal) x3 (ix1 c) = supw (dr x3) 2 c := by
  rw [Read.val_main_v33_apply, Read.val_main_v30_apply, Read.val_main_v29_apply, Read.val_main_v32_apply,
    Read.val_main_v31_apply]
  have e1 : Read.idx_main_v29 (Read.idx_main_v30 (ix1 c)) = ix2 (Fin.succ (2 : Fin 3)) c :=
    funext fun a => Fin.ext (by
      match a with
      | ⟨0, _⟩ => rfl
      | ⟨1, _⟩ => exact Nat.mod_eq_of_lt c.isLt)
  have e0 : Read.idx_main_v31 (Read.idx_main_v32 (ix1 c)) = ix2 (0 : Fin 4) c :=
    funext fun a => Fin.ext (by
      match a with
      | ⟨0, _⟩ => rfl
      | ⟨1, _⟩ => exact Nat.mod_eq_of_lt c.isLt)
  rw [e1, e0]
  rfl

/-- The three support rows stacked: row k of the stack is the k-th support direction. -/
theorem supw_eq (k : Fin 3) (c : Fin 256) : Read.val_main_v37 (F := Ideal) x3 (ix2 k c) = supw (dr x3) k c := by
  unfold Read.val_main_v37
  match k with
  | ⟨0, _⟩ =>
    refine (concatenate_apply_piece (0 : Fin S3x256.rank) _ _ (ix2 (⟨0, by decide⟩ : Fin 3) c) 0 (by show (0 : Nat) < 3; omega) S1x256
      (Read.val_main_v34 (F := Ideal) x3) rfl rfl 0 rfl (ix2 (0 : Fin 1) c) ?_ rfl).trans ?_
    · intro b hb
      match b with
      | ⟨0, _⟩ => exact absurd rfl hb
      | ⟨1, _⟩ => rfl
    · rw [Read.val_main_v34_apply]
      have e' : Read.idx_main_v34 (ix2 (0 : Fin 1) c) = ix1 c := funext fun a => by match a with | ⟨0, _⟩ => rfl
      rw [e']
      exact sup0_eq x3 c
  | ⟨1, _⟩ =>
    refine (concatenate_apply_piece (0 : Fin S3x256.rank) _ _ (ix2 (⟨1, by decide⟩ : Fin 3) c) 1 (by show (1 : Nat) < 3; omega) S1x256
      (Read.val_main_v35 (F := Ideal) x3) rfl rfl 1 rfl (ix2 (0 : Fin 1) c) ?_ rfl).trans ?_
    · intro b hb
      match b with
      | ⟨0, _⟩ => exact absurd rfl hb
      | ⟨1, _⟩ => rfl
    · rw [Read.val_main_v35_apply]
      have e' : Read.idx_main_v35 (ix2 (0 : Fin 1) c) = ix1 c := funext fun a => by match a with | ⟨0, _⟩ => rfl
      rw [e']
      exact sup1_eq x3 c
  | ⟨2, _⟩ =>
    refine (concatenate_apply_piece (0 : Fin S3x256.rank) _ _ (ix2 (⟨2, by decide⟩ : Fin 3) c) 2 (by show (2 : Nat) < 3; omega) S1x256
      (Read.val_main_v36 (F := Ideal) x3) rfl rfl 2 rfl (ix2 (0 : Fin 1) c) ?_ rfl).trans ?_
    · intro b hb
      match b with
      | ⟨0, _⟩ => exact absurd rfl hb
      | ⟨1, _⟩ => rfl
    · rw [Read.val_main_v36_apply]
      have e' : Read.idx_main_v36 (ix2 (0 : Fin 1) c) = ix1 c := funext fun a => by match a with | ⟨0, _⟩ => rfl
      rw [e']
      exact sup2_eq x3 c

/-- The direction weight: the contraction of the moved unit direction with the support rows, plus the base row,
    clamped at 0. -/
theorem theta_eq (b : Fin 4) (v : Fin 4096) (n : Fin 32) (c : Fin 256) :
    Read.val_main_v44 (F := Ideal) x0 x1 x3 (ix4 b v n c) = thetaDot (nb x0 x1) (vx x1) (dr x3) b v n c := by
  rw [Read.val_main_v44_apply, Read.val_main_v43_apply, Read.val_main_v38_apply, Read.val_main_v42_apply,
    Read.val_main_v41_apply, Read.val_main_v40_apply, Read.val_main_v39_apply, Read.val_main_call1_v0_apply,
    Read.val_main_call1_cst_apply]
  have el : ∀ k : Fin 3, Read.lidx_main_v38 (ix4 b v n c) k = ix4 b v n k :=
    fun k => funext fun a => Fin.ext (by match a with | ⟨0, _⟩ => rfl | ⟨1, _⟩ => rfl | ⟨2, _⟩ => rfl | ⟨3, _⟩ => rfl)
  have er : ∀ k : Fin 3, Read.ridx_main_v38 (ix4 b v n c) k = ix2 k c :=
    fun k => funext fun a => Fin.ext (by match a with | ⟨0, _⟩ => rfl | ⟨1, _⟩ => rfl)
  have e0 : Read.idx_main_v39 (Read.idx_main_v40 (Read.idx_main_v41 (Read.idx_main_v42 (ix4 b v n c)))) = ix2 (0 : Fin 4) c :=
    funext fun a => Fin.ext (by
      match a with
      | ⟨0, _⟩ => rfl
      | ⟨1, _⟩ => exact Nat.mod_eq_of_lt c.isLt)
  simp only [el, er, e0, dirw_eq, supw_eq, Ideal.maximumf_def, Ideal.addf_def, Ideal.ofBits_def, Ideal.ofBits_zero_f32]
  rfl

/-! ## The feature score -/

/-- The Euclidean length of the gathered features. -/
theorem fdist_eq (b : Fin 4) (v : Fin 4096) (n : Fin 32) :
    Read.val_main_v55 (F := Ideal) x0 x2 (ix4 b v n (0 : Fin 1)) = fdist (fs x0 x2) b v n := by
  rw [Read.val_main_v55_apply, Read.val_main_v54_apply, Read.val_main_v53_apply, Read.val_main_cst_5_apply]
  have e : ∀ k : Fin 127, Read.idx_main_v53 (Read.idx_main_v54 (ix4 b v n (0 : Fin 1))) k = ix4 b v n k :=
    fun k => funext fun a => Fin.ext (by match a with | ⟨0, _⟩ => rfl | ⟨1, _⟩ => rfl | ⟨2, _⟩ => rfl | ⟨3, _⟩ => rfl)
  simp only [e, Read.val_main_v52_apply, Ideal.hostUnary_sqrt_def, Ideal.mulf_def, Ideal.ofBits_def,
    Ideal.ofBits_zero_f32, zero_add]
  rfl

/-- The features and their length joined: a column below 127 is a feature, column 127 is the length. -/
theorem joined_eq (b : Fin 4) (v : Fin 4096) (n : Fin 32) (i : Fin 128) :
    Read.val_main_v56 (F := Ideal) x0 x2 (ix4 b v n i) = joined (fs x0 x2) b v n i := by
  unfold Read.val_main_v56
  by_cases h : i.val < 127
  · refine (concatenate_pair_apply_left (3 : Fin S4x4096x32x128.rank) (Read.val_main_v51 (F := Ideal) x0 x2)
      (Read.val_main_v55 (F := Ideal) x0 x2) _ (ix4 b v n i) rfl
      (ix4 b v n (⟨i.val, h⟩ : Fin 127)) ?_).trans ?_
    · intro b'
      match b' with
      | ⟨0, _⟩ => rfl
      | ⟨1, _⟩ => rfl
      | ⟨2, _⟩ => rfl
      | ⟨3, _⟩ => rfl
    · unfold joined
      rw [dif_pos h]
      rfl
  · refine (concatenate_pair_apply_right (3 : Fin S4x4096x32x128.rank) (Read.val_main_v51 (F := Ideal) x0 x2)
      (Read.val_main_v55 (F := Ideal) x0 x2) _ (ix4 b v n i) rfl rfl
      (ix4 b v n (0 : Fin 1)) ?_ ?_).trans ?_
    · intro b' hb
      match b' with
      | ⟨0, _⟩ => rfl
      | ⟨1, _⟩ => rfl
      | ⟨2, _⟩ => rfl
      | ⟨3, _⟩ => exact absurd rfl hb
    · have := i.isLt
      show 0 + 127 = i.val
      omega
    · rw [fdist_eq]
      unfold joined
      rw [dif_neg h]

/-- The score: the joined columns contracted with the weight matrix's row, plus the bias. -/
theorem z_eq (b : Fin 4) (v : Fin 4096) (n : Fin 32) (c : Fin 256) :
    Read.val_main_v60 (F := Ideal) x0 x2 x4 x5 (ix4 b v n c) = zJoined (fs x0 x2) (W x4) (bias x5) b v n c := by
  rw [Read.val_main_v60_apply, Read.val_main_v57_apply, Read.val_main_v59_apply, Read.val_main_v58_apply]
  have el : ∀ k : Fin 128, Read.lidx_main_v57 (ix4 b v n c) k = ix4 b v n k :=
    fun k => funext fun a => Fin.ext (by match a with | ⟨0, _⟩ => rfl | ⟨1, _⟩ => rfl | ⟨2, _⟩ => rfl | ⟨3, _⟩ => rfl)
  have er : ∀ k : Fin 128, Read.ridx_main_v57 (ix4 b v n c) k = ix2 c k :=
    fun k => funext fun a => Fin.ext (by match a with | ⟨0, _⟩ => rfl | ⟨1, _⟩ => rfl)
  have e0 : Read.idx_main_v58 (Read.idx_main_v59 (ix4 b v n c)) = ix1 c :=
    funext fun a => Fin.ext (by match a with | ⟨0, _⟩ => rfl)
  simp only [el, er, e0, joined_eq, Ideal.addf_def]
  rfl

/-! ## Sums over (batch, vertex, neighbour) -/

/-- A rank-4 index set is the product of its four coordinate ranges. -/
def idxEquiv4 : S4x4096x32x256.Idx ≃ Fin 4 × Fin 4096 × Fin 32 × Fin 256 where
  toFun i := (i 0, i 1, i 2, i 3)
  invFun p := ix4 p.1 p.2.1 p.2.2.1 p.2.2.2
  left_inv i := (eq_ix4 i).symm
  right_inv _ := rfl

/-- So a sum over it is the fourfold sum over the coordinates. -/
theorem sum_idx4 (f : S4x4096x32x256.Idx → EReal) :
    ∑ i, f i = ∑ b : Fin 4, ∑ v : Fin 4096, ∑ n : Fin 32, ∑ c : Fin 256, f (ix4 b v n c) := by
  rw [← Equiv.sum_comp idxEquiv4.symm f]
  simp only [Fintype.sum_prod_type]
  rfl

/-- The sum over the three leading axes of a rank-4 array, read at channel c: the initial value plus the triple sum
    over batch, vertex and neighbour slot. -/
theorem hostReduceAdd_bvn (h : S4x4096x32x256.ReducesTo [0, 1, 2] S256) (x : S4x4096x32x256.Idx → EReal) (init : EReal)
    (c : Fin 256) :
    Ideal.hostReduceAdd h x init (ix1 c) = init + ∑ b : Fin 4, ∑ v : Fin 4096, ∑ n : Fin 32, x (ix4 b v n c) := by
  unfold Ideal.hostReduceAdd
  refine congrArg (init + ·) ?_
  have hv : ∀ i : S4x4096x32x256.Idx, ((h.drop i) 0 : Nat) = (i 3 : Nat) :=
    fun i => Shape.ReducesTo.drop_apply_val_of_eq h i 0 3
  have hc : ∀ (b : Fin 4) (v : Fin 4096) (n : Fin 32) (c' : Fin 256), h.drop (ix4 b v n c') = ix1 c ↔ c = c' := by
    intro b v n c'
    constructor
    · intro e
      exact Fin.ext ((congrArg (fun j : S256.Idx => (j 0).val) e).symm.trans (hv _))
    · intro e
      subst e
      exact funext fun a => Fin.ext (by match a with | ⟨0, _⟩ => exact hv _)
  rw [Finset.sum_filter, sum_idx4]
  refine Finset.sum_congr rfl fun b _ => Finset.sum_congr rfl fun v _ => Finset.sum_congr rfl fun n _ => ?_
  rw [Finset.sum_eq_single c]
  · exact if_pos ((hc b v n c).2 rfl)
  · intro c' _ hne
    exact if_neg (fun e => hne ((hc b v n c').1 e).symm)
  · intro hn
    exact absurd (Finset.mem_univ c) hn

/-- The program's sum over the three leading axes, at channel c. -/
theorem reduceAdd_bvn (y : FVec Ideal S4x4096x32x256 .f32) (init : S_.Idx → Ideal .f32) (c : Fin 256) :
    Host.reduceAdd (F := Ideal) y init reducesTo_S4x4096x32x256_S256_d0_1_2 h_S_ (ix1 c)
      = init (Shape.Idx.first h_S_) + ∑ b : Fin 4, ∑ v : Fin 4096, ∑ n : Fin 32, y (ix4 b v n c) := by
  simp only [Host.reduceAdd, Ideal.hostReduceAdd_def]
  exact hostReduceAdd_bvn _ y _ c

/-! ## Mean, variance, activation, pooling -/

/-- The mean score of a channel. -/
theorem mean_eq (c : Fin 256) :
    Read.val_main_v63 (F := Ideal) x0 x2 x4 x5 (ix1 c) = mean (zJoined (fs x0 x2) (W x4) (bias x5)) c := by
  rw [Read.val_main_v63_apply, Read.val_main_v62_apply, Read.val_main_cst_7_apply]
  unfold Read.val_main_v61
  rw [reduceAdd_bvn, Read.val_main_cst_6_apply]
  simp only [z_eq, Ideal.hostDivf_def, Ideal.ofBits_def, Ideal.ofBits_zero_f32, zero_add]
  rfl

/-- The variance of a channel's scores, as the mean squared deviation. -/
theorem var_eq (c : Fin 256) :
    Read.val_main_v70 (F := Ideal) x0 x2 x4 x5 (ix1 c) = varTwoPass (zJoined (fs x0 x2) (W x4) (bias x5)) c := by
  rw [Read.val_main_v70_apply, Read.val_main_v69_apply, Read.val_main_cst_9_apply]
  unfold Read.val_main_v68
  rw [reduceAdd_bvn, Read.val_main_cst_8_apply]
  have e : ∀ (b : Fin 4) (v : Fin 4096) (n : Fin 32), Read.idx_main_v64 (Read.idx_main_v65 (ix4 b v n c)) = ix1 c :=
    fun b v n => funext fun a => Fin.ext (by match a with | ⟨0, _⟩ => rfl)
  simp only [Read.val_main_v67_apply, Read.val_main_v66_apply, Read.val_main_v65_apply, Read.val_main_v64_apply, e, z_eq,
    mean_eq, Ideal.hostDivf_def, Ideal.mulf_def, Ideal.subf_def, Ideal.ofBits_def, Ideal.ofBits_zero_f32, zero_add]
  rfl

/-- The normalised, scaled, shifted score clamped at 0, times the direction weight. -/
theorem act_eq (b : Fin 4) (v : Fin 4096) (n : Fin 32) (c : Fin 256) :
    Read.val_main_v87 (F := Ideal) x0 x1 x2 x3 x4 x5 x6 x7 (ix4 b v n c)
      = act (zJoined (fs x0 x2) (W x4) (bias x5)) (thetaDot (nb x0 x1) (vx x1) (dr x3))
          (varTwoPass (zJoined (fs x0 x2) (W x4) (bias x5))) (gam x6) (bet x7) b v n c := by
  have e71 : Read.idx_main_v71 (Read.idx_main_v72 (ix4 b v n c)) = ix1 c :=
    funext fun a => Fin.ext (by match a with | ⟨0, _⟩ => rfl)
  have e77 : Read.idx_main_v77 (Read.idx_main_v78 (ix4 b v n c)) = ix1 c :=
    funext fun a => Fin.ext (by match a with | ⟨0, _⟩ => rfl)
  have e80 : Read.idx_main_v80 (Read.idx_main_v81 (ix4 b v n c)) = ix1 c :=
    funext fun a => Fin.ext (by match a with | ⟨0, _⟩ => rfl)
  have e83 : Read.idx_main_v83 (Read.idx_main_v84 (ix4 b v n c)) = ix1 c :=
    funext fun a => Fin.ext (by match a with | ⟨0, _⟩ => rfl)
  rw [Read.val_main_v87_apply, Read.val_main_v86_apply, Read.val_main_v85_apply, Read.val_main_v82_apply,
    Read.val_main_v79_apply, Read.val_main_v73_apply, Read.val_main_v72_apply, Read.val_main_v71_apply, e71,
    Read.val_main_v78_apply, Read.val_main_v77_apply, e77, Read.val_main_v76_apply, Read.val_main_v75_apply,
    Read.val_main_v74_apply, Read.val_main_cst_10_apply, Read.val_main_v81_apply, Read.val_main_v80_apply, e80,
    Read.val_main_v84_apply, Read.val_main_v83_apply, e83, Read.val_main_call2_v0_apply, Read.val_main_call2_cst_apply,
    theta_eq, z_eq, mean_eq, var_eq]
  simp only [Ideal.maximumf_def, Ideal.addf_def, Ideal.mulf_def, Ideal.subf_def, Ideal.hostUnary_rsqrt_def,
    Ideal.ofBits_def, Ideal.ofBits_zero_f32]
  rfl

/-- A (batch, vertex, channel) index with neighbour slot k put back on axis 2. -/
theorem lift_slot (hR : S4x4096x32x256.Reduces [2] S4x4096x256) (b : Fin 4) (v : Fin 4096) (c : Fin 256)
    (k : Fin (S4x4096x32x256.size 2)) : hR.lift (ix3 b v c) k = ix4 b v (⟨k.val, k.isLt⟩ : Fin 32) c := by
  funext a
  apply Fin.ext
  match a with
  | ⟨0, _⟩ => rfl
  | ⟨1, _⟩ => rfl
  | ⟨2, _⟩ => rfl
  | ⟨3, _⟩ => rfl

/-- **The reference is the specification**, at a (batch, vertex, channel) index given by its coordinates: the maximum,
    from minus infinity, over the 32 neighbour slots of the weighted activations. -/
theorem pooled_eq (b : Fin 4) (v : Fin 4096) (c : Fin 256) :
    Read.val_main_v88 (F := Ideal) x0 x1 x2 x3 x4 x5 x6 x7 (ix3 b v c)
      = pooled (zJoined (fs x0 x2) (W x4) (bias x5)) (thetaDot (nb x0 x1) (vx x1) (dr x3))
          (varTwoPass (zJoined (fs x0 x2) (W x4) (bias x5))) (gam x6) (bet x7) b v c := by
  unfold Read.val_main_v88
  have hR : S4x4096x32x256.Reduces [2] S4x4096x256 := by decide
  rw [Host.reduce_eq_fold_single FloatOps.maximumf _ _ reducesTo_S4x4096x32x256_S4x4096x256_d2 hR h_S_]
  have hf : (Read.val_main_v87 (F := Ideal) x0 x1 x2 x3 x4 x5 x6 x7 ∘ hR.lift (ix3 b v c))
      = fun n : Fin 32 => act (zJoined (fs x0 x2) (W x4) (bias x5)) (thetaDot (nb x0 x1) (vx x1) (dr x3))
          (varTwoPass (zJoined (fs x0 x2) (W x4) (bias x5))) (gam x6) (bet x7) b v n c :=
    funext fun k => by
      show Read.val_main_v87 (F := Ideal) x0 x1 x2 x3 x4 x5 x6 x7 (hR.lift (ix3 b v c) k) = _
      rw [lift_slot, act_eq]
      rfl
  exact congrArg (fun f => Finset.fold max negInf f (Finset.univ : Finset (Fin 32))) hf

/-- **The reference is the specification**, at every index of the result. -/
theorem reference_eq (i : S4x4096x256.Idx) :
    Read.val_main_v88 (F := Ideal) x0 x1 x2 x3 x4 x5 x6 x7 i
      = pooled (zJoined (fs x0 x2) (W x4) (bias x5)) (thetaDot (nb x0 x1) (vx x1) (dr x3))
          (varTwoPass (zJoined (fs x0 x2) (W x4) (bias x5))) (gam x6) (bet x7) (i 0) (i 1) (i 2) := by
  obtain ⟨b, v, c, rfl⟩ : ∃ (b : Fin 4) (v : Fin 4096) (c : Fin 256), i = ix3 b v c := ⟨i 0, i 1, i 2, eq_ix3 i⟩
  exact pooled_eq x0 x1 x2 x3 x4 x5 x6 x7 b v c

end Inputs

end Cert.ReferenceIdeal.RefValue

end
-- ==== Proof.LibRealEntries.lean ====
/-
  Entries that are real numbers, on the extended reals.

  An extended real is REAL when it is neither +∞ nor −∞. Sums, products and maxima of real entries are real, a finite
  sum of real entries is real, and so is the greatest entry of a nonempty finite row of real entries (the fold of `max`
  from −∞). The one law of subtraction used with it: taking away `m + L` is taking away `m` and then `L`, as soon as `m`
  is real, whatever `L` and the minuend are — at an infinite `m` the two sides differ.
-/
import Idealize.ShloMosaic.PureOps.Ideal
import Mathlib.Data.Finset.Fold

noncomputable section

open scoped BigOperators

namespace Cert.LibRealEntries

/-- An extended real that is a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem isReal_of_ne {x : EReal} (h1 : x ≠ ⊥) (h2 : x ≠ ⊤) : IsReal x := by
  induction x using EReal.rec with
  | bot => exact absurd rfl h1
  | coe r => exact ⟨r, rfl⟩
  | top => exact absurd rfl h2

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.ite {p : Prop} [Decidable p] {x y : EReal} (hx : IsReal x) (hy : IsReal y) : IsReal (if p then x else y) := by
  split <;> assumption

/-- A finite sum of real entries is real. -/
theorem isReal_sum {ι : Type} (s : Finset ι) (f : ι → EReal) (h : ∀ i ∈ s, IsReal (f i)) : IsReal (∑ i ∈ s, f i) :=
  Finset.sum_induction f IsReal (fun _ _ ha hb => ha.add hb) isReal_zero h

/-- The greatest entry of a nonempty finite row of real entries, folded from −∞, is real. -/
theorem isReal_fold_max {ι : Type} (s : Finset ι) (f : ι → EReal) (hne : s.Nonempty) (h : ∀ i ∈ s, IsReal (f i)) :
    IsReal (s.fold max (⊥ : EReal) f) := by
  refine isReal_of_ne ?_ ?_
  · obtain ⟨i, hi⟩ := hne
    intro hb
    have hle : f i ≤ s.fold max (⊥ : EReal) f := (Finset.le_fold_max _).mpr (Or.inr ⟨i, hi, le_rfl⟩)
    rw [hb] at hle
    exact (h i hi).ne_bot (le_bot_iff.mp hle)
  · have hlt : s.fold max (⊥ : EReal) f < ⊤ :=
      (Finset.fold_max_lt _).mpr ⟨bot_lt_top, fun i hi => lt_top_iff_ne_top.mpr (h i hi).ne_top⟩
    exact hlt.ne

/-- Taking away `m + L` is taking away `m`, then `L`, when `m` is real. -/
theorem sub_add_of_isReal {m : EReal} (hm : IsReal m) (x L : EReal) : x - (m + L) = x - m - L := by
  obtain ⟨r, rfl⟩ := hm
  rw [sub_eq_add_neg, EReal.neg_add (Or.inl (EReal.coe_ne_bot r)) (Or.inl (EReal.coe_ne_top r)),
    sub_eq_add_neg (-(r : EReal)) L, ← add_assoc, ← sub_eq_add_neg, ← sub_eq_add_neg]

end Cert.LibRealEntries

end
-- ==== Proof.Glue.lean ====
/-
  The two programs gather the same entries.

  Both programs first normalise the neighbour indices (a negative index counts from the end: 4096 is added), give them
  a trailing unit axis, and gather the neighbours' coordinates and features at those words. The two texts name their
  shapes and their gather dimension numbers separately, but the names unfold to the same terms, so each of one
  program's gathers IS the other's. A gathered entry is an entry of the operand, hence real when the operand's
  entries are.
-/
import proofs.«116505_j37873021616799_1_alg».proof.Proof.HostReads
import proofs.«116505_j37873021616799_1_alg».proof.Proof.RefValue
import proofs.«116505_j37873021616799_1_alg».proof.Proof.LibRealEntries

noncomputable section

namespace Cert.Proof.Glue

open Idealize.ShloMosaic Idealize.ShloMosaic.ValueIdx Cert.LibRealEntries

/-- The gathered neighbour features: one gather of x2 at the normalised index words. -/
theorem gather_fs_eq (x0 : IVec Cert.KernelIdeal.S4x4096x32 32) (x2 : FVec Ideal Cert.KernelIdeal.S4x4096x127 .f32) :
    Host.gather Cert.KernelIdeal.gather_S4x4096x127_S4x4096x32x1_S4x4096x32x127_3_1_0_0_1_3_11127 x2
        (Cert.KernelIdeal.HostReads.fsWords x0)
      = Cert.ReferenceIdeal.Read.val_main_v51 (F := Ideal) x0 x2 := rfl

/-- The gathered neighbour coordinates likewise. -/
theorem gather_nb_eq (x0 : IVec Cert.KernelIdeal.S4x4096x32 32) (x1 : FVec Ideal Cert.KernelIdeal.S4x4096x3 .f32) :
    Host.gather Cert.KernelIdeal.gather_S4x4096x3_S4x4096x32x1_S4x4096x32x3_3_1_0_0_1_3_113 x1
        (Cert.KernelIdeal.HostReads.nbWords x0)
      = Cert.ReferenceIdeal.Read.val_main_v6 (F := Ideal) x0 x1 := rfl

/-- A gathered entry is an entry of the operand, so gathering real entries gives real entries. -/
theorem fs_isReal (x0 : IVec Cert.KernelIdeal.S4x4096x32 32) (x2 : FVec Ideal Cert.KernelIdeal.S4x4096x127 .f32)
    (h : ∀ i, IsReal (x2 i)) (b : Fin 4) (v : Fin 4096) (n : Fin 32) (k : Fin 127) :
    IsReal (Cert.ReferenceIdeal.RefValue.fs x0 x2 b v n k) := by
  unfold Cert.ReferenceIdeal.RefValue.fs Cert.ReferenceIdeal.Read.val_main_v51 Host.gather
  exact h _

end Cert.Proof.Glue

end
-- ==== Proof.Laws.lean ====
/-
  The laws joining the two spellings of the direction weight, of the feature score and of the variance.

  The direction weight and the score are finite sums regrouped, equal on all extended reals. The variance law
    (1/N) * sum (z - m)^2 = (1/N) * sum z^2 - m^2,   m = (1/N) * sum z,
  is an identity of real numbers (N the number of summands); on the extended reals it holds when every score is a
  real number, and fails at an infinite score, where the right side is the difference of two infinities. So the file
  also carries the closure facts saying that the scores of real inputs are real: differences, the square root of a
  sum of squares and the quotient by the count N = 2^19 keep an entry real.
-/
import proofs.«116505_j37873021616799_1_alg».proof.Proof.Spec
import proofs.«116505_j37873021616799_1_alg».proof.Proof.LibRealEntries
import Idealize.ShloMosaic.PureOps.Ideal
import Idealize.ShloMosaic.PureOps.Ideal.Laws
import Mathlib

noncomputable section

open scoped BigOperators

namespace Cert.NeighborPool

open Idealize.ShloMosaic Cert.LibRealEntries

/-! ### The two finite sums regrouped -/

/-- Three products added one after the other are the contraction over the three coordinates. -/
theorem thetaSeq_eq_thetaDot (nb : Fin 4 → Fin 4096 → Fin 32 → Fin 3 → EReal) (vx : Fin 4 → Fin 4096 → Fin 3 → EReal)
    (dr : Fin 4 → Fin 256 → EReal) : thetaSeq nb vx dr = thetaDot nb vx dr := by
  funext b v n c
  simp only [thetaSeq, thetaDot, Fin.sum_univ_three]

/-- The joined row at one of its first 127 columns is the feature. -/
theorem joined_castSucc (fs : Fin 4 → Fin 4096 → Fin 32 → Fin 127 → EReal) (b : Fin 4) (v : Fin 4096) (n : Fin 32)
    (k : Fin 127) : joined fs b v n k.castSucc = fs b v n k := by
  have h : (k.castSucc : Fin 128).val < 127 := k.isLt
  unfold joined
  rw [dif_pos h]
  exact congrArg (fs b v n) (Fin.ext rfl)

/-- The joined row at its last column is the length of the features. -/
theorem joined_last (fs : Fin 4 → Fin 4096 → Fin 32 → Fin 127 → EReal) (b : Fin 4) (v : Fin 4096) (n : Fin 32) :
    joined fs b v n (Fin.last 127) = fdist fs b v n := by
  have h : ¬ (Fin.last 127).val < 127 := by simp
  simp only [joined, dif_neg h]

/-- The score with the distance column apart is the contraction over the 128 joined columns. -/
theorem zSplit_eq_zJoined (fs : Fin 4 → Fin 4096 → Fin 32 → Fin 127 → EReal) (W : Fin 256 → Fin 128 → EReal)
    (bias : Fin 256 → EReal) : zSplit fs W bias = zJoined fs W bias := by
  funext b v n c
  simp only [zSplit, zJoined, Fin.sum_univ_castSucc, joined_castSucc, joined_last]

/-! ### The count -/

/-- The count is 2^19 = 4 * 4096 * 32. -/
theorem count_eq : count = ((524288 : ℝ) : EReal) := by
  simp [Ideal.ofBits, Ideal.ieee, -EReal.coe_mul]
  norm_num

/-- The quotient by the count is the product with its reciprocal. -/
theorem div_count (x : EReal) : Ideal.div x count = x * ((1 / 524288 : ℝ) : EReal) := by
  rw [count_eq, Ideal.div_coe (by norm_num)]

/-! ### Real entries -/

theorem _root_.Cert.LibRealEntries.IsReal.neg {x : EReal} (hx : IsReal x) : IsReal (-x) := by
  obtain ⟨a, rfl⟩ := hx
  exact ⟨-a, (EReal.coe_neg a).symm⟩

theorem _root_.Cert.LibRealEntries.IsReal.sub {x y : EReal} (hx : IsReal x) (hy : IsReal y) : IsReal (x - y) := by
  obtain ⟨a, rfl⟩ := hx; obtain ⟨b, rfl⟩ := hy
  exact ⟨a - b, (EReal.coe_sub a b).symm⟩

/-- The embedding of the reals passes through a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The square root of a nonnegative real is real. -/
theorem isReal_sqrt_coe {r : ℝ} (h : 0 ≤ r) : IsReal (Ideal.sqrt (r : EReal)) := by
  rw [Ideal.sqrt_coe, if_neg (not_lt.mpr h)]
  exact ⟨Real.sqrt r, rfl⟩

/-- The Euclidean length of a finite row of real entries is real. -/
theorem isReal_sqrt_sum_sq {ι : Type} (s : Finset ι) (f : ι → EReal) (h : ∀ i, IsReal (f i)) :
    IsReal (Ideal.sqrt (∑ i ∈ s, f i * f i)) := by
  choose r hr using h
  have e : ∑ i ∈ s, f i * f i = ((∑ i ∈ s, r i * r i : ℝ) : EReal) := by
    rw [coe_sum]
    exact Finset.sum_congr rfl fun i _ => by rw [hr i, EReal.coe_mul]
  rw [e]
  exact isReal_sqrt_coe (Finset.sum_nonneg fun i _ => mul_self_nonneg (r i))

/-- The quotient of a real entry by the count is real. -/
theorem _root_.Cert.LibRealEntries.IsReal.div_count {x : EReal} (hx : IsReal x) : IsReal (Ideal.div x count) := by
  rw [Cert.NeighborPool.div_count]
  exact hx.mul (isReal_coe _)

/-- The length of real features is real. -/
theorem fdist_isReal {fs : Fin 4 → Fin 4096 → Fin 32 → Fin 127 → EReal} (hfs : ∀ b v n k, IsReal (fs b v n k))
    (b : Fin 4) (v : Fin 4096) (n : Fin 32) : IsReal (fdist fs b v n) :=
  isReal_sqrt_sum_sq _ _ (hfs b v n)

/-- The scores of real features, weights and biases are real. -/
theorem zSplit_isReal {fs : Fin 4 → Fin 4096 → Fin 32 → Fin 127 → EReal} {W : Fin 256 → Fin 128 → EReal}
    {bias : Fin 256 → EReal} (hfs : ∀ b v n k, IsReal (fs b v n k)) (hW : ∀ c i, IsReal (W c i))
    (hb : ∀ c, IsReal (bias c)) (b : Fin 4) (v : Fin 4096) (n : Fin 32) (c : Fin 256) :
    IsReal (zSplit fs W bias b v n c) := by
  unfold zSplit
  exact (((isReal_sum _ _ fun k _ => (hfs b v n k).mul (hW c _)).add ((fdist_isReal hfs b v n).mul (hW c _))).add (hb c))

/-- The sum of real scores over the triples is real, and so is their mean. -/
theorem total_isReal {z : Fin 4 → Fin 4096 → Fin 32 → Fin 256 → EReal} (hz : ∀ b v n c, IsReal (z b v n c)) (c : Fin 256) :
    IsReal (total z c) :=
  isReal_sum _ _ fun b _ => isReal_sum _ _ fun v _ => isReal_sum _ _ fun n _ => hz b v n c

theorem mean_isReal {z : Fin 4 → Fin 4096 → Fin 32 → Fin 256 → EReal} (hz : ∀ b v n c, IsReal (z b v n c)) (c : Fin 256) :
    IsReal (mean z c) :=
  (total_isReal hz c).div_count

/-! ### The variance law -/

/-- The sum of the squared deviations from any m, over the 4 * 4096 * 32 triples, expanded. -/
theorem sum_sq_dev (r : Fin 4 → Fin 4096 → Fin 32 → ℝ) (m : ℝ) :
    ∑ b : Fin 4, ∑ v : Fin 4096, ∑ n : Fin 32, (r b v n - m) * (r b v n - m)
      = (∑ b : Fin 4, ∑ v : Fin 4096, ∑ n : Fin 32, r b v n * r b v n)
        - 2 * m * (∑ b : Fin 4, ∑ v : Fin 4096, ∑ n : Fin 32, r b v n) + 524288 * (m * m) := by
  have e : ∀ b v n, (r b v n - m) * (r b v n - m) = r b v n * r b v n - 2 * m * r b v n + m * m :=
    fun b v n => by ring
  simp only [e, Finset.sum_add_distrib, Finset.sum_sub_distrib, ← Finset.mul_sum, Finset.sum_const, Finset.card_univ,
    Fintype.card_fin, nsmul_eq_mul, Nat.cast_ofNat]
  ring

/-- The variance law over the reals: the mean squared deviation is the mean square less the squared mean. -/
theorem real_var_law (r : Fin 4 → Fin 4096 → Fin 32 → ℝ) :
    (∑ b : Fin 4, ∑ v : Fin 4096, ∑ n : Fin 32,
        (r b v n - (∑ b : Fin 4, ∑ v : Fin 4096, ∑ n : Fin 32, r b v n) * (1 / 524288))
          * (r b v n - (∑ b : Fin 4, ∑ v : Fin 4096, ∑ n : Fin 32, r b v n) * (1 / 524288))) * (1 / 524288)
      = (∑ b : Fin 4, ∑ v : Fin 4096, ∑ n : Fin 32, r b v n * r b v n) * (1 / 524288)
        - (∑ b : Fin 4, ∑ v : Fin 4096, ∑ n : Fin 32, r b v n) * (1 / 524288)
          * ((∑ b : Fin 4, ∑ v : Fin 4096, ∑ n : Fin 32, r b v n) * (1 / 524288)) := by
  rw [sum_sq_dev]
  ring

/-- The embedding of the reals passes through the sum over the triples. -/
theorem coe_sum3 (r : Fin 4 → Fin 4096 → Fin 32 → ℝ) :
    ∑ b : Fin 4, ∑ v : Fin 4096, ∑ n : Fin 32, (r b v n : EReal)
      = ((∑ b : Fin 4, ∑ v : Fin 4096, ∑ n : Fin 32, r b v n : ℝ) : EReal) := by
  simp only [coe_sum]

/-- THE LAW: with every score real, the two spellings of the variance agree. -/
theorem varOnePass_eq_varTwoPass (z : Fin 4 → Fin 4096 → Fin 32 → Fin 256 → EReal)
    (hz : ∀ b v n c, IsReal (z b v n c)) : varOnePass z = varTwoPass z := by
  choose r hr using hz
  funext c
  have hm : mean z c = (((∑ b : Fin 4, ∑ v : Fin 4096, ∑ n : Fin 32, r b v n c) * (1 / 524288) : ℝ) : EReal) := by
    simp only [mean, total, hr, div_count, coe_sum3 (fun b v n => r b v n c), ← EReal.coe_mul]
  have h1 : ∀ b v n, z b v n c * z b v n c = ((r b v n c * r b v n c : ℝ) : EReal) := fun b v n => by
    rw [hr, EReal.coe_mul]
  have h2 : ∀ b v n, (z b v n c - mean z c) * (z b v n c - mean z c)
      = (((r b v n c - (∑ b : Fin 4, ∑ v : Fin 4096, ∑ n : Fin 32, r b v n c) * (1 / 524288))
          * (r b v n c - (∑ b : Fin 4, ∑ v : Fin 4096, ∑ n : Fin 32, r b v n c) * (1 / 524288)) : ℝ) : EReal) :=
    fun b v n => by rw [hm, hr, ← EReal.coe_sub, ← EReal.coe_mul]
  unfold varOnePass varTwoPass
  simp only [h1, h2]
  rw [hm, coe_sum3 (fun b v n => r b v n c * r b v n c),
    coe_sum3 (fun b v n => (r b v n c - (∑ b : Fin 4, ∑ v : Fin 4096, ∑ n : Fin 32, r b v n c) * (1 / 524288))
          * (r b v n c - (∑ b : Fin 4, ∑ v : Fin 4096, ∑ n : Fin 32, r b v n c) * (1 / 524288))),
    div_count, div_count, ← EReal.coe_mul, ← EReal.coe_mul, ← EReal.coe_mul, ← EReal.coe_sub,
    real_var_law (fun b v n => r b v n c)]

end Cert.NeighborPool

end
-- ==== Proof.Bridge.lean ====
/-
  The two spellings of the pooled layer agree when the gathered features, the weights and the bias are real: the
  direction weight and the score are regrouped finite sums, and the two variances agree on real scores.
-/
import proofs.«116505_j37873021616799_1_alg».proof.Proof.Laws

noncomputable section

namespace Cert.NeighborPool

open Idealize.ShloMosaic Cert.LibRealEntries

/-- The layer with the distance column apart, the direction weight added term by term and the one-pass variance is the
    layer with the joined contraction, the direction weight as a contraction and the two-pass variance. -/
theorem pooled_spellings (nb : Fin 4 → Fin 4096 → Fin 32 → Fin 3 → EReal) (vx : Fin 4 → Fin 4096 → Fin 3 → EReal)
    (fs : Fin 4 → Fin 4096 → Fin 32 → Fin 127 → EReal) (dr : Fin 4 → Fin 256 → EReal) (W : Fin 256 → Fin 128 → EReal)
    (bias gam bet : Fin 256 → EReal)
    (hfs : ∀ b v n k, IsReal (fs b v n k)) (hW : ∀ c i, IsReal (W c i)) (hb : ∀ c, IsReal (bias c)) :
    pooled (zSplit fs W bias) (thetaSeq nb vx dr) (varOnePass (zSplit fs W bias)) gam bet
      = pooled (zJoined fs W bias) (thetaDot nb vx dr) (varTwoPass (zJoined fs W bias)) gam bet := by
  rw [← zSplit_eq_zJoined, ← thetaSeq_eq_thetaDot, varOnePass_eq_varTwoPass _ (zSplit_isReal hfs hW hb)]

end Cert.NeighborPool

end
-- ==== Proof.Finite.lean ====
/-
  From the stated precondition to real entries.

  The precondition is the conjunction, over the seven float arrays, of "every entry x has |x| < +∞", each conjunct a
  reduction by "and" of the entrywise tests. On the extended reals |x| = max x (-x) is +∞ at both infinities, so a test
  that holds says that the entry is a real number. Nothing is asked of the integer array.
-/
import proofs.«116505_j37873021616799_1_alg».proof.Pre_finite_inputs
import proofs.«116505_j37873021616799_1_alg».proof.Proof.LibRealEntries
import Idealize.ShloMosaic.Lib.ReduceAll
import Idealize.ShloMosaic.Lib.ValueIdx
import Idealize.ShloMosaic.Lib.IdealHost
import Idealize.ShloMosaic.PureOps.Ideal.Laws

noncomputable section

namespace Cert.KernelIdeal.Finite

open Idealize.ShloMosaic Cert.LibRealEntries Cert.Pre_finite_inputs

/-- The scalar shape has one index. -/
instance : Subsingleton S_.Idx := ⟨fun a b => funext fun d => d.elim0⟩

/-- The f32 word 0x7F800000 is +∞. -/
theorem ofBits_inf : Ideal.ofBits .f32 0x7F800000#32 = (⊤ : EReal) := by
  simp [Ideal.ofBits, Ideal.ieee]

/-- An extended real whose absolute value is below +∞ is a real. -/
theorem isReal_of_abs_lt_top (x : EReal) (h : max x (-x) < ⊤) : IsReal x := by
  induction x using EReal.rec with
  | bot => simp at h
  | coe r => exact ⟨r, rfl⟩
  | top => simp at h

/-- One entry's test, read back. -/
theorem isReal_of_test (x : Ideal .f32)
    (h : FloatOps.cmpf (F := Ideal) .olt (FloatOps.hostAbsf (F := Ideal) x)
      (FloatOps.ofBits (F := Ideal) .f32 0x7F800000#32) = 1#1) : IsReal x := by
  have h' : Ideal.cmp .olt (max x (-x)) (Ideal.ofBits .f32 0x7F800000#32) = 1#1 := h
  rw [ofBits_inf] at h'
  refine isReal_of_abs_lt_top x ?_
  by_contra hc
  simp [Ideal.cmp, hc] at h'

/-- One array's conjunct, read back: every entry is a real. -/
theorem all_isReal {S : Shape} {axes : List (Fin S.rank)} (a : FVec Ideal S .f32) (hb : S_.BroadcastsInDim S ![])
    (hr : S.ReducesTo axes S_) (hu : 0 < S_.numel) (init : IVec S_ 1) (j : S_.Idx)
    (h : Host.reduce IntOp.andi
        (cmpf (F := Ideal) .olt (Host.absf (F := Ideal) a)
          (broadcastInDim S ![] hb (constant (F := Ideal) S_ .f32 0x7F800000#32))) init hr hu j = 1#1)
    (i : S.Idx) : IsReal (a i) := by
  have e := Host.reduce_andi_all _ init hr hu j h i
  rw [ValueIdx.cmpf_apply, ValueIdx.broadcastInDim_scalar_apply] at e
  exact isReal_of_test (a i) e

/-- The precondition, read back: every entry of the seven float arrays is a real. -/
theorem inputs_isReal [Cert.Pre_finite_inputs.Facts] (a0 : IVec S4x4096x32 32) (a1 : FVec Ideal S4x4096x3 .f32)
    (a2 : FVec Ideal S4x4096x127 .f32) (a3 : FVec Ideal S4x256 .f32) (a4 : FVec Ideal S256x128 .f32)
    (a5 a6 a7 : FVec Ideal S256 .f32)
    (h : Cert.Pre_finite_inputs.fn (F := Ideal) a0 a1 a2 a3 a4 a5 a6 a7 = fun _ => 1#1) :
    (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) := by
  have h0 := congrFun h ValueIdx.ix0
  dsimp only [Cert.Pre_finite_inputs.fn, Cert.Pre_finite_inputs.fn_part1] at h0
  obtain ⟨h16, e7⟩ := IntOp.andi_eq_one.1 h0
  obtain ⟨h15, e6⟩ := IntOp.andi_eq_one.1 h16
  obtain ⟨h14, e5⟩ := IntOp.andi_eq_one.1 h15
  obtain ⟨h13, e4⟩ := IntOp.andi_eq_one.1 h14
  obtain ⟨h12, e3⟩ := IntOp.andi_eq_one.1 h13
  obtain ⟨e1, e2⟩ := IntOp.andi_eq_one.1 h12
  exact ⟨all_isReal a1 _ _ _ _ _ e1, all_isReal a2 _ _ _ _ _ e2, all_isReal a3 _ _ _ _ _ e3,
    all_isReal a4 _ _ _ _ _ e4, all_isReal a5 _ _ _ _ _ e5, all_isReal a6 _ _ _ _ _ e6, all_isReal a7 _ _ _ _ _ e7⟩

end Cert.KernelIdeal.Finite

end
-- ==== Proof.lean ====
/-
  A direction-weighted neighbour pooling layer: a Pallas implementation in two kernels against its jnp reference,
  equal as extended reals on finite inputs.

  The implementation gathers each vertex's 32 neighbours on the host, accumulates the per-channel sum and sum of
  squares of the linear layer's scores in a first kernel (128 grid points adding into two resident rows), forms mean
  and one-pass variance on the host, and in a second kernel (256 grid points of 64 vertices) recomputes the scores,
  normalises them, weights them by the direction term and takes the maximum over the neighbour slots. The reference
  computes the same layer with one contraction over the 128 joined feature columns, the direction weight as a
  contraction, and the two-pass variance.

  Both programs' frames (termination, no fault, arguments unchanged) come from one run of the program as five
  segments, proved once for any float instance and cited at the word-level and at the extended-real instance; the
  reference's frame is its run with the result dropped. No operation was rewritten by the idealisation, so there is
  nothing to preserve. For the equivalence, the kernel's result is read entry by entry as the layer in the kernel's
  spelling, the reference's as the layer in its own, and the two spellings agree because every score is a real number
  when the inputs are finite (gathered entries are entries of the inputs).
-/
import proofs.«116505_j37873021616799_1_alg».proof.Defs
import proofs.«116505_j37873021616799_1_alg».proof.Proof.Gen.Kernel
import proofs.«116505_j37873021616799_1_alg».proof.Proof.Gen.KernelIdeal
import proofs.«116505_j37873021616799_1_alg».proof.Proof.Gen.ReferenceIdeal
import proofs.«116505_j37873021616799_1_alg».proof.Proof.Gen.Pre_finite_inputs
import proofs.«116505_j37873021616799_1_alg».proof.Proof.Gen.ReferenceIdeal.Read
import proofs.«116505_j37873021616799_1_alg».proof.Proof.RunK
import proofs.«116505_j37873021616799_1_alg».proof.Proof.KernelPool
import proofs.«116505_j37873021616799_1_alg».proof.Proof.RefValue
import proofs.«116505_j37873021616799_1_alg».proof.Proof.Glue
import proofs.«116505_j37873021616799_1_alg».proof.Proof.Bridge
import proofs.«116505_j37873021616799_1_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx
open Cert.NeighborPool Cert.LibRealEntries

theorem frame_k : Cert.frame_Kernel := fun m ρ _ => Cert.Kernel.Frame.frame m ρ
theorem frame_ki : Cert.frame_KernelIdeal := fun m ρ _ => Cert.KernelIdeal.Frame.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- The kernel program's result buffer at the end of its run is the reference's term of the same argument arrays:
    entry (b, v, c) of either is the pooled layer, in two spellings that agree on real scores. -/
theorem kernel_result (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Frame.W5 m ρ c (Proc.devRef .tc Cert.KernelIdeal.main_v53)
      = Cert.ReferenceIdeal.Read.val_main_v88 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  funext i
  obtain ⟨b, v, cc, rfl⟩ : ∃ (b : Fin 4) (v : Fin 4096) (cc : Fin 256), i = ix3 b v cc := ⟨i 0, i 1, i 2, eq_ix3 i⟩
  have hreal := Cert.KernelIdeal.Finite.inputs_isReal _ _ _ _ _ _ _ _ (hpre c)
  refine (Cert.KernelIdeal.KernelValue.pool_eq m ρ c b v cc).trans ?_
  refine Eq.trans ?_ (Cert.ReferenceIdeal.RefValue.pooled_eq _ _ _ _ _ _ _ _ b v cc).symm
  exact congrFun (congrFun (congrFun (pooled_spellings _ _ _ _ _ _ _ _
    (Cert.Proof.Glue.fs_isReal _ _ hreal.2.1) (fun cc i => hreal.2.2.2.1 _) (fun cc => hreal.2.2.2.2.1 _)) b) v) cc

theorem algebraic : Cert.algebraic_KernelIdeal_ReferenceIdeal := by
  intro m ρ m' ρ' hpre hagree
  refine ⟨fun c => Cert.ReferenceIdeal.Read.val_main_v88 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ⟨?_, ?_, ?_, ?_, ?_, ?_, ?_, ?_, ?_⟩) (Cert.KernelIdeal.Frame.run_all m ρ)
    · exact (h c _ (Cert.KernelIdeal.Frame.mem_uc Cert.KernelIdeal.main_v53 (by decide))).trans (kernel_result m ρ hpre c)
    · exact (h c _ (Cert.KernelIdeal.Frame.mem_uc Cert.KernelIdeal.main_arg0 (by decide))).trans (Cert.KernelIdeal.Frame.W5_main_arg0 m ρ c)
    · exact (h c _ (Cert.KernelIdeal.Frame.mem_uc Cert.KernelIdeal.main_arg1 (by decide))).trans (Cert.KernelIdeal.Frame.W5_main_arg1 m ρ c)
    · exact (h c _ (Cert.KernelIdeal.Frame.mem_uc Cert.KernelIdeal.main_arg2 (by decide))).trans (Cert.KernelIdeal.Frame.W5_main_arg2 m ρ c)
    · exact (h c _ (Cert.KernelIdeal.Frame.mem_uc Cert.KernelIdeal.main_arg3 (by decide))).trans (Cert.KernelIdeal.Frame.W5_main_arg3 m ρ c)
    · exact (h c _ (Cert.KernelIdeal.Frame.mem_uc Cert.KernelIdeal.main_arg4 (by decide))).trans (Cert.KernelIdeal.Frame.W5_main_arg4 m ρ c)
    · exact (h c _ (Cert.KernelIdeal.Frame.mem_uc Cert.KernelIdeal.main_arg5 (by decide))).trans (Cert.KernelIdeal.Frame.W5_main_arg5 m ρ c)
    · exact (h c _ (Cert.KernelIdeal.Frame.mem_uc Cert.KernelIdeal.main_arg6 (by decide))).trans (Cert.KernelIdeal.Frame.W5_main_arg6 m ρ c)
    · exact (h c _ (Cert.KernelIdeal.Frame.mem_uc Cert.KernelIdeal.main_arg7 (by decide))).trans (Cert.KernelIdeal.Frame.W5_main_arg7 m ρ c)
  · refine (θ_run Cert.ReferenceIdeal.defs _ _).mono (fun r h c => ⟨?_, (h c).2⟩) (Cert.ReferenceIdeal.Value.run (F := Ideal) m' ρ')
    rw [(h c).1, Cert.ReferenceIdeal.Read.val_main_v88_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
